-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v123)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v123) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v248) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S500000 : Shape := ⟨1, ![500000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg17 : FVec F S256x128 .f32) (main_arg18 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S256x128 .f32 := Host.absf main_arg17
  let main_cst_20 : FVec F S_ .f32 := constant S_ .f32 0x7F800000#32
  let main_v55 : FVec F S256x128 .f32 := broadcastInDim S256x128 ![] bcast_S_S256x128 main_cst_20
  let main_v56 : IVec S256x128 1 := cmpf .olt main_v54 main_v55
  let main_c_21 : IVec S_ 1 := constantI S_ 1 1#1
  let main_v57 : IVec S_ 1 := (fun x v => Host.reduce IntOp.andi x v reducesTo_S256x128_S_d0_1 h_S_) main_v56 main_c_21
  let main_v58 : IVec S_ 1 := andi main_v53 main_v57
  let main_v59 : FVec F S128 .f32 := Host.absf main_arg18
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg13 : FVec F S256x128 .f32) (main_arg14 : FVec F S128 .f32) (main_arg15 : FVec F S256x128 .f32) (main_arg16 : FVec F S128 .f32) (main_arg17 : FVec F S256x128 .f32) (main_arg18 : FVec F S128 .f32) (main_v33 : IVec S_ 1) : IVec S_ 1 :=
  let main_v34 : FVec F S256x128 .f32 := Host.absf main_arg13
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg14
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S256x128 .f32 := Host.absf main_arg15
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg16
  let main_cst_18 : FVec F S_ .f32 := constant S_ .f32 0x7F800000#32
  let main_v50 : FVec F S128 .f32 := broadcastInDim S128 ![] bcast_S_S128 main_cst_18
  fn_part3 (F := F) main_arg17 main_arg18 main_v48 main_v49 main_v50

def fn_part1 {F : FTy → Type} [FloatOps F] (main_arg10 : FVec F S256 .f32) (main_arg11 : FVec F S128x256 .f32) (main_arg12 : FVec F S256 .f32) (main_arg13 : FVec F S256x128 .f32) (main_arg14 : FVec F S128 .f32) (main_arg15 : FVec F S256x128 .f32) (main_arg16 : FVec F S128 .f32) (main_arg17 : FVec F S256x128 .f32) (main_arg18 : FVec F S128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256 .f32 := Host.absf main_arg10
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S128x256 .f32 := Host.absf main_arg11
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S256 .f32 := Host.absf main_arg12
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg13 main_arg14 main_arg15 main_arg16 main_arg17 main_arg18 main_v33

def fn {F : FTy → Type} [FloatOps F] (main_arg0 : FVec F S100000x128 .f32) (main_arg1 : IVec S500000 32) (main_arg2 : IVec S500000 32) (main_arg3 : IVec S500000 32) (main_arg4 : IVec S500000 32) (main_arg5 : IVec S500000 32) (main_arg6 : IVec S500000 32) (main_arg7 : FVec F S128x256 .f32) (main_arg8 : FVec F S256 .f32) (main_arg9 : FVec F S128x256 .f32) (main_arg10 : FVec F S256 .f32) (main_arg11 : FVec F S128x256 .f32) (main_arg12 : FVec F S256 .f32) (main_arg13 : FVec F S256x128 .f32) (main_arg14 : FVec F S128 .f32) (main_arg15 : FVec F S256x128 .f32) (main_arg16 : FVec F S128 .f32) (main_arg17 : FVec F S256x128 .f32) (main_arg18 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg7
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg8
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg9
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg10 main_arg11 main_arg12 main_arg13 main_arg14 main_arg15 main_arg16 main_arg17 main_arg18 main_v13 main_v16
-- ==== Kernel.lean ====
abbrev S100000x128 : Shape := ⟨2, ![100000, 128]⟩
abbrev S500000 : Shape := ⟨1, ![500000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩
abbrev S100000 : Shape := ⟨1, ![100000]⟩
abbrev S500000x1 : Shape := ⟨2, ![500000, 1]⟩
abbrev S100000x1 : Shape := ⟨2, ![100000, 1]⟩
abbrev S100000x3 : Shape := ⟨2, ![100000, 3]⟩
abbrev S500000x128 : Shape := ⟨2, ![500000, 128]⟩
abbrev S100000x256 : Shape := ⟨2, ![100000, 256]⟩
abbrev S2000x128 : Shape := ⟨2, ![2000, 128]⟩
abbrev S2000x3 : Shape := ⟨2, ![2000, 3]⟩
abbrev S2000x256 : Shape := ⟨2, ![2000, 256]⟩
abbrev S2000x1 : Shape := ⟨2, ![2000, 1]⟩
abbrev S1x256 : Shape := ⟨2, ![1, 256]⟩
abbrev S1x128 : Shape := ⟨2, ![1, 128]⟩

abbrev nBuf : Space → Nat
  | .hbm => 196
  | .vmem => 40
  | .smem => 0
  | _ => 0

abbrev hbmTy0_0 (i : Nat) : BufTy := match i % 128 with
  | 0 => ⟨S100000x128, .f32⟩
  | 1 => ⟨S500000, .i32⟩
  | 2 => ⟨S500000, .i32⟩
  | 3 => ⟨S500000, .i32⟩
  | 4 => ⟨S500000, .i32⟩
  | 5 => ⟨S500000, .i32⟩
  | 6 => ⟨S500000, .i32⟩
  | 7 => ⟨S128x256, .f32⟩
  | 8 => ⟨S256, .f32⟩
  | 9 => ⟨S128x256, .f32⟩
  | 10 => ⟨S256, .f32⟩
  | 11 => ⟨S128x256, .f32⟩
  | 12 => ⟨S256, .f32⟩
  | 13 => ⟨S256x128, .f32⟩
  | 14 => ⟨S128, .f32⟩
  | 15 => ⟨S256x128, .f32⟩
  | 16 => ⟨S128, .f32⟩
  | 17 => ⟨S256x128, .f32⟩
  | 18 => ⟨S128, .f32⟩
  | 19 => ⟨S_, .f32⟩
  | 20 => ⟨S500000, .f32⟩
  | 21 => ⟨S_, .f32⟩
  | 22 => ⟨S100000, .f32⟩
  | 23 => ⟨S500000x1, .i32⟩
  | 24 => ⟨S100000, .f32⟩
  | 25 => ⟨S_, .f32⟩
  | 26 => ⟨S_, .f32⟩
  | 27 => ⟨S100000, .f32⟩
  | 28 => ⟨S100000, .f32⟩
  | 29 => ⟨S_, .f32⟩
  | 30 => ⟨S100000, .f32⟩
  | 31 => ⟨S500000x1, .i32⟩
  | 32 => ⟨S100000, .f32⟩
  | 33 => ⟨S_, .f32⟩
  | 34 => ⟨S_, .f32⟩
  | 35 => ⟨S100000, .f32⟩
  | 36 => ⟨S100000, .f32⟩
  | 37 => ⟨S_, .f32⟩
  | 38 => ⟨S100000, .f32⟩
  | 39 => ⟨S100000, .f32⟩
  | 40 => ⟨S_, .f32⟩
  | 41 => ⟨S100000, .f32⟩
  | 42 => ⟨S100000, .f32⟩
  | 43 => ⟨S_, .f32⟩
  | 44 => ⟨S500000, .f32⟩
  | 45 => ⟨S_, .f32⟩
  | 46 => ⟨S100000, .f32⟩
  | 47 => ⟨S500000x1, .i32⟩
  | 48 => ⟨S100000, .f32⟩
  | 49 => ⟨S_, .f32⟩
  | 50 => ⟨S_, .f32⟩
  | 51 => ⟨S100000, .f32⟩
  | 52 => ⟨S100000, .f32⟩
  | 53 => ⟨S_, .f32⟩
  | 54 => ⟨S100000, .f32⟩
  | 55 => ⟨S500000x1, .i32⟩
  | 56 => ⟨S100000, .f32⟩
  | 57 => ⟨S_, .f32⟩
  | 58 => ⟨S_, .f32⟩
  | 59 => ⟨S100000, .f32⟩
  | 60 => ⟨S100000, .f32⟩
  | 61 => ⟨S_, .f32⟩
  | 62 => ⟨S100000, .f32⟩
  | 63 => ⟨S100000, .f32⟩
  | 64 => ⟨S_, .f32⟩
  | 65 => ⟨S100000, .f32⟩
  | 66 => ⟨S100000, .f32⟩
  | 67 => ⟨S_, .f32⟩
  | 68 => ⟨S500000, .f32⟩
  | 69 => ⟨S_, .f32⟩
  | 70 => ⟨S100000, .f32⟩
  | 71 => ⟨S500000x1, .i32⟩
  | 72 => ⟨S100000, .f32⟩
  | 73 => ⟨S_, .f32⟩
  | 74 => ⟨S_, .f32⟩
  | 75 => ⟨S100000, .f32⟩
  | 76 => ⟨S100000, .f32⟩
  | 77 => ⟨S_, .f32⟩
  | 78 => ⟨S100000, .f32⟩
  | 79 => ⟨S500000x1, .i32⟩
  | 80 => ⟨S100000, .f32⟩
  | 81 => ⟨S_, .f32⟩
  | 82 => ⟨S_, .f32⟩
  | 83 => ⟨S100000, .f32⟩
  | 84 => ⟨S100000, .f32⟩
  | 85 => ⟨S_, .f32⟩
  | 86 => ⟨S100000, .f32⟩
  | 87 => ⟨S100000, .f32⟩
  | 88 => ⟨S_, .f32⟩
  | 89 => ⟨S100000, .f32⟩
  | 90 => ⟨S100000, .f32⟩
  | 91 => ⟨S100000x1, .f32⟩
  | 92 => ⟨S100000x1, .f32⟩
  | 93 => ⟨S100000x1, .f32⟩
  | 94 => ⟨S100000x3, .f32⟩
  | 95 => ⟨S100000x1, .f32⟩
  | 96 => ⟨S100000x128, .f32⟩
  | 97 => ⟨S100000x128, .f32⟩
  | 98 => ⟨S_, .i32⟩
  | 99 => ⟨S500000, .i32⟩
  | 100 => ⟨S500000, .i1⟩
  | 101 => ⟨S_, .i32⟩
  | 102 => ⟨S500000, .i32⟩
  | 103 => ⟨S500000, .i32⟩
  | 104 => ⟨S500000, .i32⟩
  | 105 => ⟨S500000x1, .i32⟩
  | 106 => ⟨S500000x128, .f32⟩
  | 107 => ⟨S_, .f32⟩
  | 108 => ⟨S100000x128, .f32⟩
  | 109 => ⟨S500000x1, .i32⟩
  | 110 => ⟨S100000x128, .f32⟩
  | 111 => ⟨S100000x1, .f32⟩
  | 112 => ⟨S100000x128, .f32⟩
  | 113 => ⟨S100000x128, .f32⟩
  | 114 => ⟨S_, .i32⟩
  | 115 => ⟨S500000, .i32⟩
  | 116 => ⟨S500000, .i1⟩
  | 117 => ⟨S_, .i32⟩
  | 118 => ⟨S500000, .i32⟩
  | 119 => ⟨S500000, .i32⟩
  | 120 => ⟨S500000, .i32⟩
  | 121 => ⟨S500000x1, .i32⟩
  | 122 => ⟨S500000x128, .f32⟩
  | 123 => ⟨S_, .f32⟩
  | 124 => ⟨S100000x128, .f32⟩
  | 125 => ⟨S500000x1, .i32⟩
  | 126 => ⟨S100000x128, .f32⟩
  | 127 => ⟨S100000x1, .f32⟩
  | _ => ⟨S100000x128, .f32⟩

abbrev hbmTy0_1 (i : Nat) : BufTy := match i % 128 with
  | 0 => ⟨S100000x128, .f32⟩
  | 1 => ⟨S100000x128, .f32⟩
  | 2 => ⟨S_, .i32⟩
  | 3 => ⟨S500000, .i32⟩
  | 4 => ⟨S500000, .i1⟩
  | 5 => ⟨S_, .i32⟩
  | 6 => ⟨S500000, .i32⟩
  | 7 => ⟨S500000, .i32⟩
  | 8 => ⟨S500000, .i32⟩
  | 9 => ⟨S500000x1, .i32⟩
  | 10 => ⟨S500000x128, .f32⟩
  | 11 => ⟨S_, .f32⟩
  | 12 => ⟨S100000x128, .f32⟩
  | 13 => ⟨S500000x1, .i32⟩
  | 14 => ⟨S100000x128, .f32⟩
  | 15 => ⟨S100000x256, .f32⟩
  | 16 => ⟨S100000x128, .f32⟩
  | 17 => ⟨S100000x128, .f32⟩
  | 18 => ⟨S100000x128, .f32⟩
  | 19 => ⟨S100000x1, .f32⟩
  | 20 => ⟨S100000x128, .f32⟩
  | 21 => ⟨S100000x128, .f32⟩
  | 22 => ⟨S_, .i32⟩
  | 23 => ⟨S500000, .i32⟩
  | 24 => ⟨S500000, .i1⟩
  | 25 => ⟨S_, .i32⟩
  | 26 => ⟨S500000, .i32⟩
  | 27 => ⟨S500000, .i32⟩
  | 28 => ⟨S500000, .i32⟩
  | 29 => ⟨S500000x1, .i32⟩
  | 30 => ⟨S500000x128, .f32⟩
  | 31 => ⟨S_, .f32⟩
  | 32 => ⟨S100000x128, .f32⟩
  | 33 => ⟨S500000x1, .i32⟩
  | 34 => ⟨S100000x128, .f32⟩
  | 35 => ⟨S100000x1, .f32⟩
  | 36 => ⟨S100000x128, .f32⟩
  | 37 => ⟨S100000x128, .f32⟩
  | 38 => ⟨S_, .i32⟩
  | 39 => ⟨S500000, .i32⟩
  | 40 => ⟨S500000, .i1⟩
  | 41 => ⟨S_, .i32⟩
  | 42 => ⟨S500000, .i32⟩
  | 43 => ⟨S500000, .i32⟩
  | 44 => ⟨S500000, .i32⟩
  | 45 => ⟨S500000x1, .i32⟩
  | 46 => ⟨S500000x128, .f32⟩
  | 47 => ⟨S_, .f32⟩
  | 48 => ⟨S100000x128, .f32⟩
  | 49 => ⟨S500000x1, .i32⟩
  | 50 => ⟨S100000x128, .f32⟩
  | 51 => ⟨S100000x1, .f32⟩
  | 52 => ⟨S100000x128, .f32⟩
  | 53 => ⟨S100000x128, .f32⟩
  | 54 => ⟨S_, .i32⟩
  | 55 => ⟨S500000, .i32⟩
  | 56 => ⟨S500000, .i1⟩
  | 57 => ⟨S_, .i32⟩
  | 58 => ⟨S500000, .i32⟩
  | 59 => ⟨S500000, .i32⟩
  | 60 => ⟨S500000, .i32⟩
  | 61 => ⟨S500000x1, .i32⟩
  | 62 => ⟨S500000x128, .f32⟩
  | 63 => ⟨S_, .f32⟩
  | 64 => ⟨S100000x128, .f32⟩
  | 65 => ⟨S500000x1, .i32⟩
  | 66 => ⟨S100000x128, .f32⟩
  | 67 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x3, .f32⟩
  | .local _ .vmem, ⟨7, _⟩ => ⟨S2000x3, .f32⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S256, .f32⟩
  | .local _ .vmem, ⟨12, _⟩ => ⟨S256, .f32⟩
  | .local _ .vmem, ⟨13, _⟩ => ⟨S256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S256x128, .f32⟩
  | .local _ .vmem, ⟨19, _⟩ => ⟨S256x128, .f32⟩
  | .local _ .vmem, ⟨20, _⟩ => ⟨S256x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S2000x3, .f32⟩
  | .local _ .vmem, ⟨34, _⟩ => ⟨S2000x3, .f32⟩
  | .local _ .vmem, ⟨35, _⟩ => ⟨S128, .f32⟩
  | .local _ .vmem, ⟨36, _⟩ => ⟨S128, .f32⟩
  | .local _ .vmem, ⟨37, _⟩ => ⟨S128, .f32⟩
  | .local _ .vmem, ⟨38, _⟩ => ⟨S2000x128, .f32⟩
  | .local _ .vmem, ⟨39, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_v0 : Ref sig .tc := ⟨.hbm, 20, rfl⟩
abbrev main_cst_0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_cst_1 : Ref sig .tc := ⟨.hbm, 25, rfl⟩
abbrev main_call0_v0 : Ref sig .tc := ⟨.hbm, 26, rfl⟩
abbrev main_call0_v1 : Ref sig .tc := ⟨.hbm, 27, rfl⟩
abbrev main_v4 : Ref sig .tc := ⟨.hbm, 28, rfl⟩
abbrev main_cst_2 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_cst_3 : Ref sig .tc := ⟨.hbm, 33, rfl⟩
abbrev main_call1_v0 : Ref sig .tc := ⟨.hbm, 34, rfl⟩
abbrev main_call1_v1 : Ref sig .tc := ⟨.hbm, 35, rfl⟩
abbrev main_v8 : Ref sig .tc := ⟨.hbm, 36, rfl⟩
abbrev main_cst_4 : Ref sig .tc := ⟨.hbm, 37, rfl⟩
abbrev main_v9 : Ref sig .tc := ⟨.hbm, 38, rfl⟩
abbrev main_v10 : Ref sig .tc := ⟨.hbm, 39, rfl⟩
abbrev main_cst_5 : Ref sig .tc := ⟨.hbm, 40, rfl⟩
abbrev main_v11 : Ref sig .tc := ⟨.hbm, 41, rfl⟩
abbrev main_v12 : Ref sig .tc := ⟨.hbm, 42, rfl⟩
abbrev main_cst_6 : Ref sig .tc := ⟨.hbm, 43, rfl⟩
abbrev main_v13 : Ref sig .tc := ⟨.hbm, 44, rfl⟩
abbrev main_cst_7 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_cst_8 : Ref sig .tc := ⟨.hbm, 49, rfl⟩
abbrev main_call2_v0 : Ref sig .tc := ⟨.hbm, 50, rfl⟩
abbrev main_call2_v1 : Ref sig .tc := ⟨.hbm, 51, rfl⟩
abbrev main_v17 : Ref sig .tc := ⟨.hbm, 52, rfl⟩
abbrev main_cst_9 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_cst_10 : Ref sig .tc := ⟨.hbm, 57, rfl⟩
abbrev main_call3_v0 : Ref sig .tc := ⟨.hbm, 58, rfl⟩
abbrev main_call3_v1 : Ref sig .tc := ⟨.hbm, 59, rfl⟩
abbrev main_v21 : Ref sig .tc := ⟨.hbm, 60, rfl⟩
abbrev main_cst_11 : Ref sig .tc := ⟨.hbm, 61, rfl⟩
abbrev main_v22 : Ref sig .tc := ⟨.hbm, 62, rfl⟩
abbrev main_v23 : Ref sig .tc := ⟨.hbm, 63, rfl⟩
abbrev main_cst_12 : Ref sig .tc := ⟨.hbm, 64, rfl⟩
abbrev main_v24 : Ref sig .tc := ⟨.hbm, 65, rfl⟩
abbrev main_v25 : Ref sig .tc := ⟨.hbm, 66, rfl⟩
abbrev main_cst_13 : Ref sig .tc := ⟨.hbm, 67, rfl⟩
abbrev main_v26 : Ref sig .tc := ⟨.hbm, 68, rfl⟩
abbrev main_cst_14 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_cst_15 : Ref sig .tc := ⟨.hbm, 73, rfl⟩
abbrev main_call4_v0 : Ref sig .tc := ⟨.hbm, 74, rfl⟩
abbrev main_call4_v1 : Ref sig .tc := ⟨.hbm, 75, rfl⟩
abbrev main_v30 : Ref sig .tc := ⟨.hbm, 76, rfl⟩
abbrev main_cst_16 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_cst_17 : Ref sig .tc := ⟨.hbm, 81, rfl⟩
abbrev main_call5_v0 : Ref sig .tc := ⟨.hbm, 82, rfl⟩
abbrev main_call5_v1 : Ref sig .tc := ⟨.hbm, 83, rfl⟩
abbrev main_v34 : Ref sig .tc := ⟨.hbm, 84, rfl⟩
abbrev main_cst_18 : Ref sig .tc := ⟨.hbm, 85, rfl⟩
abbrev main_v35 : Ref sig .tc := ⟨.hbm, 86, rfl⟩
abbrev main_v36 : Ref sig .tc := ⟨.hbm, 87, rfl⟩
abbrev main_cst_19 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_c : Ref sig .tc := ⟨.hbm, 98, rfl⟩
abbrev main_v46 : Ref sig .tc := ⟨.hbm, 99, rfl⟩
abbrev main_v47 : Ref sig .tc := ⟨.hbm, 100, rfl⟩
abbrev main_c_20 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_cst_21 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_c_22 : Ref sig .tc := ⟨.hbm, 114, rfl⟩
abbrev main_v59 : Ref sig .tc := ⟨.hbm, 115, rfl⟩
abbrev main_v60 : Ref sig .tc := ⟨.hbm, 116, rfl⟩
abbrev main_c_23 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_cst_24 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_c_25 : Ref sig .tc := ⟨.hbm, 130, rfl⟩
abbrev main_v72 : Ref sig .tc := ⟨.hbm, 131, rfl⟩
abbrev main_v73 : Ref sig .tc := ⟨.hbm, 132, rfl⟩
abbrev main_c_26 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_cst_27 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_v83_0 : Ref sig .tc := ⟨.hbm, 144, rfl⟩
abbrev main_v83_1 : Ref sig .tc := ⟨.hbm, 145, rfl⟩
abbrev main_v83_2 : Ref sig .tc := ⟨.hbm, 146, rfl⟩
abbrev main_v84 : Ref sig .tc := ⟨.hbm, 147, rfl⟩
abbrev main_v85 : Ref sig .tc := ⟨.hbm, 148, rfl⟩
abbrev main_v86 : Ref sig .tc := ⟨.hbm, 149, rfl⟩
abbrev main_c_28 : Ref sig .tc := ⟨.hbm, 150, rfl⟩
abbrev main_v87 : Ref sig .tc := ⟨.hbm, 151, rfl⟩
abbrev main_v88 : Ref sig .tc := ⟨.hbm, 152, rfl⟩
abbrev main_c_29 : Ref sig .tc := ⟨.hbm, 153, rfl⟩
abbrev main_v89 : Ref sig .tc := ⟨.hbm, 154, rfl⟩
abbrev main_v90 : Ref sig .tc := ⟨.hbm, 155, rfl⟩
abbrev main_v91 : Ref sig .tc := ⟨.hbm, 156, rfl⟩
abbrev main_v92 : Ref sig .tc := ⟨.hbm, 157, rfl⟩
abbrev main_v93 : Ref sig .tc := ⟨.hbm, 158, rfl⟩
abbrev main_cst_30 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_v97 : Ref sig .tc := ⟨.hbm, 163, rfl⟩
abbrev main_v98 : Ref sig .tc := ⟨.hbm, 164, rfl⟩
abbrev main_v99 : Ref sig .tc := ⟨.hbm, 165, rfl⟩
abbrev main_c_31 : Ref sig .tc := ⟨.hbm, 166, rfl⟩
abbrev main_v100 : Ref sig .tc := ⟨.hbm, 167, rfl⟩
abbrev main_v101 : Ref sig .tc := ⟨.hbm, 168, rfl⟩
abbrev main_c_32 : Ref sig .tc := ⟨.hbm, 169, rfl⟩
abbrev main_v102 : Ref sig .tc := ⟨.hbm, 170, rfl⟩
abbrev main_v103 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_cst_33 : Ref sig .tc := ⟨.hbm, 175, rfl⟩
abbrev main_v107 : Ref sig .tc := ⟨.hbm, 176, rfl⟩
abbrev main_v108 : Ref sig .tc := ⟨.hbm, 177, rfl⟩
abbrev main_v109 : Ref sig .tc := ⟨.hbm, 178, rfl⟩
abbrev main_v110 : Ref sig .tc := ⟨.hbm, 179, rfl⟩
abbrev main_v111 : Ref sig .tc := ⟨.hbm, 180, rfl⟩
abbrev main_v112 : Ref sig .tc := ⟨.hbm, 181, rfl⟩
abbrev main_c_34 : Ref sig .tc := ⟨.hbm, 182, rfl⟩
abbrev main_v113 : Ref sig .tc := ⟨.hbm, 183, rfl⟩
abbrev main_v114 : Ref sig .tc := ⟨.hbm, 184, rfl⟩
abbrev main_c_35 : Ref sig .tc := ⟨.hbm, 185, rfl⟩
abbrev main_v115 : Ref sig .tc := ⟨.hbm, 186, rfl⟩
abbrev main_v116 : Ref sig .tc := ⟨.hbm, 187, rfl⟩
abbrev main_v117 : Ref sig .tc := ⟨.hbm, 188, rfl⟩
abbrev main_v118 : Ref sig .tc := ⟨.hbm, 189, rfl⟩
abbrev main_v119 : Ref sig .tc := ⟨.hbm, 190, rfl⟩
abbrev main_cst_36 : Ref sig .tc := ⟨.hbm, 191, rfl⟩
abbrev main_v120 : Ref sig .tc := ⟨.hbm, 192, rfl⟩
abbrev main_v121 : Ref sig .tc := ⟨.hbm, 193, rfl⟩
abbrev main_v122 : Ref sig .tc := ⟨.hbm, 194, rfl⟩
abbrev main_v123 : Ref sig .tc := ⟨.hbm, 195, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg5_1 : Ref sig .tc := ⟨.vmem, 24, rfl⟩
abbrev cc1_stg6_0 : Ref sig .tc := ⟨.vmem, 25, rfl⟩
abbrev cc1_stg6_1 : Ref sig .tc := ⟨.vmem, 26, rfl⟩
abbrev cc2_stg0_0 : Ref sig .tc := ⟨.vmem, 27, rfl⟩
abbrev cc2_stg0_1 : Ref sig .tc := ⟨.vmem, 28, rfl⟩
abbrev cc2_stg1_0 : Ref sig .tc := ⟨.vmem, 29, rfl⟩
abbrev cc2_stg1_1 : Ref sig .tc := ⟨.vmem, 30, rfl⟩
abbrev cc2_stg2_0 : Ref sig .tc := ⟨.vmem, 31, rfl⟩
abbrev cc2_stg2_1 : Ref sig .tc := ⟨.vmem, 32, rfl⟩
abbrev cc2_stg3_0 : Ref sig .tc := ⟨.vmem, 33, rfl⟩
abbrev cc2_stg3_1 : Ref sig .tc := ⟨.vmem, 34, rfl⟩
abbrev cc2_stg4_0 : Ref sig .tc := ⟨.vmem, 35, rfl⟩
abbrev cc2_stg5_0 : Ref sig .tc := ⟨.vmem, 36, rfl⟩
abbrev cc2_stg6_0 : Ref sig .tc := ⟨.vmem, 37, rfl⟩
abbrev cc2_stg7_0 : Ref sig .tc := ⟨.vmem, 38, rfl⟩
abbrev cc2_stg7_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc1_sem0_0 : DmaSem sig := 16
abbrev cc1_sem0_1 : DmaSem sig := 17
abbrev cc1_sem1_0 : DmaSem sig := 18
abbrev cc1_sem2_0 : DmaSem sig := 19
abbrev cc1_sem3_0 : DmaSem sig := 20
abbrev cc1_sem4_0 : DmaSem sig := 21
abbrev cc1_sem4_1 : DmaSem sig := 22
abbrev cc1_sem5_0 : DmaSem sig := 23
abbrev cc1_sem5_1 : DmaSem sig := 24
abbrev cc1_sem6_0 : DmaSem sig := 25
abbrev cc1_sem6_1 : DmaSem sig := 26
abbrev cc2_sem0_0 : DmaSem sig := 27
abbrev cc2_sem0_1 : DmaSem sig := 28
abbrev cc2_sem1_0 : DmaSem sig := 29
abbrev cc2_sem1_1 : DmaSem sig := 30
abbrev cc2_sem2_0 : DmaSem sig := 31
abbrev cc2_sem2_1 : DmaSem sig := 32
abbrev cc2_sem3_0 : DmaSem sig := 33
abbrev cc2_sem3_1 : DmaSem sig := 34
abbrev cc2_sem4_0 : DmaSem sig := 35
abbrev cc2_sem5_0 : DmaSem sig := 36
abbrev cc2_sem6_0 : DmaSem sig := 37
abbrev cc2_sem7_0 : DmaSem sig := 38
abbrev cc2_sem7_1 : DmaSem sig := 39

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2000x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x3 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  bcast_S_S500000 : S_.BroadcastsInDim S500000 (![] : Fin 0 → Fin S500000.rank)
  bcast_S_S100000 : S_.BroadcastsInDim S100000 (![] : Fin 0 → Fin S100000.rank)
  bcast_S500000_S500000x1_0 : S500000.BroadcastsInDim S500000x1 (![0] : Fin 1 → Fin S500000x1.rank)
  bcast_S100000_S100000x1_0 : S100000.BroadcastsInDim S100000x1 (![0] : Fin 1 → Fin S100000x1.rank)
  concatenates_S100000x1_S100000x1_S100000x1_S100000x3_d1 : Shape.Concatenates [S100000x1, S100000x1, S100000x1] S100000x3 1
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  inb_S2000x3_S2000x3_0_0 : ∀ a, (![0, 0] : Fin 2 → Nat) a + S2000x3.size a ≤ S2000x3.size a
  h_S2000x3 : 0 < S2000x3.numel
  shapeCasts_S2000x3_S2000x3 : S2000x3.ShapeCasts S2000x3
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  slices_S2000x3_o0_0_S2000x1 : S2000x3.Slices ![0, 0] S2000x1
  broadcasts_S2000x1_S2000x128 : S2000x1.Broadcasts S2000x128
  slices_S2000x3_o0_1_S2000x1 : S2000x3.Slices ![0, 1] S2000x1
  slices_S2000x3_o0_2_S2000x1 : S2000x3.Slices ![0, 2] S2000x1
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  scatter_S100000_S500000x1_S500000_n_0_0_1_wf : ScatterDims.WF S100000 S500000x1 S500000 [] [0] [0] 1
  gather_S100000x128_S500000x1_S500000x128_1_0_n_n_0_1_1128_wf : GatherDims.WF S100000x128 S500000x1 S500000x128 [1] [0] [] [0] [] 1 ![1, 128]
  scatter_S100000x128_S500000x1_S500000x128_1_0_0_1_wf : ScatterDims.WF S100000x128 S500000x1 S500000x128 [1] [0] [0] 1
  dot_S2000x128_S128x256_S2000x256_1_0_0_1_n_n_wf : DotDims.WF S2000x128 S128x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x3.size a ≤ S100000x3.size a
  hwx0_3 : ∀ i : grid0.Coords, EltTy.bits .f32 = 32 ∨ (Rect.block (s := S100000x3) S2000x3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .f32 = 32 ∨ (Rect.block (s := S128x256) S128x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x256.size a ≤ S128x256.size a
  hwx0_6 : ∀ i : grid0.Coords, EltTy.bits .f32 = 32 ∨ (Rect.block (s := S128x256) S128x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256.size a ≤ S256.size a
  hwx0_9 : ∀ i : grid0.Coords, EltTy.bits .f32 = 32 ∨ (Rect.block (s := S256) S256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x256.size a ≤ S100000x256.size a
  hwx0_10 : ∀ i : grid0.Coords, EltTy.bits .f32 = 32 ∨ (Rect.block (s := S100000x256) S2000x256.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S100000x256.size a
  hwx1_0 : ∀ i : grid1.Coords, EltTy.bits .f32 = 32 ∨ (Rect.block (s := S100000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S100000x128.size a
  hwx1_4 : ∀ i : grid1.Coords, EltTy.bits .f32 = 32 ∨ (Rect.block (s := S100000x128) S2000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S100000x128.size a
  hwx1_6 : ∀ i : grid1.Coords, EltTy.bits .f32 = 32 ∨ (Rect.block (s := S100000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x3.size a ≤ S100000x3.size a
  hwx2_3 : ∀ i : grid2.Coords, EltTy.bits .f32 = 32 ∨ (Rect.block (s := S100000x3) S2000x3.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128.size a ≤ S128.size a
  hwx2_6 : ∀ i : grid2.Coords, EltTy.bits .f32 = 32 ∨ (Rect.block (s := S128) S128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x128.size a ≤ S100000x128.size a
  hwx2_7 : ∀ i : grid2.Coords, EltTy.bits .f32 = 32 ∨ (Rect.block (s := S100000x128) S2000x128.size (cc2_transform_7 i) (hinb2_7 i)).WholeWords (EltTy.packing .f32)

variable [Facts₀]

def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v55) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v68) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v81) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v42) S2000x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg11) S128x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg12) S256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v82) S2000x256.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v82) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg13) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg15) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg17) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v83_0) S2000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v83_1) S2000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v83_2) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v96) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v109) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v122) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v42) S2000x3.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg14) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg16) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg18) S128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v123) S2000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x128 : Shape := ⟨2, ![100000, 128]⟩
abbrev S500000 : Shape := ⟨1, ![500000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩
abbrev S100000 : Shape := ⟨1, ![100000]⟩
abbrev S500000x1 : Shape := ⟨2, ![500000, 1]⟩
abbrev S500000x128 : Shape := ⟨2, ![500000, 128]⟩
abbrev S100000x1 : Shape := ⟨2, ![100000, 1]⟩
abbrev S100000x256 : Shape := ⟨2, ![100000, 256]⟩
abbrev S1x256 : Shape := ⟨2, ![1, 256]⟩
abbrev S500000x256 : Shape := ⟨2, ![500000, 256]⟩
abbrev S1x128 : Shape := ⟨2, ![1, 128]⟩

abbrev nBuf : Space → Nat
  | .hbm => 368
  | .vmem => 0
  | .smem => 0
  | _ => 0

abbrev hbmTy0_0 (i : Nat) : BufTy := match i % 128 with
  | 0 => ⟨S100000x128, .f32⟩
  | 1 => ⟨S500000, .i32⟩
  | 2 => ⟨S500000, .i32⟩
  | 3 => ⟨S500000, .i32⟩
  | 4 => ⟨S500000, .i32⟩
  | 5 => ⟨S500000, .i32⟩
  | 6 => ⟨S500000, .i32⟩
  | 7 => ⟨S128x256, .f32⟩
  | 8 => ⟨S256, .f32⟩
  | 9 => ⟨S128x256, .f32⟩
  | 10 => ⟨S256, .f32⟩
  | 11 => ⟨S128x256, .f32⟩
  | 12 => ⟨S256, .f32⟩
  | 13 => ⟨S256x128, .f32⟩
  | 14 => ⟨S128, .f32⟩
  | 15 => ⟨S256x128, .f32⟩
  | 16 => ⟨S128, .f32⟩
  | 17 => ⟨S256x128, .f32⟩
  | 18 => ⟨S128, .f32⟩
  | 19 => ⟨S_, .f32⟩
  | 20 => ⟨S500000, .f32⟩
  | 21 => ⟨S_, .f32⟩
  | 22 => ⟨S100000, .f32⟩
  | 23 => ⟨S500000x1, .i32⟩
  | 24 => ⟨S100000, .f32⟩
  | 25 => ⟨S_, .f32⟩
  | 26 => ⟨S_, .f32⟩
  | 27 => ⟨S100000, .f32⟩
  | 28 => ⟨S100000, .f32⟩
  | 29 => ⟨S_, .f32⟩
  | 30 => ⟨S100000, .f32⟩
  | 31 => ⟨S500000x1, .i32⟩
  | 32 => ⟨S100000, .f32⟩
  | 33 => ⟨S_, .f32⟩
  | 34 => ⟨S_, .f32⟩
  | 35 => ⟨S100000, .f32⟩
  | 36 => ⟨S100000, .f32⟩
  | 37 => ⟨S_, .f32⟩
  | 38 => ⟨S100000, .f32⟩
  | 39 => ⟨S100000, .f32⟩
  | 40 => ⟨S_, .f32⟩
  | 41 => ⟨S100000, .f32⟩
  | 42 => ⟨S100000, .f32⟩
  | 43 => ⟨S_, .i32⟩
  | 44 => ⟨S500000, .i32⟩
  | 45 => ⟨S500000, .i1⟩
  | 46 => ⟨S_, .i32⟩
  | 47 => ⟨S500000, .i32⟩
  | 48 => ⟨S500000, .i32⟩
  | 49 => ⟨S500000, .i32⟩
  | 50 => ⟨S500000x1, .i32⟩
  | 51 => ⟨S500000x128, .f32⟩
  | 52 => ⟨S_, .i32⟩
  | 53 => ⟨S500000, .i32⟩
  | 54 => ⟨S500000, .i1⟩
  | 55 => ⟨S_, .i32⟩
  | 56 => ⟨S500000, .i32⟩
  | 57 => ⟨S500000, .i32⟩
  | 58 => ⟨S500000, .i32⟩
  | 59 => ⟨S500000x1, .i32⟩
  | 60 => ⟨S500000, .f32⟩
  | 61 => ⟨S500000x1, .f32⟩
  | 62 => ⟨S500000x128, .f32⟩
  | 63 => ⟨S500000x128, .f32⟩
  | 64 => ⟨S_, .f32⟩
  | 65 => ⟨S100000x128, .f32⟩
  | 66 => ⟨S500000x1, .i32⟩
  | 67 => ⟨S100000x128, .f32⟩
  | 68 => ⟨S100000x1, .f32⟩
  | 69 => ⟨S100000x128, .f32⟩
  | 70 => ⟨S100000x128, .f32⟩
  | 71 => ⟨S100000x256, .f32⟩
  | 72 => ⟨S1x256, .f32⟩
  | 73 => ⟨S100000x256, .f32⟩
  | 74 => ⟨S100000x256, .f32⟩
  | 75 => ⟨S_, .f32⟩
  | 76 => ⟨S100000x256, .f32⟩
  | 77 => ⟨S100000x256, .f32⟩
  | 78 => ⟨S_, .f32⟩
  | 79 => ⟨S500000, .f32⟩
  | 80 => ⟨S_, .f32⟩
  | 81 => ⟨S100000, .f32⟩
  | 82 => ⟨S500000x1, .i32⟩
  | 83 => ⟨S100000, .f32⟩
  | 84 => ⟨S_, .f32⟩
  | 85 => ⟨S_, .f32⟩
  | 86 => ⟨S100000, .f32⟩
  | 87 => ⟨S100000, .f32⟩
  | 88 => ⟨S_, .f32⟩
  | 89 => ⟨S100000, .f32⟩
  | 90 => ⟨S500000x1, .i32⟩
  | 91 => ⟨S100000, .f32⟩
  | 92 => ⟨S_, .f32⟩
  | 93 => ⟨S_, .f32⟩
  | 94 => ⟨S100000, .f32⟩
  | 95 => ⟨S100000, .f32⟩
  | 96 => ⟨S_, .f32⟩
  | 97 => ⟨S100000, .f32⟩
  | 98 => ⟨S100000, .f32⟩
  | 99 => ⟨S_, .f32⟩
  | 100 => ⟨S100000, .f32⟩
  | 101 => ⟨S100000, .f32⟩
  | 102 => ⟨S_, .i32⟩
  | 103 => ⟨S500000, .i32⟩
  | 104 => ⟨S500000, .i1⟩
  | 105 => ⟨S_, .i32⟩
  | 106 => ⟨S500000, .i32⟩
  | 107 => ⟨S500000, .i32⟩
  | 108 => ⟨S500000, .i32⟩
  | 109 => ⟨S500000x1, .i32⟩
  | 110 => ⟨S500000x128, .f32⟩
  | 111 => ⟨S_, .i32⟩
  | 112 => ⟨S500000, .i32⟩
  | 113 => ⟨S500000, .i1⟩
  | 114 => ⟨S_, .i32⟩
  | 115 => ⟨S500000, .i32⟩
  | 116 => ⟨S500000, .i32⟩
  | 117 => ⟨S500000, .i32⟩
  | 118 => ⟨S500000x1, .i32⟩
  | 119 => ⟨S500000, .f32⟩
  | 120 => ⟨S500000x1, .f32⟩
  | 121 => ⟨S500000x128, .f32⟩
  | 122 => ⟨S500000x128, .f32⟩
  | 123 => ⟨S_, .f32⟩
  | 124 => ⟨S100000x128, .f32⟩
  | 125 => ⟨S500000x1, .i32⟩
  | 126 => ⟨S100000x128, .f32⟩
  | 127 => ⟨S100000x1, .f32⟩
  | _ => ⟨S100000x128, .f32⟩

abbrev hbmTy0_1 (i : Nat) : BufTy := match i % 128 with
  | 0 => ⟨S100000x128, .f32⟩
  | 1 => ⟨S100000x128, .f32⟩
  | 2 => ⟨S100000x256, .f32⟩
  | 3 => ⟨S1x256, .f32⟩
  | 4 => ⟨S100000x256, .f32⟩
  | 5 => ⟨S100000x256, .f32⟩
  | 6 => ⟨S100000x256, .f32⟩
  | 7 => ⟨S_, .f32⟩
  | 8 => ⟨S500000, .f32⟩
  | 9 => ⟨S_, .f32⟩
  | 10 => ⟨S100000, .f32⟩
  | 11 => ⟨S500000x1, .i32⟩
  | 12 => ⟨S100000, .f32⟩
  | 13 => ⟨S_, .f32⟩
  | 14 => ⟨S_, .f32⟩
  | 15 => ⟨S100000, .f32⟩
  | 16 => ⟨S100000, .f32⟩
  | 17 => ⟨S_, .f32⟩
  | 18 => ⟨S100000, .f32⟩
  | 19 => ⟨S500000x1, .i32⟩
  | 20 => ⟨S100000, .f32⟩
  | 21 => ⟨S_, .f32⟩
  | 22 => ⟨S_, .f32⟩
  | 23 => ⟨S100000, .f32⟩
  | 24 => ⟨S100000, .f32⟩
  | 25 => ⟨S_, .f32⟩
  | 26 => ⟨S100000, .f32⟩
  | 27 => ⟨S100000, .f32⟩
  | 28 => ⟨S_, .f32⟩
  | 29 => ⟨S100000, .f32⟩
  | 30 => ⟨S100000, .f32⟩
  | 31 => ⟨S_, .i32⟩
  | 32 => ⟨S500000, .i32⟩
  | 33 => ⟨S500000, .i1⟩
  | 34 => ⟨S_, .i32⟩
  | 35 => ⟨S500000, .i32⟩
  | 36 => ⟨S500000, .i32⟩
  | 37 => ⟨S500000, .i32⟩
  | 38 => ⟨S500000x1, .i32⟩
  | 39 => ⟨S500000x128, .f32⟩
  | 40 => ⟨S_, .i32⟩
  | 41 => ⟨S500000, .i32⟩
  | 42 => ⟨S500000, .i1⟩
  | 43 => ⟨S_, .i32⟩
  | 44 => ⟨S500000, .i32⟩
  | 45 => ⟨S500000, .i32⟩
  | 46 => ⟨S500000, .i32⟩
  | 47 => ⟨S500000x1, .i32⟩
  | 48 => ⟨S500000, .f32⟩
  | 49 => ⟨S500000x1, .f32⟩
  | 50 => ⟨S500000x128, .f32⟩
  | 51 => ⟨S500000x128, .f32⟩
  | 52 => ⟨S_, .f32⟩
  | 53 => ⟨S100000x128, .f32⟩
  | 54 => ⟨S500000x1, .i32⟩
  | 55 => ⟨S100000x128, .f32⟩
  | 56 => ⟨S100000x1, .f32⟩
  | 57 => ⟨S100000x128, .f32⟩
  | 58 => ⟨S100000x128, .f32⟩
  | 59 => ⟨S100000x256, .f32⟩
  | 60 => ⟨S1x256, .f32⟩
  | 61 => ⟨S100000x256, .f32⟩
  | 62 => ⟨S100000x256, .f32⟩
  | 63 => ⟨S100000x256, .f32⟩
  | 64 => ⟨S_, .f32⟩
  | 65 => ⟨S100000x256, .f32⟩
  | 66 => ⟨S100000x256, .f32⟩
  | 67 => ⟨S_, .f32⟩
  | 68 => ⟨S500000, .f32⟩
  | 69 => ⟨S_, .f32⟩
  | 70 => ⟨S100000, .f32⟩
  | 71 => ⟨S500000x1, .i32⟩
  | 72 => ⟨S100000, .f32⟩
  | 73 => ⟨S_, .f32⟩
  | 74 => ⟨S_, .f32⟩
  | 75 => ⟨S100000, .f32⟩
  | 76 => ⟨S100000, .f32⟩
  | 77 => ⟨S_, .f32⟩
  | 78 => ⟨S100000, .f32⟩
  | 79 => ⟨S500000x1, .i32⟩
  | 80 => ⟨S100000, .f32⟩
  | 81 => ⟨S_, .f32⟩
  | 82 => ⟨S_, .f32⟩
  | 83 => ⟨S100000, .f32⟩
  | 84 => ⟨S100000, .f32⟩
  | 85 => ⟨S_, .f32⟩
  | 86 => ⟨S100000, .f32⟩
  | 87 => ⟨S100000, .f32⟩
  | 88 => ⟨S_, .f32⟩
  | 89 => ⟨S100000, .f32⟩
  | 90 => ⟨S100000, .f32⟩
  | 91 => ⟨S_, .i32⟩
  | 92 => ⟨S500000, .i32⟩
  | 93 => ⟨S500000, .i1⟩
  | 94 => ⟨S_, .i32⟩
  | 95 => ⟨S500000, .i32⟩
  | 96 => ⟨S500000, .i32⟩
  | 97 => ⟨S500000, .i32⟩
  | 98 => ⟨S500000x1, .i32⟩
  | 99 => ⟨S500000x256, .f32⟩
  | 100 => ⟨S_, .i32⟩
  | 101 => ⟨S500000, .i32⟩
  | 102 => ⟨S500000, .i1⟩
  | 103 => ⟨S_, .i32⟩
  | 104 => ⟨S500000, .i32⟩
  | 105 => ⟨S500000, .i32⟩
  | 106 => ⟨S500000, .i32⟩
  | 107 => ⟨S500000x1, .i32⟩
  | 108 => ⟨S500000, .f32⟩
  | 109 => ⟨S500000x1, .f32⟩
  | 110 => ⟨S500000x256, .f32⟩
  | 111 => ⟨S500000x256, .f32⟩
  | 112 => ⟨S_, .f32⟩
  | 113 => ⟨S100000x256, .f32⟩
  | 114 => ⟨S500000x1, .i32⟩
  | 115 => ⟨S100000x256, .f32⟩
  | 116 => ⟨S100000x1, .f32⟩
  | 117 => ⟨S100000x256, .f32⟩
  | 118 => ⟨S100000x256, .f32⟩
  | 119 => ⟨S100000x128, .f32⟩
  | 120 => ⟨S1x128, .f32⟩
  | 121 => ⟨S100000x128, .f32⟩
  | 122 => ⟨S100000x128, .f32⟩
  | 123 => ⟨S_, .f32⟩
  | 124 => ⟨S100000x128, .f32⟩
  | 125 => ⟨S100000x128, .f32⟩
  | 126 => ⟨S_, .f32⟩
  | 127 => ⟨S500000, .f32⟩
  | _ => ⟨S100000x128, .f32⟩

abbrev hbmTy0_2 (i : Nat) : BufTy := match i % 128 with
  | 0 => ⟨S_, .f32⟩
  | 1 => ⟨S100000, .f32⟩
  | 2 => ⟨S500000x1, .i32⟩
  | 3 => ⟨S100000, .f32⟩
  | 4 => ⟨S_, .f32⟩
  | 5 => ⟨S_, .f32⟩
  | 6 => ⟨S100000, .f32⟩
  | 7 => ⟨S100000, .f32⟩
  | 8 => ⟨S_, .f32⟩
  | 9 => ⟨S100000, .f32⟩
  | 10 => ⟨S500000x1, .i32⟩
  | 11 => ⟨S100000, .f32⟩
  | 12 => ⟨S_, .f32⟩
  | 13 => ⟨S_, .f32⟩
  | 14 => ⟨S100000, .f32⟩
  | 15 => ⟨S100000, .f32⟩
  | 16 => ⟨S_, .f32⟩
  | 17 => ⟨S100000, .f32⟩
  | 18 => ⟨S100000, .f32⟩
  | 19 => ⟨S_, .f32⟩
  | 20 => ⟨S100000, .f32⟩
  | 21 => ⟨S100000, .f32⟩
  | 22 => ⟨S_, .i32⟩
  | 23 => ⟨S500000, .i32⟩
  | 24 => ⟨S500000, .i1⟩
  | 25 => ⟨S_, .i32⟩
  | 26 => ⟨S500000, .i32⟩
  | 27 => ⟨S500000, .i32⟩
  | 28 => ⟨S500000, .i32⟩
  | 29 => ⟨S500000x1, .i32⟩
  | 30 => ⟨S500000x256, .f32⟩
  | 31 => ⟨S_, .i32⟩
  | 32 => ⟨S500000, .i32⟩
  | 33 => ⟨S500000, .i1⟩
  | 34 => ⟨S_, .i32⟩
  | 35 => ⟨S500000, .i32⟩
  | 36 => ⟨S500000, .i32⟩
  | 37 => ⟨S500000, .i32⟩
  | 38 => ⟨S500000x1, .i32⟩
  | 39 => ⟨S500000, .f32⟩
  | 40 => ⟨S500000x1, .f32⟩
  | 41 => ⟨S500000x256, .f32⟩
  | 42 => ⟨S500000x256, .f32⟩
  | 43 => ⟨S_, .f32⟩
  | 44 => ⟨S100000x256, .f32⟩
  | 45 => ⟨S500000x1, .i32⟩
  | 46 => ⟨S100000x256, .f32⟩
  | 47 => ⟨S100000x1, .f32⟩
  | 48 => ⟨S100000x256, .f32⟩
  | 49 => ⟨S100000x256, .f32⟩
  | 50 => ⟨S100000x128, .f32⟩
  | 51 => ⟨S1x128, .f32⟩
  | 52 => ⟨S100000x128, .f32⟩
  | 53 => ⟨S100000x128, .f32⟩
  | 54 => ⟨S100000x128, .f32⟩
  | 55 => ⟨S_, .f32⟩
  | 56 => ⟨S500000, .f32⟩
  | 57 => ⟨S_, .f32⟩
  | 58 => ⟨S100000, .f32⟩
  | 59 => ⟨S500000x1, .i32⟩
  | 60 => ⟨S100000, .f32⟩
  | 61 => ⟨S_, .f32⟩
  | 62 => ⟨S_, .f32⟩
  | 63 => ⟨S100000, .f32⟩
  | 64 => ⟨S100000, .f32⟩
  | 65 => ⟨S_, .f32⟩
  | 66 => ⟨S100000, .f32⟩
  | 67 => ⟨S500000x1, .i32⟩
  | 68 => ⟨S100000, .f32⟩
  | 69 => ⟨S_, .f32⟩
  | 70 => ⟨S_, .f32⟩
  | 71 => ⟨S100000, .f32⟩
  | 72 => ⟨S100000, .f32⟩
  | 73 => ⟨S_, .f32⟩
  | 74 => ⟨S100000, .f32⟩
  | 75 => ⟨S100000, .f32⟩
  | 76 => ⟨S_, .f32⟩
  | 77 => ⟨S100000, .f32⟩
  | 78 => ⟨S100000, .f32⟩
  | 79 => ⟨S_, .i32⟩
  | 80 => ⟨S500000, .i32⟩
  | 81 => ⟨S500000, .i1⟩
  | 82 => ⟨S_, .i32⟩
  | 83 => ⟨S500000, .i32⟩
  | 84 => ⟨S500000, .i32⟩
  | 85 => ⟨S500000, .i32⟩
  | 86 => ⟨S500000x1, .i32⟩
  | 87 => ⟨S500000x256, .f32⟩
  | 88 => ⟨S_, .i32⟩
  | 89 => ⟨S500000, .i32⟩
  | 90 => ⟨S500000, .i1⟩
  | 91 => ⟨S_, .i32⟩
  | 92 => ⟨S500000, .i32⟩
  | 93 => ⟨S500000, .i32⟩
  | 94 => ⟨S500000, .i32⟩
  | 95 => ⟨S500000x1, .i32⟩
  | 96 => ⟨S500000, .f32⟩
  | 97 => ⟨S500000x1, .f32⟩
  | 98 => ⟨S500000x256, .f32⟩
  | 99 => ⟨S500000x256, .f32⟩
  | 100 => ⟨S_, .f32⟩
  | 101 => ⟨S100000x256, .f32⟩
  | 102 => ⟨S500000x1, .i32⟩
  | 103 => ⟨S100000x256, .f32⟩
  | 104 => ⟨S100000x1, .f32⟩
  | 105 => ⟨S100000x256, .f32⟩
  | 106 => ⟨S100000x256, .f32⟩
  | 107 => ⟨S100000x128, .f32⟩
  | 108 => ⟨S1x128, .f32⟩
  | 109 => ⟨S100000x128, .f32⟩
  | 110 => ⟨S100000x128, .f32⟩
  | 111 => ⟨S100000x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_v0 : Ref sig .tc := ⟨.hbm, 20, rfl⟩
abbrev main_cst_0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_cst_1 : Ref sig .tc := ⟨.hbm, 25, rfl⟩
abbrev main_call0_v0 : Ref sig .tc := ⟨.hbm, 26, rfl⟩
abbrev main_call0_v1 : Ref sig .tc := ⟨.hbm, 27, rfl⟩
abbrev main_v4 : Ref sig .tc := ⟨.hbm, 28, rfl⟩
abbrev main_cst_2 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_cst_3 : Ref sig .tc := ⟨.hbm, 33, rfl⟩
abbrev main_call1_v0 : Ref sig .tc := ⟨.hbm, 34, rfl⟩
abbrev main_call1_v1 : Ref sig .tc := ⟨.hbm, 35, rfl⟩
abbrev main_v8 : Ref sig .tc := ⟨.hbm, 36, rfl⟩
abbrev main_cst_4 : Ref sig .tc := ⟨.hbm, 37, rfl⟩
abbrev main_v9 : Ref sig .tc := ⟨.hbm, 38, rfl⟩
abbrev main_v10 : Ref sig .tc := ⟨.hbm, 39, rfl⟩
abbrev main_cst_5 : Ref sig .tc := ⟨.hbm, 40, rfl⟩
abbrev main_v11 : Ref sig .tc := ⟨.hbm, 41, rfl⟩
abbrev main_v12 : Ref sig .tc := ⟨.hbm, 42, rfl⟩
abbrev main_c : Ref sig .tc := ⟨.hbm, 43, rfl⟩
abbrev main_v13 : Ref sig .tc := ⟨.hbm, 44, rfl⟩
abbrev main_v14 : Ref sig .tc := ⟨.hbm, 45, rfl⟩
abbrev main_c_6 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_c_7 : Ref sig .tc := ⟨.hbm, 52, rfl⟩
abbrev main_v20 : Ref sig .tc := ⟨.hbm, 53, rfl⟩
abbrev main_v21 : Ref sig .tc := ⟨.hbm, 54, rfl⟩
abbrev main_c_8 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_cst_9 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_cst_10 : Ref sig .tc := ⟨.hbm, 75, rfl⟩
abbrev main_v40 : Ref sig .tc := ⟨.hbm, 76, rfl⟩
abbrev main_v41 : Ref sig .tc := ⟨.hbm, 77, rfl⟩
abbrev main_cst_11 : Ref sig .tc := ⟨.hbm, 78, rfl⟩
abbrev main_v42 : Ref sig .tc := ⟨.hbm, 79, rfl⟩
abbrev main_cst_12 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_cst_13 : Ref sig .tc := ⟨.hbm, 84, rfl⟩
abbrev main_call2_v0 : Ref sig .tc := ⟨.hbm, 85, rfl⟩
abbrev main_call2_v1 : Ref sig .tc := ⟨.hbm, 86, rfl⟩
abbrev main_v46 : Ref sig .tc := ⟨.hbm, 87, rfl⟩
abbrev main_cst_14 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_cst_15 : Ref sig .tc := ⟨.hbm, 92, rfl⟩
abbrev main_call3_v0 : Ref sig .tc := ⟨.hbm, 93, rfl⟩
abbrev main_call3_v1 : Ref sig .tc := ⟨.hbm, 94, rfl⟩
abbrev main_v50 : Ref sig .tc := ⟨.hbm, 95, rfl⟩
abbrev main_cst_16 : Ref sig .tc := ⟨.hbm, 96, rfl⟩
abbrev main_v51 : Ref sig .tc := ⟨.hbm, 97, rfl⟩
abbrev main_v52 : Ref sig .tc := ⟨.hbm, 98, rfl⟩
abbrev main_cst_17 : Ref sig .tc := ⟨.hbm, 99, rfl⟩
abbrev main_v53 : Ref sig .tc := ⟨.hbm, 100, rfl⟩
abbrev main_v54 : Ref sig .tc := ⟨.hbm, 101, rfl⟩
abbrev main_c_18 : Ref sig .tc := ⟨.hbm, 102, rfl⟩
abbrev main_v55 : Ref sig .tc := ⟨.hbm, 103, rfl⟩
abbrev main_v56 : Ref sig .tc := ⟨.hbm, 104, rfl⟩
abbrev main_c_19 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_c_20 : Ref sig .tc := ⟨.hbm, 111, rfl⟩
abbrev main_v62 : Ref sig .tc := ⟨.hbm, 112, rfl⟩
abbrev main_v63 : Ref sig .tc := ⟨.hbm, 113, rfl⟩
abbrev main_c_21 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_cst_22 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_cst_23 : Ref sig .tc := ⟨.hbm, 135, rfl⟩
abbrev main_v83 : Ref sig .tc := ⟨.hbm, 136, rfl⟩
abbrev main_cst_24 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_cst_25 : Ref sig .tc := ⟨.hbm, 141, rfl⟩
abbrev main_call4_v0 : Ref sig .tc := ⟨.hbm, 142, rfl⟩
abbrev main_call4_v1 : Ref sig .tc := ⟨.hbm, 143, rfl⟩
abbrev main_v87 : Ref sig .tc := ⟨.hbm, 144, rfl⟩
abbrev main_cst_26 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_cst_27 : Ref sig .tc := ⟨.hbm, 149, rfl⟩
abbrev main_call5_v0 : Ref sig .tc := ⟨.hbm, 150, rfl⟩
abbrev main_call5_v1 : Ref sig .tc := ⟨.hbm, 151, rfl⟩
abbrev main_v91 : Ref sig .tc := ⟨.hbm, 152, rfl⟩
abbrev main_cst_28 : Ref sig .tc := ⟨.hbm, 153, rfl⟩
abbrev main_v92 : Ref sig .tc := ⟨.hbm, 154, rfl⟩
abbrev main_v93 : Ref sig .tc := ⟨.hbm, 155, rfl⟩
abbrev main_cst_29 : Ref sig .tc := ⟨.hbm, 156, rfl⟩
abbrev main_v94 : Ref sig .tc := ⟨.hbm, 157, rfl⟩
abbrev main_v95 : Ref sig .tc := ⟨.hbm, 158, rfl⟩
abbrev main_c_30 : Ref sig .tc := ⟨.hbm, 159, rfl⟩
abbrev main_v96 : Ref sig .tc := ⟨.hbm, 160, rfl⟩
abbrev main_v97 : Ref sig .tc := ⟨.hbm, 161, rfl⟩
abbrev main_c_31 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_v101 : Ref sig .tc := ⟨.hbm, 166, rfl⟩
abbrev main_v102 : Ref sig .tc := ⟨.hbm, 167, rfl⟩
abbrev main_c_32 : Ref sig .tc := ⟨.hbm, 168, rfl⟩
abbrev main_v103 : Ref sig .tc := ⟨.hbm, 169, rfl⟩
abbrev main_v104 : Ref sig .tc := ⟨.hbm, 170, rfl⟩
abbrev main_c_33 : Ref sig .tc := ⟨.hbm, 171, rfl⟩
abbrev main_v105 : Ref sig .tc := ⟨.hbm, 172, rfl⟩
abbrev main_v106 : Ref sig .tc := ⟨.hbm, 173, rfl⟩
abbrev main_v107 : Ref sig .tc := ⟨.hbm, 174, rfl⟩
abbrev main_v108 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_cst_34 : Ref sig .tc := ⟨.hbm, 180, rfl⟩
abbrev main_v113 : Ref sig .tc := ⟨.hbm, 181, rfl⟩
abbrev main_v114 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_v118 : Ref sig .tc := ⟨.hbm, 186, rfl⟩
abbrev main_v119 : Ref sig .tc := ⟨.hbm, 187, rfl⟩
abbrev main_v120 : Ref sig .tc := ⟨.hbm, 188, rfl⟩
abbrev main_v121 : Ref sig .tc := ⟨.hbm, 189, rfl⟩
abbrev main_v122 : Ref sig .tc := ⟨.hbm, 190, rfl⟩
abbrev main_v123 : Ref sig .tc := ⟨.hbm, 191, rfl⟩
abbrev main_call6_cst : Ref sig .tc := ⟨.hbm, 192, rfl⟩
abbrev main_call6_v0 : Ref sig .tc := ⟨.hbm, 193, rfl⟩
abbrev main_v124 : Ref sig .tc := ⟨.hbm, 194, rfl⟩
abbrev main_cst_35 : Ref sig .tc := ⟨.hbm, 195, rfl⟩
abbrev main_v125 : Ref sig .tc := ⟨.hbm, 196, rfl⟩
abbrev main_cst_36 : Ref sig .tc := ⟨.hbm, 197, rfl⟩
abbrev main_v126 : Ref sig .tc := ⟨.hbm, 198, rfl⟩
abbrev main_v127 : Ref sig .tc := ⟨.hbm, 199, rfl⟩
abbrev main_v128 : Ref sig .tc := ⟨.hbm, 200, rfl⟩
abbrev main_cst_37 : Ref sig .tc := ⟨.hbm, 201, rfl⟩
abbrev main_call7_v0 : Ref sig .tc := ⟨.hbm, 202, rfl⟩
abbrev main_call7_v1 : Ref sig .tc := ⟨.hbm, 203, rfl⟩
abbrev main_v129 : Ref sig .tc := ⟨.hbm, 204, rfl⟩
abbrev main_cst_38 : Ref sig .tc := ⟨.hbm, 205, rfl⟩
abbrev main_v130 : Ref sig .tc := ⟨.hbm, 206, rfl⟩
abbrev main_v131 : Ref sig .tc := ⟨.hbm, 207, rfl⟩
abbrev main_v132 : Ref sig .tc := ⟨.hbm, 208, rfl⟩
abbrev main_cst_39 : Ref sig .tc := ⟨.hbm, 209, rfl⟩
abbrev main_call8_v0 : Ref sig .tc := ⟨.hbm, 210, rfl⟩
abbrev main_call8_v1 : Ref sig .tc := ⟨.hbm, 211, rfl⟩
abbrev main_v133 : Ref sig .tc := ⟨.hbm, 212, rfl⟩
abbrev main_cst_40 : Ref sig .tc := ⟨.hbm, 213, rfl⟩
abbrev main_v134 : Ref sig .tc := ⟨.hbm, 214, rfl⟩
abbrev main_v135 : Ref sig .tc := ⟨.hbm, 215, rfl⟩
abbrev main_cst_41 : Ref sig .tc := ⟨.hbm, 216, rfl⟩
abbrev main_v136 : Ref sig .tc := ⟨.hbm, 217, rfl⟩
abbrev main_v137 : Ref sig .tc := ⟨.hbm, 218, rfl⟩
abbrev main_c_42 : Ref sig .tc := ⟨.hbm, 219, rfl⟩
abbrev main_v138 : Ref sig .tc := ⟨.hbm, 220, rfl⟩
abbrev main_v139 : Ref sig .tc := ⟨.hbm, 221, rfl⟩
abbrev main_c_43 : Ref sig .tc := ⟨.hbm, 222, rfl⟩
abbrev main_v140 : Ref sig .tc := ⟨.hbm, 223, rfl⟩
abbrev main_v141 : Ref sig .tc := ⟨.hbm, 224, rfl⟩
abbrev main_v142 : Ref sig .tc := ⟨.hbm, 225, rfl⟩
abbrev main_v143 : Ref sig .tc := ⟨.hbm, 226, rfl⟩
abbrev main_v144 : Ref sig .tc := ⟨.hbm, 227, rfl⟩
abbrev main_c_44 : Ref sig .tc := ⟨.hbm, 228, rfl⟩
abbrev main_v145 : Ref sig .tc := ⟨.hbm, 229, rfl⟩
abbrev main_v146 : Ref sig .tc := ⟨.hbm, 230, rfl⟩
abbrev main_c_45 : Ref sig .tc := ⟨.hbm, 231, rfl⟩
abbrev main_v147 : Ref sig .tc := ⟨.hbm, 232, rfl⟩
abbrev main_v148 : Ref sig .tc := ⟨.hbm, 233, rfl⟩
abbrev main_v149 : Ref sig .tc := ⟨.hbm, 234, rfl⟩
abbrev main_v150 : Ref sig .tc := ⟨.hbm, 235, rfl⟩
abbrev main_v151 : Ref sig .tc := ⟨.hbm, 236, rfl⟩
abbrev main_v152 : Ref sig .tc := ⟨.hbm, 237, rfl⟩
abbrev main_v153 : Ref sig .tc := ⟨.hbm, 238, rfl⟩
abbrev main_v154 : Ref sig .tc := ⟨.hbm, 239, rfl⟩
abbrev main_cst_46 : Ref sig .tc := ⟨.hbm, 240, rfl⟩
abbrev main_v155 : Ref sig .tc := ⟨.hbm, 241, rfl⟩
abbrev main_v156 : Ref sig .tc := ⟨.hbm, 242, rfl⟩
abbrev main_v157 : Ref sig .tc := ⟨.hbm, 243, rfl⟩
abbrev main_v158 : Ref sig .tc := ⟨.hbm, 244, rfl⟩
abbrev main_v159 : Ref sig .tc := ⟨.hbm, 245, rfl⟩
abbrev main_v160 : Ref sig .tc := ⟨.hbm, 246, rfl⟩
abbrev main_v161 : Ref sig .tc := ⟨.hbm, 247, rfl⟩
abbrev main_v162 : Ref sig .tc := ⟨.hbm, 248, rfl⟩
abbrev main_v163 : Ref sig .tc := ⟨.hbm, 249, rfl⟩
abbrev main_v164 : Ref sig .tc := ⟨.hbm, 250, rfl⟩
abbrev main_cst_47 : Ref sig .tc := ⟨.hbm, 251, rfl⟩
abbrev main_v165 : Ref sig .tc := ⟨.hbm, 252, rfl⟩
abbrev main_v166 : Ref sig .tc := ⟨.hbm, 253, rfl⟩
abbrev main_cst_48 : Ref sig .tc := ⟨.hbm, 254, rfl⟩
abbrev main_v167 : Ref sig .tc := ⟨.hbm, 255, rfl⟩
abbrev main_cst_49 : Ref sig .tc := ⟨.hbm, 256, rfl⟩
abbrev main_v168 : Ref sig .tc := ⟨.hbm, 257, rfl⟩
abbrev main_v169 : Ref sig .tc := ⟨.hbm, 258, rfl⟩
abbrev main_v170 : Ref sig .tc := ⟨.hbm, 259, rfl⟩
abbrev main_cst_50 : Ref sig .tc := ⟨.hbm, 260, rfl⟩
abbrev main_call9_v0 : Ref sig .tc := ⟨.hbm, 261, rfl⟩
abbrev main_call9_v1 : Ref sig .tc := ⟨.hbm, 262, rfl⟩
abbrev main_v171 : Ref sig .tc := ⟨.hbm, 263, rfl⟩
abbrev main_cst_51 : Ref sig .tc := ⟨.hbm, 264, rfl⟩
abbrev main_v172 : Ref sig .tc := ⟨.hbm, 265, rfl⟩
abbrev main_v173 : Ref sig .tc := ⟨.hbm, 266, rfl⟩
abbrev main_v174 : Ref sig .tc := ⟨.hbm, 267, rfl⟩
abbrev main_cst_52 : Ref sig .tc := ⟨.hbm, 268, rfl⟩
abbrev main_call10_v0 : Ref sig .tc := ⟨.hbm, 269, rfl⟩
abbrev main_call10_v1 : Ref sig .tc := ⟨.hbm, 270, rfl⟩
abbrev main_v175 : Ref sig .tc := ⟨.hbm, 271, rfl⟩
abbrev main_cst_53 : Ref sig .tc := ⟨.hbm, 272, rfl⟩
abbrev main_v176 : Ref sig .tc := ⟨.hbm, 273, rfl⟩
abbrev main_v177 : Ref sig .tc := ⟨.hbm, 274, rfl⟩
abbrev main_cst_54 : Ref sig .tc := ⟨.hbm, 275, rfl⟩
abbrev main_v178 : Ref sig .tc := ⟨.hbm, 276, rfl⟩
abbrev main_v179 : Ref sig .tc := ⟨.hbm, 277, rfl⟩
abbrev main_c_55 : Ref sig .tc := ⟨.hbm, 278, rfl⟩
abbrev main_v180 : Ref sig .tc := ⟨.hbm, 279, rfl⟩
abbrev main_v181 : Ref sig .tc := ⟨.hbm, 280, rfl⟩
abbrev main_c_56 : Ref sig .tc := ⟨.hbm, 281, rfl⟩
abbrev main_v182 : Ref sig .tc := ⟨.hbm, 282, rfl⟩
abbrev main_v183 : Ref sig .tc := ⟨.hbm, 283, rfl⟩
abbrev main_v184 : Ref sig .tc := ⟨.hbm, 284, rfl⟩
abbrev main_v185 : Ref sig .tc := ⟨.hbm, 285, rfl⟩
abbrev main_v186 : Ref sig .tc := ⟨.hbm, 286, rfl⟩
abbrev main_c_57 : Ref sig .tc := ⟨.hbm, 287, rfl⟩
abbrev main_v187 : Ref sig .tc := ⟨.hbm, 288, rfl⟩
abbrev main_v188 : Ref sig .tc := ⟨.hbm, 289, rfl⟩
abbrev main_c_58 : Ref sig .tc := ⟨.hbm, 290, rfl⟩
abbrev main_v189 : Ref sig .tc := ⟨.hbm, 291, rfl⟩
abbrev main_v190 : Ref sig .tc := ⟨.hbm, 292, rfl⟩
abbrev main_v191 : Ref sig .tc := ⟨.hbm, 293, rfl⟩
abbrev main_v192 : Ref sig .tc := ⟨.hbm, 294, rfl⟩
abbrev main_v193 : Ref sig .tc := ⟨.hbm, 295, rfl⟩
abbrev main_v194 : Ref sig .tc := ⟨.hbm, 296, rfl⟩
abbrev main_v195 : Ref sig .tc := ⟨.hbm, 297, rfl⟩
abbrev main_v196 : Ref sig .tc := ⟨.hbm, 298, rfl⟩
abbrev main_cst_59 : Ref sig .tc := ⟨.hbm, 299, rfl⟩
abbrev main_v197 : Ref sig .tc := ⟨.hbm, 300, rfl⟩
abbrev main_v198 : Ref sig .tc := ⟨.hbm, 301, rfl⟩
abbrev main_v199 : Ref sig .tc := ⟨.hbm, 302, rfl⟩
abbrev main_v200 : Ref sig .tc := ⟨.hbm, 303, rfl⟩
abbrev main_v201 : Ref sig .tc := ⟨.hbm, 304, rfl⟩
abbrev main_v202 : Ref sig .tc := ⟨.hbm, 305, rfl⟩
abbrev main_v203 : Ref sig .tc := ⟨.hbm, 306, rfl⟩
abbrev main_v204 : Ref sig .tc := ⟨.hbm, 307, rfl⟩
abbrev main_v205 : Ref sig .tc := ⟨.hbm, 308, rfl⟩
abbrev main_v206 : Ref sig .tc := ⟨.hbm, 309, rfl⟩
abbrev main_v207 : Ref sig .tc := ⟨.hbm, 310, rfl⟩
abbrev main_cst_60 : Ref sig .tc := ⟨.hbm, 311, rfl⟩
abbrev main_v208 : Ref sig .tc := ⟨.hbm, 312, rfl⟩
abbrev main_cst_61 : Ref sig .tc := ⟨.hbm, 313, rfl⟩
abbrev main_v209 : Ref sig .tc := ⟨.hbm, 314, rfl⟩
abbrev main_v210 : Ref sig .tc := ⟨.hbm, 315, rfl⟩
abbrev main_v211 : Ref sig .tc := ⟨.hbm, 316, rfl⟩
abbrev main_cst_62 : Ref sig .tc := ⟨.hbm, 317, rfl⟩
abbrev main_call11_v0 : Ref sig .tc := ⟨.hbm, 318, rfl⟩
abbrev main_call11_v1 : Ref sig .tc := ⟨.hbm, 319, rfl⟩
abbrev main_v212 : Ref sig .tc := ⟨.hbm, 320, rfl⟩
abbrev main_cst_63 : Ref sig .tc := ⟨.hbm, 321, rfl⟩
abbrev main_v213 : Ref sig .tc := ⟨.hbm, 322, rfl⟩
abbrev main_v214 : Ref sig .tc := ⟨.hbm, 323, rfl⟩
abbrev main_v215 : Ref sig .tc := ⟨.hbm, 324, rfl⟩
abbrev main_cst_64 : Ref sig .tc := ⟨.hbm, 325, rfl⟩
abbrev main_call12_v0 : Ref sig .tc := ⟨.hbm, 326, rfl⟩
abbrev main_call12_v1 : Ref sig .tc := ⟨.hbm, 327, rfl⟩
abbrev main_v216 : Ref sig .tc := ⟨.hbm, 328, rfl⟩
abbrev main_cst_65 : Ref sig .tc := ⟨.hbm, 329, rfl⟩
abbrev main_v217 : Ref sig .tc := ⟨.hbm, 330, rfl⟩
abbrev main_v218 : Ref sig .tc := ⟨.hbm, 331, rfl⟩
abbrev main_cst_66 : Ref sig .tc := ⟨.hbm, 332, rfl⟩
abbrev main_v219 : Ref sig .tc := ⟨.hbm, 333, rfl⟩
abbrev main_v220 : Ref sig .tc := ⟨.hbm, 334, rfl⟩
abbrev main_c_67 : Ref sig .tc := ⟨.hbm, 335, rfl⟩
abbrev main_v221 : Ref sig .tc := ⟨.hbm, 336, rfl⟩
abbrev main_v222 : Ref sig .tc := ⟨.hbm, 337, rfl⟩
abbrev main_c_68 : Ref sig .tc := ⟨.hbm, 338, rfl⟩
abbrev main_v223 : Ref sig .tc := ⟨.hbm, 339, rfl⟩
abbrev main_v224 : Ref sig .tc := ⟨.hbm, 340, rfl⟩
abbrev main_v225 : Ref sig .tc := ⟨.hbm, 341, rfl⟩
abbrev main_v226 : Ref sig .tc := ⟨.hbm, 342, rfl⟩
abbrev main_v227 : Ref sig .tc := ⟨.hbm, 343, rfl⟩
abbrev main_c_69 : Ref sig .tc := ⟨.hbm, 344, rfl⟩
abbrev main_v228 : Ref sig .tc := ⟨.hbm, 345, rfl⟩
abbrev main_v229 : Ref sig .tc := ⟨.hbm, 346, rfl⟩
abbrev main_c_70 : Ref sig .tc := ⟨.hbm, 347, rfl⟩
abbrev main_v230 : Ref sig .tc := ⟨.hbm, 348, rfl⟩
abbrev main_v231 : Ref sig .tc := ⟨.hbm, 349, rfl⟩
abbrev main_v232 : Ref sig .tc := ⟨.hbm, 350, rfl⟩
abbrev main_v233 : Ref sig .tc := ⟨.hbm, 351, rfl⟩
abbrev main_v234 : Ref sig .tc := ⟨.hbm, 352, rfl⟩
abbrev main_v235 : Ref sig .tc := ⟨.hbm, 353, rfl⟩
abbrev main_v236 : Ref sig .tc := ⟨.hbm, 354, rfl⟩
abbrev main_v237 : Ref sig .tc := ⟨.hbm, 355, rfl⟩
abbrev main_cst_71 : Ref sig .tc := ⟨.hbm, 356, rfl⟩
abbrev main_v238 : Ref sig .tc := ⟨.hbm, 357, rfl⟩
abbrev main_v239 : Ref sig .tc := ⟨.hbm, 358, rfl⟩
abbrev main_v240 : Ref sig .tc := ⟨.hbm, 359, rfl⟩
abbrev main_v241 : Ref sig .tc := ⟨.hbm, 360, rfl⟩
abbrev main_v242 : Ref sig .tc := ⟨.hbm, 361, rfl⟩
abbrev main_v243 : Ref sig .tc := ⟨.hbm, 362, rfl⟩
abbrev main_v244 : Ref sig .tc := ⟨.hbm, 363, rfl⟩
abbrev main_v245 : Ref sig .tc := ⟨.hbm, 364, rfl⟩
abbrev main_v246 : Ref sig .tc := ⟨.hbm, 365, rfl⟩
abbrev main_v247 : Ref sig .tc := ⟨.hbm, 366, rfl⟩
abbrev main_v248 : Ref sig .tc := ⟨.hbm, 367, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S_S100000 : S_.BroadcastsInDim S100000 (![] : Fin 0 → Fin S100000.rank)
  bcast_S500000_S500000x1_0 : S500000.BroadcastsInDim S500000x1 (![0] : Fin 1 → Fin S500000x1.rank)
  bcast_S500000x1_S500000x128_0_1 : S500000x1.BroadcastsInDim S500000x128 (![0, 1] : Fin 2 → Fin S500000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S500000x1_S500000x256_0_1 : S500000x1.BroadcastsInDim S500000x256 (![0, 1] : Fin 2 → Fin S500000x256.rank)
  bcast_S100000x1_S100000x256_0_1 : S100000x1.BroadcastsInDim S100000x256 (![0, 1] : Fin 2 → Fin S100000x256.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S500000x1_S500000_n_0_0_1_wf : ScatterDims.WF S100000 S500000x1 S500000 [] [0] [0] 1
  gather_S100000x128_S500000x1_S500000x128_1_0_n_n_0_1_1128_wf : GatherDims.WF S100000x128 S500000x1 S500000x128 [1] [0] [] [0] [] 1 ![1, 128]
  gather_S100000_S500000x1_S500000_n_0_n_n_0_1_1_wf : GatherDims.WF S100000 S500000x1 S500000 [] [0] [] [0] [] 1 ![1]
  scatter_S100000x128_S500000x1_S500000x128_1_0_0_1_wf : ScatterDims.WF S100000x128 S500000x1 S500000x128 [1] [0] [0] 1
  dot_S100000x128_S128x256_S100000x256_1_0_0_1_n_n_wf : DotDims.WF S100000x128 S128x256 S100000x256 [1] [0] [0] [1] [] []
  gather_S100000x256_S500000x1_S500000x256_1_0_n_n_0_1_1256_wf : GatherDims.WF S100000x256 S500000x1 S500000x256 [1] [0] [] [0] [] 1 ![1, 256]
  scatter_S100000x256_S500000x1_S500000x256_1_0_0_1_wf : ScatterDims.WF S100000x256 S500000x1 S500000x256 [1] [0] [0] 1
  dot_S100000x256_S256x128_S100000x128_1_0_0_1_n_n_wf : DotDims.WF S100000x256 S256x128 S100000x128 [1] [0] [0] [1] [] []

variable [Facts₀]

def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def gather_S100000_S500000x1_S500000_n_0_n_n_0_1_1 : GatherDims S100000 S500000x1 S500000 where
  offsetDims := []
  collapsedSliceDims := [0]
  operandBatchingDims := []
  startIndicesBatchingDims := []
  startIndexMap := [0]
  indexVectorDim := 1
  sliceSizes := ![1]
  wf := gather_S100000_S500000x1_S500000_n_0_n_n_0_1_1_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def gather_S100000x256_S500000x1_S500000x256_1_0_n_n_0_1_1256 : GatherDims S100000x256 S500000x1 S500000x256 where
  offsetDims := [1]
  collapsedSliceDims := [0]
  operandBatchingDims := []
  startIndicesBatchingDims := []
  startIndexMap := [0]
  indexVectorDim := 1
  sliceSizes := ![1, 256]
  wf := gather_S100000x256_S500000x1_S500000x256_1_0_n_n_0_1_1256_wf
def scatter_S100000x256_S500000x1_S500000x256_1_0_0_1 : ScatterDims S100000x256 S500000x1 S500000x256 where
  updateWindowDims := [1]
  insertedWindowDims := [0]
  scatterDimsToOperandDims := [0]
  indexVectorDim := 1
  wf := scatter_S100000x256_S500000x1_S500000x256_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.KernelRegion0.lean ====
/-
  Region 0 of the program (the pallas_call of `cc0__layer1_kernel`), at any float instance and at any contents `V` of
  the TensorCore's buffers when the region is entered.

  The grid has 50 points; point `t` sees rows 2000·t … 2000·t+1999 of every row-tiled operand and the whole of
  every weight or bias operand. The body reads each input block whole, computes, and overwrites each output block
  whole, so after the body at point `t` an input's staging buffer still holds its block and an output's holds one
  fixed function (`out0_w`) of the input blocks. This file states that function, runs the body once against it,
  and packages the result as the pipeline's proof data and body obligation.
-/
import proofs.«149725_j35570919145822_2_alg».proof.Proof.Gen.Kernel.Launch
import proofs.«149725_j35570919145822_2_alg».proof.Proof.Gen.Kernel.Skeleton
import proofs.«149725_j35570919145822_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, cut out of the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether or not a fetch happened there: the
    body never writes it, and where no fetch happens the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every point, whether or not a fetch happened there: the
    body never writes it, and where no fetch happens the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds its block at every point, whether or not a fetch happened there: the
    body never writes it, and where no fetch happens the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's staging buffer holds its block at every point, whether or not a fetch happened there: the
    body never writes it, and where no fetch happens the block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's staging buffer holds its block at every point, whether or not a fetch happened there: the
    body never writes it, and where no fetch happens the block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's staging buffer holds its block at every point, whether or not a fetch happened there: the
    body never writes it, and where no fetch happens the block index has not moved. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's staging buffer holds its block at every point, whether or not a fetch happened there: the
    body never writes it, and where no fetch happens the block index has not moved. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's staging buffer holds its block at every point, whether or not a fetch happened there: the
    body never writes it, and where no fetch happens the block index has not moved. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- Input window 8's staging buffer holds its block at every point, whether or not a fetch happened there: the
    body never writes it, and where no fetch happens the block index has not moved. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
/-- Input window 9's staging buffer holds its block at every point, whether or not a fetch happened there: the
    body never writes it, and where no fetch happens the block index has not moved. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: every one is a whole staging buffer -/

abbrev r0_a : Rect S2000x128 := Rect.unit (s := S2000x128) ![0, 0] S2000x128.size inb_S2000x128_S2000x128_0_0
abbrev r0_c : Rect S2000x3 := Rect.unit (s := S2000x3) ![0, 0] S2000x3.size inb_S2000x3_S2000x3_0_0
abbrev r0_w : Rect S128x256 := Rect.unit (s := S128x256) ![0, 0] S128x256.size inb_S128x256_S128x256_0_0
abbrev r0_b : Rect S256 := Rect.unit (s := S256) ![0] S256.size inb_S256_S256_0
abbrev r0_o : Rect S2000x256 := Rect.unit (s := S2000x256) ![0, 0] S2000x256.size inb_S2000x256_S2000x256_0_0

/-! ## What the body leaves in each output buffer -/

/-- Output window 10's staging buffer after the body, as a function of the input blocks: the three row-scaled aggregates, each times its weight matrix, summed, plus the three biases, clamped below at 0. -/
def out0_10 (x0 : Vec F S2000x128 .f32) (x1 : Vec F S2000x128 .f32) (x2 : Vec F S2000x128 .f32) (x3 : Vec F S2000x3 .f32) (x4 : Vec F S128x256 .f32) (x5 : Vec F S128x256 .f32) (x6 : Vec F S128x256 .f32) (x7 : Vec F S256 .f32) (x8 : Vec F S256 .f32) (x9 : Vec F S256 .f32) : Vec F S2000x256 .f32 :=
  View.canon [⟨r0_o, k0_pay1 (k0_pay2 (View.ld x3 r0_c) (View.ld x0 r0_a) (View.ld x1 r0_a) (View.ld x2 r0_a) (View.ld x4 r0_w) (View.ld x5 r0_w) (View.ld x6 r0_w)) (k0_pay3 (View.ld x7 r0_b) (View.ld x8 r0_b) (View.ld x9 r0_b))⟩]

/-- The one store into it is of the whole buffer, so it covers every index. -/
theorem cover0_10 (p0 : Vec F S2000x256 .f32) (y : S2000x256.Idx) :
    ∃ pc ∈ ([⟨r0_o, p0⟩] : List (View.Piece (Elt F) S2000x256 .f32)), y ∈ pc.1.set :=
  View.cover_of_tiled [⟨r0_o, p0⟩] S2000x256.size (by rfl) y

/-! ## The body, run once -/

set_option maxHeartbeats 1000000 in
/-- The body on whole staging buffers, the inputs' holding `x_w` and the outputs' anything, ends with the inputs'
    untouched and each output's at `out0_w` of the inputs. -/
theorem sound_kernel0 (c : Dev nD) (E : Set ℕ) (i : grid0.Coords) (arg0 : Memref sig .tc .vmem S2000x128 .f32) (harg0 : arg0.IsWhole) (arg1 : Memref sig .tc .vmem S2000x128 .f32) (harg1 : arg1.IsWhole) (arg2 : Memref sig .tc .vmem S2000x128 .f32) (harg2 : arg2.IsWhole) (arg3 : Memref sig .tc .vmem S2000x3 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S256 .f32) (harg7 : arg7.IsWhole) (arg8 : Memref sig .tc .vmem S256 .f32) (harg8 : arg8.IsWhole) (arg9 : Memref sig .tc .vmem S256 .f32) (harg9 : arg9.IsWhole) (arg10 : Memref sig .tc .vmem S2000x256 .f32) (harg10 : arg10.IsWhole)
    (x0 : Vec F S2000x128 .f32) (x1 : Vec F S2000x128 .f32) (x2 : Vec F S2000x128 .f32) (x3 : Vec F S2000x3 .f32) (x4 : Vec F S128x256 .f32) (x5 : Vec F S128x256 .f32) (x6 : Vec F S128x256 .f32) (x7 : Vec F S256 .f32) (x8 : Vec F S256 .f32) (x9 : Vec F S256 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (out0_10 x0 x1 x2 x3 x4 x5 x6 x7 x8 x9)) -∗ K ⟨⟩))
      ⊢ wp frame (wpE (defs₀ (F := F)) Variants.none c none) E (cc0__layer1_kernel i arg0 harg0 arg1 harg1 arg2 harg2 arg3 harg3 arg4 harg4 arg5 harg5 arg6 harg6 arg7 harg7 arg8 harg8 arg9 harg9 arg10 harg10) K := by
  simp only [cc0__layer1_kernel_eq_skeleton]; unfold cc0__layer1_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  try dsimp only
  exact View.read_writes_eq_canon _ _ _ (cover0_10 _)

/-! ## The pipeline's proof data -/

/-- Region 0's proof data on core `c`: the arrays as the region finds them; after the body at point `t` each
    input's buffer at its block and each output's at `out0_w` of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d

/-! ## The body obligation at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel0 c Set.univ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation0 (c : Dev nD) : BodyObligation (dat0 (F := F) V c) (defs₀ (F := F)) Variants.none () Set.univ := fun t => by
  rw [bigSep_W0, bigSep_W0]
  exact sound_body0 V c t

end Cert.Kernel.Frm

end
-- ==== Proof.KernelRegion1.lean ====
/-
  Region 1 of the program (the pallas_call of `cc1__project_kernel`), at any float instance and at any contents `V` of
  the TensorCore's buffers when the region is entered.

  The grid has 50 points; point `t` sees rows 2000·t … 2000·t+1999 of every row-tiled operand and the whole of
  every weight or bias operand. The body reads each input block whole, computes, and overwrites each output block
  whole, so after the body at point `t` an input's staging buffer still holds its block and an output's holds one
  fixed function (`out1_w`) of the input blocks. This file states that function, runs the body once against it,
  and packages the result as the pipeline's proof data and body obligation.
-/
import proofs.«149725_j35570919145822_2_alg».proof.Proof.Gen.Kernel.Launch
import proofs.«149725_j35570919145822_2_alg».proof.Proof.Gen.Kernel.Skeleton
import proofs.«149725_j35570919145822_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, cut out of the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether or not a fetch happened there: the
    body never writes it, and where no fetch happens the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block at every point, whether or not a fetch happened there: the
    body never writes it, and where no fetch happens the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds its block at every point, whether or not a fetch happened there: the
    body never writes it, and where no fetch happens the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's staging buffer holds its block at every point, whether or not a fetch happened there: the
    body never writes it, and where no fetch happens the block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes: every one is a whole staging buffer -/

abbrev r1_h : Rect S2000x256 := Rect.unit (s := S2000x256) ![0, 0] S2000x256.size inb_S2000x256_S2000x256_0_0
abbrev r1_w : Rect S256x128 := Rect.unit (s := S256x128) ![0, 0] S256x128.size inb_S256x128_S256x128_0_0
abbrev r1_o : Rect S2000x128 := Rect.unit (s := S2000x128) ![0, 0] S2000x128.size inb_S2000x128_S2000x128_0_0

/-! ## What the body leaves in each output buffer -/

/-- Output window 4's staging buffer after the body, as a function of the input blocks: the hidden block times the first projection matrix. -/
def out1_4 (x0 : Vec F S2000x256 .f32) (x1 : Vec F S256x128 .f32) (x2 : Vec F S256x128 .f32) (x3 : Vec F S256x128 .f32) : Vec F S2000x128 .f32 :=
  View.canon [⟨r1_o, k1_pay2 (View.ld x0 r1_h) (View.ld x1 r1_w)⟩]

/-- The one store into it is of the whole buffer, so it covers every index. -/
theorem cover1_4 (p0 : Vec F S2000x128 .f32) (y : S2000x128.Idx) :
    ∃ pc ∈ ([⟨r1_o, p0⟩] : List (View.Piece (Elt F) S2000x128 .f32)), y ∈ pc.1.set :=
  View.cover_of_tiled [⟨r1_o, p0⟩] S2000x128.size (by rfl) y

/-- Output window 5's staging buffer after the body, as a function of the input blocks: the hidden block times the second projection matrix. -/
def out1_5 (x0 : Vec F S2000x256 .f32) (x1 : Vec F S256x128 .f32) (x2 : Vec F S256x128 .f32) (x3 : Vec F S256x128 .f32) : Vec F S2000x128 .f32 :=
  View.canon [⟨r1_o, k1_pay3 (View.ld x0 r1_h) (View.ld x2 r1_w)⟩]

/-- The one store into it is of the whole buffer, so it covers every index. -/
theorem cover1_5 (p0 : Vec F S2000x128 .f32) (y : S2000x128.Idx) :
    ∃ pc ∈ ([⟨r1_o, p0⟩] : List (View.Piece (Elt F) S2000x128 .f32)), y ∈ pc.1.set :=
  View.cover_of_tiled [⟨r1_o, p0⟩] S2000x128.size (by rfl) y

/-- Output window 6's staging buffer after the body, as a function of the input blocks: the hidden block times the third projection matrix. -/
def out1_6 (x0 : Vec F S2000x256 .f32) (x1 : Vec F S256x128 .f32) (x2 : Vec F S256x128 .f32) (x3 : Vec F S256x128 .f32) : Vec F S2000x128 .f32 :=
  View.canon [⟨r1_o, k1_pay4 (View.ld x0 r1_h) (View.ld x3 r1_w)⟩]

/-- The one store into it is of the whole buffer, so it covers every index. -/
theorem cover1_6 (p0 : Vec F S2000x128 .f32) (y : S2000x128.Idx) :
    ∃ pc ∈ ([⟨r1_o, p0⟩] : List (View.Piece (Elt F) S2000x128 .f32)), y ∈ pc.1.set :=
  View.cover_of_tiled [⟨r1_o, p0⟩] S2000x128.size (by rfl) y

/-! ## The body, run once -/

set_option maxHeartbeats 1000000 in
/-- The body on whole staging buffers, the inputs' holding `x_w` and the outputs' anything, ends with the inputs'
    untouched and each output's at `out1_w` of the inputs. -/
theorem sound_kernel1 (c : Dev nD) (E : Set ℕ) (i : grid1.Coords) (arg0 : Memref sig .tc .vmem S2000x256 .f32) (harg0 : arg0.IsWhole) (arg1 : Memref sig .tc .vmem S256x128 .f32) (harg1 : arg1.IsWhole) (arg2 : Memref sig .tc .vmem S256x128 .f32) (harg2 : arg2.IsWhole) (arg3 : Memref sig .tc .vmem S256x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S2000x128 .f32) (harg6 : arg6.IsWhole)
    (x0 : Vec F S2000x256 .f32) (x1 : Vec F S256x128 .f32) (x2 : Vec F S256x128 .f32) (x3 : Vec F S256x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out1_4 x0 x1 x2 x3) ∗ owns (c : Thread nD τ) arg5 fullShare (out1_5 x0 x1 x2 x3) ∗ owns (c : Thread nD τ) arg6 fullShare (out1_6 x0 x1 x2 x3)) -∗ K ⟨⟩))
      ⊢ wp frame (wpE (defs₀ (F := F)) Variants.none c none) E (cc1__project_kernel i arg0 harg0 arg1 harg1 arg2 harg2 arg3 harg3 arg4 harg4 arg5 harg5 arg6 harg6) K := by
  simp only [cc1__project_kernel_eq_skeleton]; unfold cc1__project_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    try dsimp only
    exact View.read_writes_eq_canon _ _ _ (cover1_4 _)
  isplitl [H5]
  · iexists _; isplitr
    swap; · iexact H5
    ipureintro
    try dsimp only
    exact View.read_writes_eq_canon _ _ _ (cover1_5 _)
  iexists _; isplitr
  swap; · iexact H6
  ipureintro
  try dsimp only
  exact View.read_writes_eq_canon _ _ _ (cover1_6 _)

/-! ## The pipeline's proof data -/

/-- Region 1's proof data on core `c`: the arrays as the region finds them; after the body at point `t` each
    input's buffer at its block and each output's at `out1_w` of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
    | ⟨5, _⟩ => out1_5 (iblk1 V c 0 t) (iblk1 V c 1 t) (iblk1 V c 2 t) (iblk1 V c 3 t)
    | ⟨6, _⟩ => out1_6 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]
theorem after1_5 (c : Dev nD) (t : Fin cfg1.N) : (dat1 V c).after 5 t = out1_5 (iblk1 V c 0 t) (iblk1 V c 1 t) (iblk1 V c 2 t) (iblk1 V c 3 t) := by dsimp only [dat1]
theorem after1_6 (c : Dev nD) (t : Fin cfg1.N) : (dat1 V c).after 6 t = out1_6 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation1 (c : Dev nD) : BodyObligation (dat1 (F := F) V c) (defs₀ (F := F)) Variants.none () Set.univ := fun t => by
  rw [bigSep_W1, bigSep_W1]
  exact sound_body1 V c t

end Cert.Kernel.Frm

end
-- ==== Proof.KernelRegion2.lean ====
/-
  Region 2 of the program (the pallas_call of `cc2__combine_kernel`), at any float instance and at any contents `V` of
  the TensorCore's buffers when the region is entered.

  The grid has 50 points; point `t` sees rows 2000·t … 2000·t+1999 of every row-tiled operand and the whole of
  every weight or bias operand. The body reads each input block whole, computes, and overwrites each output block
  whole, so after the body at point `t` an input's staging buffer still holds its block and an output's holds one
  fixed function (`out2_w`) of the input blocks. This file states that function, runs the body once against it,
  and packages the result as the pipeline's proof data and body obligation.
-/
import proofs.«149725_j35570919145822_2_alg».proof.Proof.Gen.Kernel.Launch
import proofs.«149725_j35570919145822_2_alg».proof.Proof.Gen.Kernel.Skeleton
import proofs.«149725_j35570919145822_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, cut out of the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, whether or not a fetch happened there: the
    body never writes it, and where no fetch happens the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's staging buffer holds its block at every point, whether or not a fetch happened there: the
    body never writes it, and where no fetch happens the block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's staging buffer holds its block at every point, whether or not a fetch happened there: the
    body never writes it, and where no fetch happens the block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's staging buffer holds its block at every point, whether or not a fetch happened there: the
    body never writes it, and where no fetch happens the block index has not moved. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's staging buffer holds its block at every point, whether or not a fetch happened there: the
    body never writes it, and where no fetch happens the block index has not moved. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's staging buffer holds its block at every point, whether or not a fetch happened there: the
    body never writes it, and where no fetch happens the block index has not moved. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's staging buffer holds its block at every point, whether or not a fetch happened there: the
    body never writes it, and where no fetch happens the block index has not moved. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes: every one is a whole staging buffer -/

abbrev r2_a : Rect S2000x128 := Rect.unit (s := S2000x128) ![0, 0] S2000x128.size inb_S2000x128_S2000x128_0_0
abbrev r2_c : Rect S2000x3 := Rect.unit (s := S2000x3) ![0, 0] S2000x3.size inb_S2000x3_S2000x3_0_0
abbrev r2_b : Rect S128 := Rect.unit (s := S128) ![0] S128.size inb_S128_S128_0

/-! ## What the body leaves in each output buffer -/

/-- Output window 7's staging buffer after the body, as a function of the input blocks: the three row-scaled aggregates summed, plus the three biases. -/
def out2_7 (x0 : Vec F S2000x128 .f32) (x1 : Vec F S2000x128 .f32) (x2 : Vec F S2000x128 .f32) (x3 : Vec F S2000x3 .f32) (x4 : Vec F S128 .f32) (x5 : Vec F S128 .f32) (x6 : Vec F S128 .f32) : Vec F S2000x128 .f32 :=
  View.canon [⟨r2_a, k2_pay1 (View.ld x3 r2_c) (View.ld x0 r2_a) (View.ld x1 r2_a) (View.ld x2 r2_a) (View.ld x4 r2_b) (View.ld x5 r2_b) (View.ld x6 r2_b)⟩]

/-- The one store into it is of the whole buffer, so it covers every index. -/
theorem cover2_7 (p0 : Vec F S2000x128 .f32) (y : S2000x128.Idx) :
    ∃ pc ∈ ([⟨r2_a, p0⟩] : List (View.Piece (Elt F) S2000x128 .f32)), y ∈ pc.1.set :=
  View.cover_of_tiled [⟨r2_a, p0⟩] S2000x128.size (by rfl) y

/-! ## The body, run once -/

set_option maxHeartbeats 1000000 in
/-- The body on whole staging buffers, the inputs' holding `x_w` and the outputs' anything, ends with the inputs'
    untouched and each output's at `out2_w` of the inputs. -/
theorem sound_kernel2 (c : Dev nD) (E : Set ℕ) (i : grid2.Coords) (arg0 : Memref sig .tc .vmem S2000x128 .f32) (harg0 : arg0.IsWhole) (arg1 : Memref sig .tc .vmem S2000x128 .f32) (harg1 : arg1.IsWhole) (arg2 : Memref sig .tc .vmem S2000x128 .f32) (harg2 : arg2.IsWhole) (arg3 : Memref sig .tc .vmem S2000x3 .f32) (harg3 : arg3.IsWhole) (arg4 : Memref sig .tc .vmem S128 .f32) (harg4 : arg4.IsWhole) (arg5 : Memref sig .tc .vmem S128 .f32) (harg5 : arg5.IsWhole) (arg6 : Memref sig .tc .vmem S128 .f32) (harg6 : arg6.IsWhole) (arg7 : Memref sig .tc .vmem S2000x128 .f32) (harg7 : arg7.IsWhole)
    (x0 : Vec F S2000x128 .f32) (x1 : Vec F S2000x128 .f32) (x2 : Vec F S2000x128 .f32) (x3 : Vec F S2000x3 .f32) (x4 : Vec F S128 .f32) (x5 : Vec F S128 .f32) (x6 : Vec F S128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out2_7 x0 x1 x2 x3 x4 x5 x6)) -∗ K ⟨⟩))
      ⊢ wp frame (wpE (defs₀ (F := F)) Variants.none c none) E (cc2__combine_kernel i arg0 harg0 arg1 harg1 arg2 harg2 arg3 harg3 arg4 harg4 arg5 harg5 arg6 harg6 arg7 harg7) K := by
  simp only [cc2__combine_kernel_eq_skeleton]; unfold cc2__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover2_7 _)

/-! ## The pipeline's proof data -/

/-- Region 2's proof data on core `c`: the arrays as the region finds them; after the body at point `t` each
    input's buffer at its block and each output's at `out2_w` of the input blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation2 (c : Dev nD) : BodyObligation (dat2 (F := F) V c) (defs₀ (F := F)) Variants.none () Set.univ := fun t => by
  rw [bigSep_W2, bigSep_W2]
  exact sound_body2 V c t

end Cert.Kernel.Frm

end
-- ==== Proof.KernelRun.lean ====
/-
  The whole run of the program at any float instance: thirteen stretches of host operations, the first
  pallas_call, the second, one more stretch of host operations, the third.

  Between two items every unscoped buffer of a core is held at known contents: the launch memory, then each host
  stretch applied to it, then — after a region — the region's arrays replaced by what its fifty write-backs leave
  (`X14`, `X15`, `X17`). The theorem `run_all` says every weakly fair execution terminates with every unscoped
  buffer at the last of these contents; the frame statement (the nineteen arguments end as launched) and the
  value of the result array are both read off it.
-/
import proofs.«149725_j35570919145822_2_alg».proof.Proof.KernelRegion0
import proofs.«149725_j35570919145822_2_alg».proof.Proof.KernelRegion1
import proofs.«149725_j35570919145822_2_alg».proof.Proof.KernelRegion2
import proofs.«149725_j35570919145822_2_alg».proof.Proof.Gen.Kernel.Regions

set_option maxRecDepth 16384

noncomputable section

namespace Cert.Kernel.Frm

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at the boundaries -/

/-- Before region 0: the launch memory after the thirteen leading host stretches. -/
abbrev X13 : Dev nD → Valuation τ sig (Elt F) := fun c => V13 m c
abbrev Y13 : (c : Dev nD) → (b : Ref sig .tc) → Buf (Elt F) ((c : Thread nD τ).loc b) := fun c b => X13 m c b

/-- After region 0: its arrays at what the pipeline's write-backs leave, every other buffer as entered. -/
def X14 (c : Dev nD) : Valuation τ sig (Elt F) :=
  Pipeline.withArrays spec0 c (X13 m c) fun w => (dat0 (Y13 m) c).arrAt w cfg0.N
theorem X14_arr (c : Dev nD) (w : Fin cfg0.W) :
    X14 m c (Proc.devRef .tc (Pipeline.arrRef spec0 w)) = (dat0 (Y13 m) c).arrAt w cfg0.N := by
  unfold X14; exact Pipeline.withArrays_arr spec0 launch0.win.arr_inj c _ _ w
theorem X14_of_ne (c : Dev nD) (b : Ref sig .tc) (hb : ∀ w, Pipeline.arrRef spec0 w ≠ b) :
    X14 m c (Proc.devRef .tc b) = X13 m c (Proc.devRef .tc b) := by
  unfold X14; exact Pipeline.withArrays_of_ne spec0 c _ _ b hb
abbrev Y14 : (c : Dev nD) → (b : Ref sig .tc) → Buf (Elt F) ((c : Thread nD τ).loc b) := fun c b => X14 m c b
theorem hF0 (c : Dev nD) (w : Fin cfg0.W) : (dat0 (Y13 m) c).arrAt w cfg0.N = Y14 m c (Pipeline.arrRef spec0 w) :=
  (X14_arr m c w).symm
theorem hrest0 (c : Dev nD) : ∀ b, b ∉ Finset.univ.image (Pipeline.arrRef spec0) → Y14 m c b = Y13 m c b :=
  fun b hb => X14_of_ne m c b fun w e => hb (Finset.mem_image.mpr ⟨w, Finset.mem_univ _, e⟩)
/-- A buffer that is no array of region 0, or the array of one of its input windows, leaves the region as it entered. -/
theorem X14_keep (c : Dev nD) (r : Ref sig .tc)
    (h : (∀ w, Pipeline.arrRef spec0 w ≠ r) ∨ ∃ w, (cfg0.win w).isOut = false ∧ Pipeline.arrRef spec0 w = r) :
    X14 m c (Proc.devRef .tc r) = X13 m c (Proc.devRef .tc r) := by
  rcases h with h | ⟨w, hw, e⟩
  · exact X14_of_ne m c r h
  · subst e
    exact (X14_arr m c w).trans (((dat0 (Y13 m) c).arrAt_in w hw _).trans (A_eq0 (Y13 m) c w))

/-- After region 1: its arrays at what the pipeline's write-backs leave, every other buffer as entered. -/
def X15 (c : Dev nD) : Valuation τ sig (Elt F) :=
  Pipeline.withArrays spec1 c (X14 m c) fun w => (dat1 (Y14 m) c).arrAt w cfg1.N
theorem X15_arr (c : Dev nD) (w : Fin cfg1.W) :
    X15 m c (Proc.devRef .tc (Pipeline.arrRef spec1 w)) = (dat1 (Y14 m) c).arrAt w cfg1.N := by
  unfold X15; exact Pipeline.withArrays_arr spec1 launch1.win.arr_inj c _ _ w
theorem X15_of_ne (c : Dev nD) (b : Ref sig .tc) (hb : ∀ w, Pipeline.arrRef spec1 w ≠ b) :
    X15 m c (Proc.devRef .tc b) = X14 m c (Proc.devRef .tc b) := by
  unfold X15; exact Pipeline.withArrays_of_ne spec1 c _ _ b hb
abbrev Y15 : (c : Dev nD) → (b : Ref sig .tc) → Buf (Elt F) ((c : Thread nD τ).loc b) := fun c b => X15 m c b
theorem hF1 (c : Dev nD) (w : Fin cfg1.W) : (dat1 (Y14 m) c).arrAt w cfg1.N = Y15 m c (Pipeline.arrRef spec1 w) :=
  (X15_arr m c w).symm
theorem hrest1 (c : Dev nD) : ∀ b, b ∉ Finset.univ.image (Pipeline.arrRef spec1) → Y15 m c b = Y14 m c b :=
  fun b hb => X15_of_ne m c b fun w e => hb (Finset.mem_image.mpr ⟨w, Finset.mem_univ _, e⟩)
/-- A buffer that is no array of region 1, or the array of one of its input windows, leaves the region as it entered. -/
theorem X15_keep (c : Dev nD) (r : Ref sig .tc)
    (h : (∀ w, Pipeline.arrRef spec1 w ≠ r) ∨ ∃ w, (cfg1.win w).isOut = false ∧ Pipeline.arrRef spec1 w = r) :
    X15 m c (Proc.devRef .tc r) = X14 m c (Proc.devRef .tc r) := by
  rcases h with h | ⟨w, hw, e⟩
  · exact X15_of_ne m c r h
  · subst e
    exact (X15_arr m c w).trans (((dat1 (Y14 m) c).arrAt_in w hw _).trans (A_eq1 (Y14 m) c w))

/-- Before region 2: the host stretch between the second and third pallas_call applied. -/
abbrev X16 : Dev nD → Valuation τ sig (Elt F) := fun c => StableHlo.after hostOps2 (X15 m c)
abbrev Y16 : (c : Dev nD) → (b : Ref sig .tc) → Buf (Elt F) ((c : Thread nD τ).loc b) := fun c b => X16 m c b

/-- After region 2: its arrays at what the pipeline's write-backs leave, every other buffer as entered. -/
def X17 (c : Dev nD) : Valuation τ sig (Elt F) :=
  Pipeline.withArrays spec2 c (X16 m c) fun w => (dat2 (Y16 m) c).arrAt w cfg2.N
theorem X17_arr (c : Dev nD) (w : Fin cfg2.W) :
    X17 m c (Proc.devRef .tc (Pipeline.arrRef spec2 w)) = (dat2 (Y16 m) c).arrAt w cfg2.N := by
  unfold X17; exact Pipeline.withArrays_arr spec2 launch2.win.arr_inj c _ _ w
theorem X17_of_ne (c : Dev nD) (b : Ref sig .tc) (hb : ∀ w, Pipeline.arrRef spec2 w ≠ b) :
    X17 m c (Proc.devRef .tc b) = X16 m c (Proc.devRef .tc b) := by
  unfold X17; exact Pipeline.withArrays_of_ne spec2 c _ _ b hb
abbrev Y17 : (c : Dev nD) → (b : Ref sig .tc) → Buf (Elt F) ((c : Thread nD τ).loc b) := fun c b => X17 m c b
theorem hF2 (c : Dev nD) (w : Fin cfg2.W) : (dat2 (Y16 m) c).arrAt w cfg2.N = Y17 m c (Pipeline.arrRef spec2 w) :=
  (X17_arr m c w).symm
theorem hrest2 (c : Dev nD) : ∀ b, b ∉ Finset.univ.image (Pipeline.arrRef spec2) → Y17 m c b = Y16 m c b :=
  fun b hb => X17_of_ne m c b fun w e => hb (Finset.mem_image.mpr ⟨w, Finset.mem_univ _, e⟩)
/-- A buffer that is no array of region 2, or the array of one of its input windows, leaves the region as it entered. -/
theorem X17_keep (c : Dev nD) (r : Ref sig .tc)
    (h : (∀ w, Pipeline.arrRef spec2 w ≠ r) ∨ ∃ w, (cfg2.win w).isOut = false ∧ Pipeline.arrRef spec2 w = r) :
    X17 m c (Proc.devRef .tc r) = X16 m c (Proc.devRef .tc r) := by
  rcases h with h | ⟨w, hw, e⟩
  · exact X17_of_ne m c r h
  · subst e
    exact (X17_arr m c w).trans (((dat2 (Y16 m) c).arrAt_in w hw _).trans (A_eq2 (Y16 m) c w))

/-- A buffer none of the thirteen leading host stretches writes is, before region 0, as launched. -/
theorem X13_keep (c : Dev nD) (r : Ref sig .tc)
    (h0 : r ∉ hostOps0_W) (h1 : r ∉ hostOps0_1_W) (h2 : r ∉ hostOps0_2_W) (h3 : r ∉ hostOps0_3_W) (h4 : r ∉ hostOps0_4_W) (h5 : r ∉ hostOps0_5_W) (h6 : r ∉ hostOps0_6_W) (h7 : r ∉ hostOps0_7_W) (h8 : r ∉ hostOps0_8_W) (h9 : r ∉ hostOps0_9_W) (h10 : r ∉ hostOps0_10_W) (h11 : r ∉ hostOps0_11_W) (h12 : r ∉ hostOps0_12_W) :
    X13 m c r = m ((c : Thread nD τ).loc r) :=
  (V13_of m c r h12).trans <| (V12_of m c r h11).trans <| (V11_of m c r h10).trans <| (V10_of m c r h9).trans <| (V9_of m c r h8).trans <| (V8_of m c r h7).trans <| (V7_of m c r h6).trans <| (V6_of m c r h5).trans <| (V5_of m c r h4).trans <| (V4_of m c r h3).trans <| (V3_of m c r h2).trans <| (V2_of m c r h1).trans <| (V1_of m c r h0)

/-- A buffer the host stretch between the last two regions does not write passes it unchanged. -/
theorem X16_keep (c : Dev nD) (r : Ref sig .tc) (h : r ∉ hostOps2_W) : X16 m c r = X15 m c r :=
  StableHlo.after_of_writes_sub hostOps2 _ hostOps2_writes h

/-! ## The proof data family and the thread state -/

/-- Each pipeline's proof data, at its region's entry contents. -/
def pdats : (p : Fin 3) → (c : Dev nD) → Dat τ (Elt F) Unit ℕ (UR sig nD τ) ℕ (Pipeline.pin (pcfgs (F := F)) adm p) c
  | ⟨0, _⟩ => fun c => dat0 (Y13 m) c
  | ⟨1, _⟩ => fun c => dat1 (Y14 m) c
  | ⟨2, _⟩ => fun c => dat2 (Y16 m) c
abbrev 𝒱₀ : Variants := Variants.none
abbrev L : GSem nD τ sig → Finset Unit := fun _ => ∅
abbrev lv : GSem nD τ sig → Unit → ℕ := fun _ _ => 0
/-- What rides beside the buffers through every segment: the core's generator register at some state and its
    debts, none. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the final contents, the generator register. -/
abbrev Tₙ (c : Dev nD) : sProp 𝕄 := iprop(StableHlo.held (c : Thread nD τ) (Pipeline.ucRefs τ sig) (X17 m c) ∗ ∃ r, prngReg c r)

/-! ## The regions as segments -/

set_option backward.isDefEq.respectTransparency.types false in
/-- Region 0 as a segment: entered with every unscoped buffer at the contents before it, left with the region's
    arrays at what its write-backs leave and every other buffer as entered. Nothing is owed, no table is read, the
    kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Y13 m) c).loose
  hwaits := Pipeline.hwaits_of_owed_zero _ _ _ _ L lv 0 fun _ _ => rfl
  pre c := iprop(StableHlo.held (c : Thread nD τ) (Pipeline.ucRefs τ sig) (X13 m c) ∗ R c)
  post c := iprop(StableHlo.held (c : Thread nD τ) (Pipeline.ucRefs τ sig) (X14 m c) ∗ R c)
  X c := iprop(∃ r, prngReg c r)
  Y c := iprop(∃ r, prngReg c r)
  Z c := Pipeline.unscopedRest (Ix := Unit) (Name := ℕ) (U := UR sig nD τ) (Lvl := ℕ) spec0 c (Y13 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Y13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Y13 m c) (Y14 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at the contents before it, left with the region's
    arrays at what its write-backs leave and every other buffer as entered. Nothing is owed, no table is read, the
    kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Y14 m) c).loose
  hwaits := Pipeline.hwaits_of_owed_zero _ _ _ _ L lv 1 fun _ _ => rfl
  pre c := iprop(StableHlo.held (c : Thread nD τ) (Pipeline.ucRefs τ sig) (X14 m c) ∗ R c)
  post c := iprop(StableHlo.held (c : Thread nD τ) (Pipeline.ucRefs τ sig) (X15 m c) ∗ R c)
  X c := iprop(∃ r, prngReg c r)
  Y c := iprop(∃ r, prngReg c r)
  Z c := Pipeline.unscopedRest (Ix := Unit) (Name := ℕ) (U := UR sig nD τ) (Lvl := ℕ) spec1 c (Y14 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Y14 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Y14 m c) (Y15 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at the contents before it, left with the region's
    arrays at what its write-backs leave and every other buffer as entered. Nothing is owed, no table is read, the
    kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Y16 m) c).loose
  hwaits := Pipeline.hwaits_of_owed_zero _ _ _ _ L lv 2 fun _ _ => rfl
  pre c := iprop(StableHlo.held (c : Thread nD τ) (Pipeline.ucRefs τ sig) (X16 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (Y16 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Y16 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Y16 m c) (Y17 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and its run -/

abbrev segs : List (Pipeline.Seg (pcfgs (F := F)) adm (pdats m) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .host (hseg hostOps0_3 hostOps0_3_sub hostOps0_3_fresh (V3 m)),
    .host (hseg hostOps0_4 hostOps0_4_sub hostOps0_4_fresh (V4 m)),
    .host (hseg hostOps0_5 hostOps0_5_sub hostOps0_5_fresh (V5 m)),
    .host (hseg hostOps0_6 hostOps0_6_sub hostOps0_6_fresh (V6 m)),
    .host (hseg hostOps0_7 hostOps0_7_sub hostOps0_7_fresh (V7 m)),
    .host (hseg hostOps0_8 hostOps0_8_sub hostOps0_8_fresh (V8 m)),
    .host (hseg hostOps0_9 hostOps0_9_sub hostOps0_9_fresh (V9 m)),
    .host (hseg hostOps0_10 hostOps0_10_sub hostOps0_10_fresh (V10 m)),
    .host (hseg hostOps0_11 hostOps0_11_sub hostOps0_11_fresh (V11 m)),
    .host (hseg hostOps0_12 hostOps0_12_sub hostOps0_12_fresh (V12 m)),
    .region (reg0 m),
    .region (reg1 m),
    .host (hseg hostOps2 hostOps2_sub hostOps2_fresh (X15 m)),
    .region (reg2 m) ]

set_option backward.isDefEq.respectTransparency.types false in
/-- Every weakly fair execution of the program from memory `m` with zero counters terminates, nothing faulting, and
    ends with every unscoped buffer of every core at the final contents `X17`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = X17 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          Prog.lift (.customCall (Pipeline.entry 0) ()),
          Prog.lift (.customCall (Pipeline.entry 1) ()),
          StableHlo.seq hostOps2,
          Prog.lift (.customCall (Pipeline.entry 2) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X17 m c b)
    (hfin := fun c s' => by
      iintro ⟨⟨Hh, -⟩, HSI⟩
      unfold StableHlo.held
      imodintro
      iapply (pointsTo_read_all (Pipeline.ucRefs τ sig) (fun b => (((c : Thread nD τ)).1, b)) (X17 m c) s')
      isplitl [Hh] <;> iassumption)
    (hQ := fun s h => h)

end Cert.Kernel.Frm

end
-- ==== Proof.KernelFrame.lean ====
/-
  The program's frame, at any float instance: every weakly fair execution terminates, nothing faulting, and each of
  the nineteen argument arrays ends as launched. No host operation writes an argument, and a region only ever
  stages one through an input window, which is never written back; so the final contents of an argument's buffer
  walk back, boundary by boundary, to the launch memory.
-/
import proofs.«149725_j35570919145822_2_alg».proof.Proof.KernelRun

set_option maxRecDepth 16384

noncomputable section

namespace Cert.Kernel.Frm

open Cert.Kernel.Gen
open Idealize.ShloMosaic Idealize.ShloMosaic.TcCoe
open Idealize.SL Idealize.SL.Sem

variable {F : FTy → Type} [FloatOps F]
variable (m : (ℓ : Loc nD τ sig) → Buf (Elt F) ℓ)

/-- A buffer that no host stretch writes, and that each region either does not touch or only reads through an input
    window, ends as launched. -/
theorem X17_launch (c : Dev nD) (r : Ref sig .tc)
    (h0 : (∀ w, Pipeline.arrRef spec0 w ≠ r) ∨ ∃ w, (cfg0.win w).isOut = false ∧ Pipeline.arrRef spec0 w = r)
    (h1 : (∀ w, Pipeline.arrRef spec1 w ≠ r) ∨ ∃ w, (cfg1.win w).isOut = false ∧ Pipeline.arrRef spec1 w = r)
    (h2 : (∀ w, Pipeline.arrRef spec2 w ≠ r) ∨ ∃ w, (cfg2.win w).isOut = false ∧ Pipeline.arrRef spec2 w = r)
    (hh : r ∉ hostOps2_W)
    (k0 : r ∉ hostOps0_W) (k1 : r ∉ hostOps0_1_W) (k2 : r ∉ hostOps0_2_W) (k3 : r ∉ hostOps0_3_W) (k4 : r ∉ hostOps0_4_W) (k5 : r ∉ hostOps0_5_W) (k6 : r ∉ hostOps0_6_W) (k7 : r ∉ hostOps0_7_W) (k8 : r ∉ hostOps0_8_W) (k9 : r ∉ hostOps0_9_W) (k10 : r ∉ hostOps0_10_W) (k11 : r ∉ hostOps0_11_W) (k12 : r ∉ hostOps0_12_W) :
    X17 m c (Proc.devRef .tc r) = m ((c : Thread nD τ).loc r) :=
  (X17_keep m c r h2).trans <| (X16_keep m c r hh).trans <| (X15_keep m c r h1).trans <| (X14_keep m c r h0).trans <|
    X13_keep m c r k0 k1 k2 k3 k4 k5 k6 k7 k8 k9 k10 k11 k12

theorem X17_main_arg0 (c : Dev nD) : X17 m c (Proc.devRef .tc main_arg0) = m ((c : Thread nD τ).loc main_arg0) :=
  X17_launch m c main_arg0 (.inl (by decide)) (.inl (by decide)) (.inl (by decide)) (by decide)
    (by decide) (by decide) (by decide) (by decide) (by decide) (by decide) (by decide) (by decide) (by decide) (by decide) (by decide) (by decide) (by decide)
theorem X17_main_arg1 (c : Dev nD) : X17 m c (Proc.devRef .tc main_arg1) = m ((c : Thread nD τ).loc main_arg1) :=
  X17_launch m c main_arg1 (.inl (by decide)) (.inl (by decide)) (.inl (by decide)) (by decide)
    (by decide) (by decide) (by decide) (by decide) (by decide) (by decide) (by decide) (by decide) (by decide) (by decide) (by decide) (by decide) (by decide)
theorem X17_main_arg2 (c : Dev nD) : X17 m c (Proc.devRef .tc main_arg2) = m ((c : Thread nD τ).loc main_arg2) :=
  X17_launch m c main_arg2 (.inl (by decide)) (.inl (by decide)) (.inl (by decide)) (by decide)
    (by decide) (by decide) (by decide) (by decide) (by decide) (by decide) (by decide) (by decide) (by decide) (by decide) (by decide) (by decide) (by decide)
theorem X17_main_arg3 (c : Dev nD) : X17 m c (Proc.devRef .tc main_arg3) = m ((c : Thread nD τ).loc main_arg3) :=
  X17_launch m c main_arg3 (.inl (by decide)) (.inl (by decide)) (.inl (by decide)) (by decide)
    (by decide) (by decide) (by decide) (by decide) (by decide) (by decide) (by decide) (by decide) (by decide) (by decide) (by decide) (by decide) (by decide)
theorem X17_main_arg4 (c : Dev nD) : X17 m c (Proc.devRef .tc main_arg4) = m ((c : Thread nD τ).loc main_arg4) :=
  X17_launch m c main_arg4 (.inl (by decide)) (.inl (by decide)) (.inl (by decide)) (by decide)
    (by decide) (by decide) (by decide) (by decide) (by decide) (by decide) (by decide) (by decide) (by decide) (by decide) (by decide) (by decide) (by decide)
theorem X17_main_arg5 (c : Dev nD) : X17 m c (Proc.devRef .tc main_arg5) = m ((c : Thread nD τ).loc main_arg5) :=
  X17_launch m c main_arg5 (.inl (by decide)) (.inl (by decide)) (.inl (by decide)) (by decide)
    (by decide) (by decide) (by decide) (by decide) (by decide) (by decide) (by decide) (by decide) (by decide) (by decide) (by decide) (by decide) (by decide)
theorem X17_main_arg6 (c : Dev nD) : X17 m c (Proc.devRef .tc main_arg6) = m ((c : Thread nD τ).loc main_arg6) :=
  X17_launch m c main_arg6 (.inl (by decide)) (.inl (by decide)) (.inl (by decide)) (by decide)
    (by decide) (by decide) (by decide) (by decide) (by decide) (by decide) (by decide) (by decide) (by decide) (by decide) (by decide) (by decide) (by decide)
theorem X17_main_arg7 (c : Dev nD) : X17 m c (Proc.devRef .tc main_arg7) = m ((c : Thread nD τ).loc main_arg7) :=
  X17_launch m c main_arg7 (.inr ⟨4, rfl, rfl⟩) (.inl (by decide)) (.inl (by decide)) (by decide)
    (by decide) (by decide) (by decide) (by decide) (by decide) (by decide) (by decide) (by decide) (by decide) (by decide) (by decide) (by decide) (by decide)
theorem X17_main_arg8 (c : Dev nD) : X17 m c (Proc.devRef .tc main_arg8) = m ((c : Thread nD τ).loc main_arg8) :=
  X17_launch m c main_arg8 (.inr ⟨7, rfl, rfl⟩) (.inl (by decide)) (.inl (by decide)) (by decide)
    (by decide) (by decide) (by decide) (by decide) (by decide) (by decide) (by decide) (by decide) (by decide) (by decide) (by decide) (by decide) (by decide)
theorem X17_main_arg9 (c : Dev nD) : X17 m c (Proc.devRef .tc main_arg9) = m ((c : Thread nD τ).loc main_arg9) :=
  X17_launch m c main_arg9 (.inr ⟨5, rfl, rfl⟩) (.inl (by decide)) (.inl (by decide)) (by decide)
    (by decide) (by decide) (by decide) (by decide) (by decide) (by decide) (by decide) (by decide) (by decide) (by decide) (by decide) (by decide) (by decide)
theorem X17_main_arg10 (c : Dev nD) : X17 m c (Proc.devRef .tc main_arg10) = m ((c : Thread nD τ).loc main_arg10) :=
  X17_launch m c main_arg10 (.inr ⟨8, rfl, rfl⟩) (.inl (by decide)) (.inl (by decide)) (by decide)
    (by decide) (by decide) (by decide) (by decide) (by decide) (by decide) (by decide) (by decide) (by decide) (by decide) (by decide) (by decide) (by decide)
theorem X17_main_arg11 (c : Dev nD) : X17 m c (Proc.devRef .tc main_arg11) = m ((c : Thread nD τ).loc main_arg11) :=
  X17_launch m c main_arg11 (.inr ⟨6, rfl, rfl⟩) (.inl (by decide)) (.inl (by decide)) (by decide)
    (by decide) (by decide) (by decide) (by decide) (by decide) (by decide) (by decide) (by decide) (by decide) (by decide) (by decide) (by decide) (by decide)
theorem X17_main_arg12 (c : Dev nD) : X17 m c (Proc.devRef .tc main_arg12) = m ((c : Thread nD τ).loc main_arg12) :=
  X17_launch m c main_arg12 (.inr ⟨9, rfl, rfl⟩) (.inl (by decide)) (.inl (by decide)) (by decide)
    (by decide) (by decide) (by decide) (by decide) (by decide) (by decide) (by decide) (by decide) (by decide) (by decide) (by decide) (by decide) (by decide)
theorem X17_main_arg13 (c : Dev nD) : X17 m c (Proc.devRef .tc main_arg13) = m ((c : Thread nD τ).loc main_arg13) :=
  X17_launch m c main_arg13 (.inl (by decide)) (.inr ⟨1, rfl, rfl⟩) (.inl (by decide)) (by decide)
    (by decide) (by decide) (by decide) (by decide) (by decide) (by decide) (by decide) (by decide) (by decide) (by decide) (by decide) (by decide) (by decide)
theorem X17_main_arg14 (c : Dev nD) : X17 m c (Proc.devRef .tc main_arg14) = m ((c : Thread nD τ).loc main_arg14) :=
  X17_launch m c main_arg14 (.inl (by decide)) (.inl (by decide)) (.inr ⟨4, rfl, rfl⟩) (by decide)
    (by decide) (by decide) (by decide) (by decide) (by decide) (by decide) (by decide) (by decide) (by decide) (by decide) (by decide) (by decide) (by decide)
theorem X17_main_arg15 (c : Dev nD) : X17 m c (Proc.devRef .tc main_arg15) = m ((c : Thread nD τ).loc main_arg15) :=
  X17_launch m c main_arg15 (.inl (by decide)) (.inr ⟨2, rfl, rfl⟩) (.inl (by decide)) (by decide)
    (by decide) (by decide) (by decide) (by decide) (by decide) (by decide) (by decide) (by decide) (by decide) (by decide) (by decide) (by decide) (by decide)
theorem X17_main_arg16 (c : Dev nD) : X17 m c (Proc.devRef .tc main_arg16) = m ((c : Thread nD τ).loc main_arg16) :=
  X17_launch m c main_arg16 (.inl (by decide)) (.inl (by decide)) (.inr ⟨5, rfl, rfl⟩) (by decide)
    (by decide) (by decide) (by decide) (by decide) (by decide) (by decide) (by decide) (by decide) (by decide) (by decide) (by decide) (by decide) (by decide)
theorem X17_main_arg17 (c : Dev nD) : X17 m c (Proc.devRef .tc main_arg17) = m ((c : Thread nD τ).loc main_arg17) :=
  X17_launch m c main_arg17 (.inl (by decide)) (.inr ⟨3, rfl, rfl⟩) (.inl (by decide)) (by decide)
    (by decide) (by decide) (by decide) (by decide) (by decide) (by decide) (by decide) (by decide) (by decide) (by decide) (by decide) (by decide) (by decide)
theorem X17_main_arg18 (c : Dev nD) : X17 m c (Proc.devRef .tc main_arg18) = m ((c : Thread nD τ).loc main_arg18) :=
  X17_launch m c main_arg18 (.inl (by decide)) (.inl (by decide)) (.inr ⟨6, rfl, rfl⟩) (by decide)
    (by decide) (by decide) (by decide) (by decide) (by decide) (by decide) (by decide) (by decide) (by decide) (by decide) (by decide) (by decide) (by decide)

/-- The frame statement. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c =>
    ⟨(h c _ (mem_uc main_arg0 (by decide))).trans (X17_main_arg0 m c),
      (h c _ (mem_uc main_arg1 (by decide))).trans (X17_main_arg1 m c),
      (h c _ (mem_uc main_arg2 (by decide))).trans (X17_main_arg2 m c),
      (h c _ (mem_uc main_arg3 (by decide))).trans (X17_main_arg3 m c),
      (h c _ (mem_uc main_arg4 (by decide))).trans (X17_main_arg4 m c),
      (h c _ (mem_uc main_arg5 (by decide))).trans (X17_main_arg5 m c),
      (h c _ (mem_uc main_arg6 (by decide))).trans (X17_main_arg6 m c),
      (h c _ (mem_uc main_arg7 (by decide))).trans (X17_main_arg7 m c),
      (h c _ (mem_uc main_arg8 (by decide))).trans (X17_main_arg8 m c),
      (h c _ (mem_uc main_arg9 (by decide))).trans (X17_main_arg9 m c),
      (h c _ (mem_uc main_arg10 (by decide))).trans (X17_main_arg10 m c),
      (h c _ (mem_uc main_arg11 (by decide))).trans (X17_main_arg11 m c),
      (h c _ (mem_uc main_arg12 (by decide))).trans (X17_main_arg12 m c),
      (h c _ (mem_uc main_arg13 (by decide))).trans (X17_main_arg13 m c),
      (h c _ (mem_uc main_arg14 (by decide))).trans (X17_main_arg14 m c),
      (h c _ (mem_uc main_arg15 (by decide))).trans (X17_main_arg15 m c),
      (h c _ (mem_uc main_arg16 (by decide))).trans (X17_main_arg16 m c),
      (h c _ (mem_uc main_arg17 (by decide))).trans (X17_main_arg17 m c),
      (h c _ (mem_uc main_arg18 (by decide))).trans (X17_main_arg18 m c)⟩)
    (run_all m ρ)

end Cert.Kernel.Frm

end
-- ==== Proof.KernelIdealRegion0.lean ====
/-
  Region 0 of the program (the pallas_call of `cc0__layer1_kernel`), at any float instance and at any contents `V` of
  the TensorCore's buffers when the region is entered.

  The grid has 50 points; point `t` sees rows 2000·t … 2000·t+1999 of every row-tiled operand and the whole of
  every weight or bias operand. The body reads each input block whole, computes, and overwrites each output block
  whole, so after the body at point `t` an input's staging buffer still holds its block and an output's holds one
  fixed function (`out0_w`) of the input blocks. This file states that function, runs the body once against it,
  and packages the result as the pipeline's proof data and body obligation.
-/
import proofs.«149725_j35570919145822_2_alg».proof.Proof.Gen.KernelIdeal.Launch
import proofs.«149725_j35570919145822_2_alg».proof.Proof.Gen.KernelIdeal.Skeleton
import proofs.«149725_j35570919145822_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, cut out of the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether or not a fetch happened there: the
    body never writes it, and where no fetch happens the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every point, whether or not a fetch happened there: the
    body never writes it, and where no fetch happens the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds its block at every point, whether or not a fetch happened there: the
    body never writes it, and where no fetch happens the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's staging buffer holds its block at every point, whether or not a fetch happened there: the
    body never writes it, and where no fetch happens the block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's staging buffer holds its block at every point, whether or not a fetch happened there: the
    body never writes it, and where no fetch happens the block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's staging buffer holds its block at every point, whether or not a fetch happened there: the
    body never writes it, and where no fetch happens the block index has not moved. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's staging buffer holds its block at every point, whether or not a fetch happened there: the
    body never writes it, and where no fetch happens the block index has not moved. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's staging buffer holds its block at every point, whether or not a fetch happened there: the
    body never writes it, and where no fetch happens the block index has not moved. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- Input window 8's staging buffer holds its block at every point, whether or not a fetch happened there: the
    body never writes it, and where no fetch happens the block index has not moved. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
/-- Input window 9's staging buffer holds its block at every point, whether or not a fetch happened there: the
    body never writes it, and where no fetch happens the block index has not moved. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: every one is a whole staging buffer -/

abbrev r0_a : Rect S2000x128 := Rect.unit (s := S2000x128) ![0, 0] S2000x128.size inb_S2000x128_S2000x128_0_0
abbrev r0_c : Rect S2000x3 := Rect.unit (s := S2000x3) ![0, 0] S2000x3.size inb_S2000x3_S2000x3_0_0
abbrev r0_w : Rect S128x256 := Rect.unit (s := S128x256) ![0, 0] S128x256.size inb_S128x256_S128x256_0_0
abbrev r0_b : Rect S256 := Rect.unit (s := S256) ![0] S256.size inb_S256_S256_0
abbrev r0_o : Rect S2000x256 := Rect.unit (s := S2000x256) ![0, 0] S2000x256.size inb_S2000x256_S2000x256_0_0

/-! ## What the body leaves in each output buffer -/

/-- Output window 10's staging buffer after the body, as a function of the input blocks: the three row-scaled aggregates, each times its weight matrix, summed, plus the three biases, clamped below at 0. -/
def out0_10 (x0 : Vec F S2000x128 .f32) (x1 : Vec F S2000x128 .f32) (x2 : Vec F S2000x128 .f32) (x3 : Vec F S2000x3 .f32) (x4 : Vec F S128x256 .f32) (x5 : Vec F S128x256 .f32) (x6 : Vec F S128x256 .f32) (x7 : Vec F S256 .f32) (x8 : Vec F S256 .f32) (x9 : Vec F S256 .f32) : Vec F S2000x256 .f32 :=
  View.canon [⟨r0_o, k0_pay1 (k0_pay2 (View.ld x3 r0_c) (View.ld x0 r0_a) (View.ld x1 r0_a) (View.ld x2 r0_a) (View.ld x4 r0_w) (View.ld x5 r0_w) (View.ld x6 r0_w)) (k0_pay3 (View.ld x7 r0_b) (View.ld x8 r0_b) (View.ld x9 r0_b))⟩]

/-- The one store into it is of the whole buffer, so it covers every index. -/
theorem cover0_10 (p0 : Vec F S2000x256 .f32) (y : S2000x256.Idx) :
    ∃ pc ∈ ([⟨r0_o, p0⟩] : List (View.Piece (Elt F) S2000x256 .f32)), y ∈ pc.1.set :=
  View.cover_of_tiled [⟨r0_o, p0⟩] S2000x256.size (by rfl) y

/-! ## The body, run once -/

set_option maxHeartbeats 1000000 in
/-- The body on whole staging buffers, the inputs' holding `x_w` and the outputs' anything, ends with the inputs'
    untouched and each output's at `out0_w` of the inputs. -/
theorem sound_kernel0 (c : Dev nD) (E : Set ℕ) (i : grid0.Coords) (arg0 : Memref sig .tc .vmem S2000x128 .f32) (harg0 : arg0.IsWhole) (arg1 : Memref sig .tc .vmem S2000x128 .f32) (harg1 : arg1.IsWhole) (arg2 : Memref sig .tc .vmem S2000x128 .f32) (harg2 : arg2.IsWhole) (arg3 : Memref sig .tc .vmem S2000x3 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S256 .f32) (harg7 : arg7.IsWhole) (arg8 : Memref sig .tc .vmem S256 .f32) (harg8 : arg8.IsWhole) (arg9 : Memref sig .tc .vmem S256 .f32) (harg9 : arg9.IsWhole) (arg10 : Memref sig .tc .vmem S2000x256 .f32) (harg10 : arg10.IsWhole)
    (x0 : Vec F S2000x128 .f32) (x1 : Vec F S2000x128 .f32) (x2 : Vec F S2000x128 .f32) (x3 : Vec F S2000x3 .f32) (x4 : Vec F S128x256 .f32) (x5 : Vec F S128x256 .f32) (x6 : Vec F S128x256 .f32) (x7 : Vec F S256 .f32) (x8 : Vec F S256 .f32) (x9 : Vec F S256 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (out0_10 x0 x1 x2 x3 x4 x5 x6 x7 x8 x9)) -∗ K ⟨⟩))
      ⊢ wp frame (wpE (defs₀ (F := F)) Variants.none c none) E (cc0__layer1_kernel i arg0 harg0 arg1 harg1 arg2 harg2 arg3 harg3 arg4 harg4 arg5 harg5 arg6 harg6 arg7 harg7 arg8 harg8 arg9 harg9 arg10 harg10) K := by
  simp only [cc0__layer1_kernel_eq_skeleton]; unfold cc0__layer1_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  try dsimp only
  exact View.read_writes_eq_canon _ _ _ (cover0_10 _)

/-! ## The pipeline's proof data -/

/-- Region 0's proof data on core `c`: the arrays as the region finds them; after the body at point `t` each
    input's buffer at its block and each output's at `out0_w` of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d

/-! ## The body obligation at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel0 c Set.univ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation0 (c : Dev nD) : BodyObligation (dat0 (F := F) V c) (defs₀ (F := F)) Variants.none () Set.univ := fun t => by
  rw [bigSep_W0, bigSep_W0]
  exact sound_body0 V c t

end Cert.KernelIdeal.Frm

end
-- ==== Proof.KernelIdealRegion1.lean ====
/-
  Region 1 of the program (the pallas_call of `cc1__project_kernel`), at any float instance and at any contents `V` of
  the TensorCore's buffers when the region is entered.

  The grid has 50 points; point `t` sees rows 2000·t … 2000·t+1999 of every row-tiled operand and the whole of
  every weight or bias operand. The body reads each input block whole, computes, and overwrites each output block
  whole, so after the body at point `t` an input's staging buffer still holds its block and an output's holds one
  fixed function (`out1_w`) of the input blocks. This file states that function, runs the body once against it,
  and packages the result as the pipeline's proof data and body obligation.
-/
import proofs.«149725_j35570919145822_2_alg».proof.Proof.Gen.KernelIdeal.Launch
import proofs.«149725_j35570919145822_2_alg».proof.Proof.Gen.KernelIdeal.Skeleton
import proofs.«149725_j35570919145822_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, cut out of the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether or not a fetch happened there: the
    body never writes it, and where no fetch happens the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block at every point, whether or not a fetch happened there: the
    body never writes it, and where no fetch happens the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds its block at every point, whether or not a fetch happened there: the
    body never writes it, and where no fetch happens the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's staging buffer holds its block at every point, whether or not a fetch happened there: the
    body never writes it, and where no fetch happens the block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes: every one is a whole staging buffer -/

abbrev r1_h : Rect S2000x256 := Rect.unit (s := S2000x256) ![0, 0] S2000x256.size inb_S2000x256_S2000x256_0_0
abbrev r1_w : Rect S256x128 := Rect.unit (s := S256x128) ![0, 0] S256x128.size inb_S256x128_S256x128_0_0
abbrev r1_o : Rect S2000x128 := Rect.unit (s := S2000x128) ![0, 0] S2000x128.size inb_S2000x128_S2000x128_0_0

/-! ## What the body leaves in each output buffer -/

/-- Output window 4's staging buffer after the body, as a function of the input blocks: the hidden block times the first projection matrix. -/
def out1_4 (x0 : Vec F S2000x256 .f32) (x1 : Vec F S256x128 .f32) (x2 : Vec F S256x128 .f32) (x3 : Vec F S256x128 .f32) : Vec F S2000x128 .f32 :=
  View.canon [⟨r1_o, k1_pay2 (View.ld x0 r1_h) (View.ld x1 r1_w)⟩]

/-- The one store into it is of the whole buffer, so it covers every index. -/
theorem cover1_4 (p0 : Vec F S2000x128 .f32) (y : S2000x128.Idx) :
    ∃ pc ∈ ([⟨r1_o, p0⟩] : List (View.Piece (Elt F) S2000x128 .f32)), y ∈ pc.1.set :=
  View.cover_of_tiled [⟨r1_o, p0⟩] S2000x128.size (by rfl) y

/-- Output window 5's staging buffer after the body, as a function of the input blocks: the hidden block times the second projection matrix. -/
def out1_5 (x0 : Vec F S2000x256 .f32) (x1 : Vec F S256x128 .f32) (x2 : Vec F S256x128 .f32) (x3 : Vec F S256x128 .f32) : Vec F S2000x128 .f32 :=
  View.canon [⟨r1_o, k1_pay3 (View.ld x0 r1_h) (View.ld x2 r1_w)⟩]

/-- The one store into it is of the whole buffer, so it covers every index. -/
theorem cover1_5 (p0 : Vec F S2000x128 .f32) (y : S2000x128.Idx) :
    ∃ pc ∈ ([⟨r1_o, p0⟩] : List (View.Piece (Elt F) S2000x128 .f32)), y ∈ pc.1.set :=
  View.cover_of_tiled [⟨r1_o, p0⟩] S2000x128.size (by rfl) y

/-- Output window 6's staging buffer after the body, as a function of the input blocks: the hidden block times the third projection matrix. -/
def out1_6 (x0 : Vec F S2000x256 .f32) (x1 : Vec F S256x128 .f32) (x2 : Vec F S256x128 .f32) (x3 : Vec F S256x128 .f32) : Vec F S2000x128 .f32 :=
  View.canon [⟨r1_o, k1_pay4 (View.ld x0 r1_h) (View.ld x3 r1_w)⟩]

/-- The one store into it is of the whole buffer, so it covers every index. -/
theorem cover1_6 (p0 : Vec F S2000x128 .f32) (y : S2000x128.Idx) :
    ∃ pc ∈ ([⟨r1_o, p0⟩] : List (View.Piece (Elt F) S2000x128 .f32)), y ∈ pc.1.set :=
  View.cover_of_tiled [⟨r1_o, p0⟩] S2000x128.size (by rfl) y

/-! ## The body, run once -/

set_option maxHeartbeats 1000000 in
/-- The body on whole staging buffers, the inputs' holding `x_w` and the outputs' anything, ends with the inputs'
    untouched and each output's at `out1_w` of the inputs. -/
theorem sound_kernel1 (c : Dev nD) (E : Set ℕ) (i : grid1.Coords) (arg0 : Memref sig .tc .vmem S2000x256 .f32) (harg0 : arg0.IsWhole) (arg1 : Memref sig .tc .vmem S256x128 .f32) (harg1 : arg1.IsWhole) (arg2 : Memref sig .tc .vmem S256x128 .f32) (harg2 : arg2.IsWhole) (arg3 : Memref sig .tc .vmem S256x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S2000x128 .f32) (harg6 : arg6.IsWhole)
    (x0 : Vec F S2000x256 .f32) (x1 : Vec F S256x128 .f32) (x2 : Vec F S256x128 .f32) (x3 : Vec F S256x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out1_4 x0 x1 x2 x3) ∗ owns (c : Thread nD τ) arg5 fullShare (out1_5 x0 x1 x2 x3) ∗ owns (c : Thread nD τ) arg6 fullShare (out1_6 x0 x1 x2 x3)) -∗ K ⟨⟩))
      ⊢ wp frame (wpE (defs₀ (F := F)) Variants.none c none) E (cc1__project_kernel i arg0 harg0 arg1 harg1 arg2 harg2 arg3 harg3 arg4 harg4 arg5 harg5 arg6 harg6) K := by
  simp only [cc1__project_kernel_eq_skeleton]; unfold cc1__project_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    try dsimp only
    exact View.read_writes_eq_canon _ _ _ (cover1_4 _)
  isplitl [H5]
  · iexists _; isplitr
    swap; · iexact H5
    ipureintro
    try dsimp only
    exact View.read_writes_eq_canon _ _ _ (cover1_5 _)
  iexists _; isplitr
  swap; · iexact H6
  ipureintro
  try dsimp only
  exact View.read_writes_eq_canon _ _ _ (cover1_6 _)

/-! ## The pipeline's proof data -/

/-- Region 1's proof data on core `c`: the arrays as the region finds them; after the body at point `t` each
    input's buffer at its block and each output's at `out1_w` of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
    | ⟨5, _⟩ => out1_5 (iblk1 V c 0 t) (iblk1 V c 1 t) (iblk1 V c 2 t) (iblk1 V c 3 t)
    | ⟨6, _⟩ => out1_6 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]
theorem after1_5 (c : Dev nD) (t : Fin cfg1.N) : (dat1 V c).after 5 t = out1_5 (iblk1 V c 0 t) (iblk1 V c 1 t) (iblk1 V c 2 t) (iblk1 V c 3 t) := by dsimp only [dat1]
theorem after1_6 (c : Dev nD) (t : Fin cfg1.N) : (dat1 V c).after 6 t = out1_6 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation1 (c : Dev nD) : BodyObligation (dat1 (F := F) V c) (defs₀ (F := F)) Variants.none () Set.univ := fun t => by
  rw [bigSep_W1, bigSep_W1]
  exact sound_body1 V c t

end Cert.KernelIdeal.Frm

end
-- ==== Proof.KernelIdealRegion2.lean ====
/-
  Region 2 of the program (the pallas_call of `cc2__combine_kernel`), at any float instance and at any contents `V` of
  the TensorCore's buffers when the region is entered.

  The grid has 50 points; point `t` sees rows 2000·t … 2000·t+1999 of every row-tiled operand and the whole of
  every weight or bias operand. The body reads each input block whole, computes, and overwrites each output block
  whole, so after the body at point `t` an input's staging buffer still holds its block and an output's holds one
  fixed function (`out2_w`) of the input blocks. This file states that function, runs the body once against it,
  and packages the result as the pipeline's proof data and body obligation.
-/
import proofs.«149725_j35570919145822_2_alg».proof.Proof.Gen.KernelIdeal.Launch
import proofs.«149725_j35570919145822_2_alg».proof.Proof.Gen.KernelIdeal.Skeleton
import proofs.«149725_j35570919145822_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, cut out of the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, whether or not a fetch happened there: the
    body never writes it, and where no fetch happens the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's staging buffer holds its block at every point, whether or not a fetch happened there: the
    body never writes it, and where no fetch happens the block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's staging buffer holds its block at every point, whether or not a fetch happened there: the
    body never writes it, and where no fetch happens the block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's staging buffer holds its block at every point, whether or not a fetch happened there: the
    body never writes it, and where no fetch happens the block index has not moved. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's staging buffer holds its block at every point, whether or not a fetch happened there: the
    body never writes it, and where no fetch happens the block index has not moved. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's staging buffer holds its block at every point, whether or not a fetch happened there: the
    body never writes it, and where no fetch happens the block index has not moved. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's staging buffer holds its block at every point, whether or not a fetch happened there: the
    body never writes it, and where no fetch happens the block index has not moved. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes: every one is a whole staging buffer -/

abbrev r2_a : Rect S2000x128 := Rect.unit (s := S2000x128) ![0, 0] S2000x128.size inb_S2000x128_S2000x128_0_0
abbrev r2_c : Rect S2000x3 := Rect.unit (s := S2000x3) ![0, 0] S2000x3.size inb_S2000x3_S2000x3_0_0
abbrev r2_b : Rect S128 := Rect.unit (s := S128) ![0] S128.size inb_S128_S128_0

/-! ## What the body leaves in each output buffer -/

/-- Output window 7's staging buffer after the body, as a function of the input blocks: the three row-scaled aggregates summed, plus the three biases. -/
def out2_7 (x0 : Vec F S2000x128 .f32) (x1 : Vec F S2000x128 .f32) (x2 : Vec F S2000x128 .f32) (x3 : Vec F S2000x3 .f32) (x4 : Vec F S128 .f32) (x5 : Vec F S128 .f32) (x6 : Vec F S128 .f32) : Vec F S2000x128 .f32 :=
  View.canon [⟨r2_a, k2_pay1 (View.ld x3 r2_c) (View.ld x0 r2_a) (View.ld x1 r2_a) (View.ld x2 r2_a) (View.ld x4 r2_b) (View.ld x5 r2_b) (View.ld x6 r2_b)⟩]

/-- The one store into it is of the whole buffer, so it covers every index. -/
theorem cover2_7 (p0 : Vec F S2000x128 .f32) (y : S2000x128.Idx) :
    ∃ pc ∈ ([⟨r2_a, p0⟩] : List (View.Piece (Elt F) S2000x128 .f32)), y ∈ pc.1.set :=
  View.cover_of_tiled [⟨r2_a, p0⟩] S2000x128.size (by rfl) y

/-! ## The body, run once -/

set_option maxHeartbeats 1000000 in
/-- The body on whole staging buffers, the inputs' holding `x_w` and the outputs' anything, ends with the inputs'
    untouched and each output's at `out2_w` of the inputs. -/
theorem sound_kernel2 (c : Dev nD) (E : Set ℕ) (i : grid2.Coords) (arg0 : Memref sig .tc .vmem S2000x128 .f32) (harg0 : arg0.IsWhole) (arg1 : Memref sig .tc .vmem S2000x128 .f32) (harg1 : arg1.IsWhole) (arg2 : Memref sig .tc .vmem S2000x128 .f32) (harg2 : arg2.IsWhole) (arg3 : Memref sig .tc .vmem S2000x3 .f32) (harg3 : arg3.IsWhole) (arg4 : Memref sig .tc .vmem S128 .f32) (harg4 : arg4.IsWhole) (arg5 : Memref sig .tc .vmem S128 .f32) (harg5 : arg5.IsWhole) (arg6 : Memref sig .tc .vmem S128 .f32) (harg6 : arg6.IsWhole) (arg7 : Memref sig .tc .vmem S2000x128 .f32) (harg7 : arg7.IsWhole)
    (x0 : Vec F S2000x128 .f32) (x1 : Vec F S2000x128 .f32) (x2 : Vec F S2000x128 .f32) (x3 : Vec F S2000x3 .f32) (x4 : Vec F S128 .f32) (x5 : Vec F S128 .f32) (x6 : Vec F S128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out2_7 x0 x1 x2 x3 x4 x5 x6)) -∗ K ⟨⟩))
      ⊢ wp frame (wpE (defs₀ (F := F)) Variants.none c none) E (cc2__combine_kernel i arg0 harg0 arg1 harg1 arg2 harg2 arg3 harg3 arg4 harg4 arg5 harg5 arg6 harg6 arg7 harg7) K := by
  simp only [cc2__combine_kernel_eq_skeleton]; unfold cc2__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover2_7 _)

/-! ## The pipeline's proof data -/

/-- Region 2's proof data on core `c`: the arrays as the region finds them; after the body at point `t` each
    input's buffer at its block and each output's at `out2_w` of the input blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation2 (c : Dev nD) : BodyObligation (dat2 (F := F) V c) (defs₀ (F := F)) Variants.none () Set.univ := fun t => by
  rw [bigSep_W2, bigSep_W2]
  exact sound_body2 V c t

end Cert.KernelIdeal.Frm

end
-- ==== Proof.KernelIdealRun.lean ====
/-
  The whole run of the program at any float instance: thirteen stretches of host operations, the first
  pallas_call, the second, one more stretch of host operations, the third.

  Between two items every unscoped buffer of a core is held at known contents: the launch memory, then each host
  stretch applied to it, then — after a region — the region's arrays replaced by what its fifty write-backs leave
  (`X14`, `X15`, `X17`). The theorem `run_all` says every weakly fair execution terminates with every unscoped
  buffer at the last of these contents; the frame statement (the nineteen arguments end as launched) and the
  value of the result array are both read off it.
-/
import proofs.«149725_j35570919145822_2_alg».proof.Proof.KernelIdealRegion0
import proofs.«149725_j35570919145822_2_alg».proof.Proof.KernelIdealRegion1
import proofs.«149725_j35570919145822_2_alg».proof.Proof.KernelIdealRegion2
import proofs.«149725_j35570919145822_2_alg».proof.Proof.Gen.KernelIdeal.Regions

set_option maxRecDepth 16384

noncomputable section

namespace Cert.KernelIdeal.Frm

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at the boundaries -/

/-- Before region 0: the launch memory after the thirteen leading host stretches. -/
abbrev X13 : Dev nD → Valuation τ sig (Elt F) := fun c => V13 m c
abbrev Y13 : (c : Dev nD) → (b : Ref sig .tc) → Buf (Elt F) ((c : Thread nD τ).loc b) := fun c b => X13 m c b

/-- After region 0: its arrays at what the pipeline's write-backs leave, every other buffer as entered. -/
def X14 (c : Dev nD) : Valuation τ sig (Elt F) :=
  Pipeline.withArrays spec0 c (X13 m c) fun w => (dat0 (Y13 m) c).arrAt w cfg0.N
theorem X14_arr (c : Dev nD) (w : Fin cfg0.W) :
    X14 m c (Proc.devRef .tc (Pipeline.arrRef spec0 w)) = (dat0 (Y13 m) c).arrAt w cfg0.N := by
  unfold X14; exact Pipeline.withArrays_arr spec0 launch0.win.arr_inj c _ _ w
theorem X14_of_ne (c : Dev nD) (b : Ref sig .tc) (hb : ∀ w, Pipeline.arrRef spec0 w ≠ b) :
    X14 m c (Proc.devRef .tc b) = X13 m c (Proc.devRef .tc b) := by
  unfold X14; exact Pipeline.withArrays_of_ne spec0 c _ _ b hb
abbrev Y14 : (c : Dev nD) → (b : Ref sig .tc) → Buf (Elt F) ((c : Thread nD τ).loc b) := fun c b => X14 m c b
theorem hF0 (c : Dev nD) (w : Fin cfg0.W) : (dat0 (Y13 m) c).arrAt w cfg0.N = Y14 m c (Pipeline.arrRef spec0 w) :=
  (X14_arr m c w).symm
theorem hrest0 (c : Dev nD) : ∀ b, b ∉ Finset.univ.image (Pipeline.arrRef spec0) → Y14 m c b = Y13 m c b :=
  fun b hb => X14_of_ne m c b fun w e => hb (Finset.mem_image.mpr ⟨w, Finset.mem_univ _, e⟩)
/-- A buffer that is no array of region 0, or the array of one of its input windows, leaves the region as it entered. -/
theorem X14_keep (c : Dev nD) (r : Ref sig .tc)
    (h : (∀ w, Pipeline.arrRef spec0 w ≠ r) ∨ ∃ w, (cfg0.win w).isOut = false ∧ Pipeline.arrRef spec0 w = r) :
    X14 m c (Proc.devRef .tc r) = X13 m c (Proc.devRef .tc r) := by
  rcases h with h | ⟨w, hw, e⟩
  · exact X14_of_ne m c r h
  · subst e
    exact (X14_arr m c w).trans (((dat0 (Y13 m) c).arrAt_in w hw _).trans (A_eq0 (Y13 m) c w))

/-- After region 1: its arrays at what the pipeline's write-backs leave, every other buffer as entered. -/
def X15 (c : Dev nD) : Valuation τ sig (Elt F) :=
  Pipeline.withArrays spec1 c (X14 m c) fun w => (dat1 (Y14 m) c).arrAt w cfg1.N
theorem X15_arr (c : Dev nD) (w : Fin cfg1.W) :
    X15 m c (Proc.devRef .tc (Pipeline.arrRef spec1 w)) = (dat1 (Y14 m) c).arrAt w cfg1.N := by
  unfold X15; exact Pipeline.withArrays_arr spec1 launch1.win.arr_inj c _ _ w
theorem X15_of_ne (c : Dev nD) (b : Ref sig .tc) (hb : ∀ w, Pipeline.arrRef spec1 w ≠ b) :
    X15 m c (Proc.devRef .tc b) = X14 m c (Proc.devRef .tc b) := by
  unfold X15; exact Pipeline.withArrays_of_ne spec1 c _ _ b hb
abbrev Y15 : (c : Dev nD) → (b : Ref sig .tc) → Buf (Elt F) ((c : Thread nD τ).loc b) := fun c b => X15 m c b
theorem hF1 (c : Dev nD) (w : Fin cfg1.W) : (dat1 (Y14 m) c).arrAt w cfg1.N = Y15 m c (Pipeline.arrRef spec1 w) :=
  (X15_arr m c w).symm
theorem hrest1 (c : Dev nD) : ∀ b, b ∉ Finset.univ.image (Pipeline.arrRef spec1) → Y15 m c b = Y14 m c b :=
  fun b hb => X15_of_ne m c b fun w e => hb (Finset.mem_image.mpr ⟨w, Finset.mem_univ _, e⟩)
/-- A buffer that is no array of region 1, or the array of one of its input windows, leaves the region as it entered. -/
theorem X15_keep (c : Dev nD) (r : Ref sig .tc)
    (h : (∀ w, Pipeline.arrRef spec1 w ≠ r) ∨ ∃ w, (cfg1.win w).isOut = false ∧ Pipeline.arrRef spec1 w = r) :
    X15 m c (Proc.devRef .tc r) = X14 m c (Proc.devRef .tc r) := by
  rcases h with h | ⟨w, hw, e⟩
  · exact X15_of_ne m c r h
  · subst e
    exact (X15_arr m c w).trans (((dat1 (Y14 m) c).arrAt_in w hw _).trans (A_eq1 (Y14 m) c w))

/-- Before region 2: the host stretch between the second and third pallas_call applied. -/
abbrev X16 : Dev nD → Valuation τ sig (Elt F) := fun c => StableHlo.after hostOps2 (X15 m c)
abbrev Y16 : (c : Dev nD) → (b : Ref sig .tc) → Buf (Elt F) ((c : Thread nD τ).loc b) := fun c b => X16 m c b

/-- After region 2: its arrays at what the pipeline's write-backs leave, every other buffer as entered. -/
def X17 (c : Dev nD) : Valuation τ sig (Elt F) :=
  Pipeline.withArrays spec2 c (X16 m c) fun w => (dat2 (Y16 m) c).arrAt w cfg2.N
theorem X17_arr (c : Dev nD) (w : Fin cfg2.W) :
    X17 m c (Proc.devRef .tc (Pipeline.arrRef spec2 w)) = (dat2 (Y16 m) c).arrAt w cfg2.N := by
  unfold X17; exact Pipeline.withArrays_arr spec2 launch2.win.arr_inj c _ _ w
theorem X17_of_ne (c : Dev nD) (b : Ref sig .tc) (hb : ∀ w, Pipeline.arrRef spec2 w ≠ b) :
    X17 m c (Proc.devRef .tc b) = X16 m c (Proc.devRef .tc b) := by
  unfold X17; exact Pipeline.withArrays_of_ne spec2 c _ _ b hb
abbrev Y17 : (c : Dev nD) → (b : Ref sig .tc) → Buf (Elt F) ((c : Thread nD τ).loc b) := fun c b => X17 m c b
theorem hF2 (c : Dev nD) (w : Fin cfg2.W) : (dat2 (Y16 m) c).arrAt w cfg2.N = Y17 m c (Pipeline.arrRef spec2 w) :=
  (X17_arr m c w).symm
theorem hrest2 (c : Dev nD) : ∀ b, b ∉ Finset.univ.image (Pipeline.arrRef spec2) → Y17 m c b = Y16 m c b :=
  fun b hb => X17_of_ne m c b fun w e => hb (Finset.mem_image.mpr ⟨w, Finset.mem_univ _, e⟩)
/-- A buffer that is no array of region 2, or the array of one of its input windows, leaves the region as it entered. -/
theorem X17_keep (c : Dev nD) (r : Ref sig .tc)
    (h : (∀ w, Pipeline.arrRef spec2 w ≠ r) ∨ ∃ w, (cfg2.win w).isOut = false ∧ Pipeline.arrRef spec2 w = r) :
    X17 m c (Proc.devRef .tc r) = X16 m c (Proc.devRef .tc r) := by
  rcases h with h | ⟨w, hw, e⟩
  · exact X17_of_ne m c r h
  · subst e
    exact (X17_arr m c w).trans (((dat2 (Y16 m) c).arrAt_in w hw _).trans (A_eq2 (Y16 m) c w))

/-- A buffer none of the thirteen leading host stretches writes is, before region 0, as launched. -/
theorem X13_keep (c : Dev nD) (r : Ref sig .tc)
    (h0 : r ∉ hostOps0_W) (h1 : r ∉ hostOps0_1_W) (h2 : r ∉ hostOps0_2_W) (h3 : r ∉ hostOps0_3_W) (h4 : r ∉ hostOps0_4_W) (h5 : r ∉ hostOps0_5_W) (h6 : r ∉ hostOps0_6_W) (h7 : r ∉ hostOps0_7_W) (h8 : r ∉ hostOps0_8_W) (h9 : r ∉ hostOps0_9_W) (h10 : r ∉ hostOps0_10_W) (h11 : r ∉ hostOps0_11_W) (h12 : r ∉ hostOps0_12_W) :
    X13 m c r = m ((c : Thread nD τ).loc r) :=
  (V13_of m c r h12).trans <| (V12_of m c r h11).trans <| (V11_of m c r h10).trans <| (V10_of m c r h9).trans <| (V9_of m c r h8).trans <| (V8_of m c r h7).trans <| (V7_of m c r h6).trans <| (V6_of m c r h5).trans <| (V5_of m c r h4).trans <| (V4_of m c r h3).trans <| (V3_of m c r h2).trans <| (V2_of m c r h1).trans <| (V1_of m c r h0)

/-- A buffer the host stretch between the last two regions does not write passes it unchanged. -/
theorem X16_keep (c : Dev nD) (r : Ref sig .tc) (h : r ∉ hostOps2_W) : X16 m c r = X15 m c r :=
  StableHlo.after_of_writes_sub hostOps2 _ hostOps2_writes h

/-! ## The proof data family and the thread state -/

/-- Each pipeline's proof data, at its region's entry contents. -/
def pdats : (p : Fin 3) → (c : Dev nD) → Dat τ (Elt F) Unit ℕ (UR sig nD τ) ℕ (Pipeline.pin (pcfgs (F := F)) adm p) c
  | ⟨0, _⟩ => fun c => dat0 (Y13 m) c
  | ⟨1, _⟩ => fun c => dat1 (Y14 m) c
  | ⟨2, _⟩ => fun c => dat2 (Y16 m) c
abbrev 𝒱₀ : Variants := Variants.none
abbrev L : GSem nD τ sig → Finset Unit := fun _ => ∅
abbrev lv : GSem nD τ sig → Unit → ℕ := fun _ _ => 0
/-- What rides beside the buffers through every segment: the core's generator register at some state and its
    debts, none. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the final contents, the generator register. -/
abbrev Tₙ (c : Dev nD) : sProp 𝕄 := iprop(StableHlo.held (c : Thread nD τ) (Pipeline.ucRefs τ sig) (X17 m c) ∗ ∃ r, prngReg c r)

/-! ## The regions as segments -/

set_option backward.isDefEq.respectTransparency.types false in
/-- Region 0 as a segment: entered with every unscoped buffer at the contents before it, left with the region's
    arrays at what its write-backs leave and every other buffer as entered. Nothing is owed, no table is read, the
    kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Y13 m) c).loose
  hwaits := Pipeline.hwaits_of_owed_zero _ _ _ _ L lv 0 fun _ _ => rfl
  pre c := iprop(StableHlo.held (c : Thread nD τ) (Pipeline.ucRefs τ sig) (X13 m c) ∗ R c)
  post c := iprop(StableHlo.held (c : Thread nD τ) (Pipeline.ucRefs τ sig) (X14 m c) ∗ R c)
  X c := iprop(∃ r, prngReg c r)
  Y c := iprop(∃ r, prngReg c r)
  Z c := Pipeline.unscopedRest (Ix := Unit) (Name := ℕ) (U := UR sig nD τ) (Lvl := ℕ) spec0 c (Y13 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Y13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Y13 m c) (Y14 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at the contents before it, left with the region's
    arrays at what its write-backs leave and every other buffer as entered. Nothing is owed, no table is read, the
    kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Y14 m) c).loose
  hwaits := Pipeline.hwaits_of_owed_zero _ _ _ _ L lv 1 fun _ _ => rfl
  pre c := iprop(StableHlo.held (c : Thread nD τ) (Pipeline.ucRefs τ sig) (X14 m c) ∗ R c)
  post c := iprop(StableHlo.held (c : Thread nD τ) (Pipeline.ucRefs τ sig) (X15 m c) ∗ R c)
  X c := iprop(∃ r, prngReg c r)
  Y c := iprop(∃ r, prngReg c r)
  Z c := Pipeline.unscopedRest (Ix := Unit) (Name := ℕ) (U := UR sig nD τ) (Lvl := ℕ) spec1 c (Y14 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Y14 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Y14 m c) (Y15 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at the contents before it, left with the region's
    arrays at what its write-backs leave and every other buffer as entered. Nothing is owed, no table is read, the
    kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Y16 m) c).loose
  hwaits := Pipeline.hwaits_of_owed_zero _ _ _ _ L lv 2 fun _ _ => rfl
  pre c := iprop(StableHlo.held (c : Thread nD τ) (Pipeline.ucRefs τ sig) (X16 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (Y16 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Y16 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Y16 m c) (Y17 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and its run -/

abbrev segs : List (Pipeline.Seg (pcfgs (F := F)) adm (pdats m) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .host (hseg hostOps0_3 hostOps0_3_sub hostOps0_3_fresh (V3 m)),
    .host (hseg hostOps0_4 hostOps0_4_sub hostOps0_4_fresh (V4 m)),
    .host (hseg hostOps0_5 hostOps0_5_sub hostOps0_5_fresh (V5 m)),
    .host (hseg hostOps0_6 hostOps0_6_sub hostOps0_6_fresh (V6 m)),
    .host (hseg hostOps0_7 hostOps0_7_sub hostOps0_7_fresh (V7 m)),
    .host (hseg hostOps0_8 hostOps0_8_sub hostOps0_8_fresh (V8 m)),
    .host (hseg hostOps0_9 hostOps0_9_sub hostOps0_9_fresh (V9 m)),
    .host (hseg hostOps0_10 hostOps0_10_sub hostOps0_10_fresh (V10 m)),
    .host (hseg hostOps0_11 hostOps0_11_sub hostOps0_11_fresh (V11 m)),
    .host (hseg hostOps0_12 hostOps0_12_sub hostOps0_12_fresh (V12 m)),
    .region (reg0 m),
    .region (reg1 m),
    .host (hseg hostOps2 hostOps2_sub hostOps2_fresh (X15 m)),
    .region (reg2 m) ]

set_option backward.isDefEq.respectTransparency.types false in
/-- Every weakly fair execution of the program from memory `m` with zero counters terminates, nothing faulting, and
    ends with every unscoped buffer of every core at the final contents `X17`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = X17 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          Prog.lift (.customCall (Pipeline.entry 0) ()),
          Prog.lift (.customCall (Pipeline.entry 1) ()),
          StableHlo.seq hostOps2,
          Prog.lift (.customCall (Pipeline.entry 2) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X17 m c b)
    (hfin := fun c s' => by
      iintro ⟨⟨Hh, -⟩, HSI⟩
      unfold StableHlo.held
      imodintro
      iapply (pointsTo_read_all (Pipeline.ucRefs τ sig) (fun b => (((c : Thread nD τ)).1, b)) (X17 m c) s')
      isplitl [Hh] <;> iassumption)
    (hQ := fun s h => h)

end Cert.KernelIdeal.Frm

end
-- ==== Proof.KernelIdealFrame.lean ====
/-
  The program's frame, at any float instance: every weakly fair execution terminates, nothing faulting, and each of
  the nineteen argument arrays ends as launched. No host operation writes an argument, and a region only ever
  stages one through an input window, which is never written back; so the final contents of an argument's buffer
  walk back, boundary by boundary, to the launch memory.
-/
import proofs.«149725_j35570919145822_2_alg».proof.Proof.KernelIdealRun

set_option maxRecDepth 16384

noncomputable section

namespace Cert.KernelIdeal.Frm

open Cert.KernelIdeal.Gen
open Idealize.ShloMosaic Idealize.ShloMosaic.TcCoe
open Idealize.SL Idealize.SL.Sem

variable {F : FTy → Type} [FloatOps F]
variable (m : (ℓ : Loc nD τ sig) → Buf (Elt F) ℓ)

/-- A buffer that no host stretch writes, and that each region either does not touch or only reads through an input
    window, ends as launched. -/
theorem X17_launch (c : Dev nD) (r : Ref sig .tc)
    (h0 : (∀ w, Pipeline.arrRef spec0 w ≠ r) ∨ ∃ w, (cfg0.win w).isOut = false ∧ Pipeline.arrRef spec0 w = r)
    (h1 : (∀ w, Pipeline.arrRef spec1 w ≠ r) ∨ ∃ w, (cfg1.win w).isOut = false ∧ Pipeline.arrRef spec1 w = r)
    (h2 : (∀ w, Pipeline.arrRef spec2 w ≠ r) ∨ ∃ w, (cfg2.win w).isOut = false ∧ Pipeline.arrRef spec2 w = r)
    (hh : r ∉ hostOps2_W)
    (k0 : r ∉ hostOps0_W) (k1 : r ∉ hostOps0_1_W) (k2 : r ∉ hostOps0_2_W) (k3 : r ∉ hostOps0_3_W) (k4 : r ∉ hostOps0_4_W) (k5 : r ∉ hostOps0_5_W) (k6 : r ∉ hostOps0_6_W) (k7 : r ∉ hostOps0_7_W) (k8 : r ∉ hostOps0_8_W) (k9 : r ∉ hostOps0_9_W) (k10 : r ∉ hostOps0_10_W) (k11 : r ∉ hostOps0_11_W) (k12 : r ∉ hostOps0_12_W) :
    X17 m c (Proc.devRef .tc r) = m ((c : Thread nD τ).loc r) :=
  (X17_keep m c r h2).trans <| (X16_keep m c r hh).trans <| (X15_keep m c r h1).trans <| (X14_keep m c r h0).trans <|
    X13_keep m c r k0 k1 k2 k3 k4 k5 k6 k7 k8 k9 k10 k11 k12

theorem X17_main_arg0 (c : Dev nD) : X17 m c (Proc.devRef .tc main_arg0) = m ((c : Thread nD τ).loc main_arg0) :=
  X17_launch m c main_arg0 (.inl (by decide)) (.inl (by decide)) (.inl (by decide)) (by decide)
    (by decide) (by decide) (by decide) (by decide) (by decide) (by decide) (by decide) (by decide) (by decide) (by decide) (by decide) (by decide) (by decide)
theorem X17_main_arg1 (c : Dev nD) : X17 m c (Proc.devRef .tc main_arg1) = m ((c : Thread nD τ).loc main_arg1) :=
  X17_launch m c main_arg1 (.inl (by decide)) (.inl (by decide)) (.inl (by decide)) (by decide)
    (by decide) (by decide) (by decide) (by decide) (by decide) (by decide) (by decide) (by decide) (by decide) (by decide) (by decide) (by decide) (by decide)
theorem X17_main_arg2 (c : Dev nD) : X17 m c (Proc.devRef .tc main_arg2) = m ((c : Thread nD τ).loc main_arg2) :=
  X17_launch m c main_arg2 (.inl (by decide)) (.inl (by decide)) (.inl (by decide)) (by decide)
    (by decide) (by decide) (by decide) (by decide) (by decide) (by decide) (by decide) (by decide) (by decide) (by decide) (by decide) (by decide) (by decide)
theorem X17_main_arg3 (c : Dev nD) : X17 m c (Proc.devRef .tc main_arg3) = m ((c : Thread nD τ).loc main_arg3) :=
  X17_launch m c main_arg3 (.inl (by decide)) (.inl (by decide)) (.inl (by decide)) (by decide)
    (by decide) (by decide) (by decide) (by decide) (by decide) (by decide) (by decide) (by decide) (by decide) (by decide) (by decide) (by decide) (by decide)
theorem X17_main_arg4 (c : Dev nD) : X17 m c (Proc.devRef .tc main_arg4) = m ((c : Thread nD τ).loc main_arg4) :=
  X17_launch m c main_arg4 (.inl (by decide)) (.inl (by decide)) (.inl (by decide)) (by decide)
    (by decide) (by decide) (by decide) (by decide) (by decide) (by decide) (by decide) (by decide) (by decide) (by decide) (by decide) (by decide) (by decide)
theorem X17_main_arg5 (c : Dev nD) : X17 m c (Proc.devRef .tc main_arg5) = m ((c : Thread nD τ).loc main_arg5) :=
  X17_launch m c main_arg5 (.inl (by decide)) (.inl (by decide)) (.inl (by decide)) (by decide)
    (by decide) (by decide) (by decide) (by decide) (by decide) (by decide) (by decide) (by decide) (by decide) (by decide) (by decide) (by decide) (by decide)
theorem X17_main_arg6 (c : Dev nD) : X17 m c (Proc.devRef .tc main_arg6) = m ((c : Thread nD τ).loc main_arg6) :=
  X17_launch m c main_arg6 (.inl (by decide)) (.inl (by decide)) (.inl (by decide)) (by decide)
    (by decide) (by decide) (by decide) (by decide) (by decide) (by decide) (by decide) (by decide) (by decide) (by decide) (by decide) (by decide) (by decide)
theorem X17_main_arg7 (c : Dev nD) : X17 m c (Proc.devRef .tc main_arg7) = m ((c : Thread nD τ).loc main_arg7) :=
  X17_launch m c main_arg7 (.inr ⟨4, rfl, rfl⟩) (.inl (by decide)) (.inl (by decide)) (by decide)
    (by decide) (by decide) (by decide) (by decide) (by decide) (by decide) (by decide) (by decide) (by decide) (by decide) (by decide) (by decide) (by decide)
theorem X17_main_arg8 (c : Dev nD) : X17 m c (Proc.devRef .tc main_arg8) = m ((c : Thread nD τ).loc main_arg8) :=
  X17_launch m c main_arg8 (.inr ⟨7, rfl, rfl⟩) (.inl (by decide)) (.inl (by decide)) (by decide)
    (by decide) (by decide) (by decide) (by decide) (by decide) (by decide) (by decide) (by decide) (by decide) (by decide) (by decide) (by decide) (by decide)
theorem X17_main_arg9 (c : Dev nD) : X17 m c (Proc.devRef .tc main_arg9) = m ((c : Thread nD τ).loc main_arg9) :=
  X17_launch m c main_arg9 (.inr ⟨5, rfl, rfl⟩) (.inl (by decide)) (.inl (by decide)) (by decide)
    (by decide) (by decide) (by decide) (by decide) (by decide) (by decide) (by decide) (by decide) (by decide) (by decide) (by decide) (by decide) (by decide)
theorem X17_main_arg10 (c : Dev nD) : X17 m c (Proc.devRef .tc main_arg10) = m ((c : Thread nD τ).loc main_arg10) :=
  X17_launch m c main_arg10 (.inr ⟨8, rfl, rfl⟩) (.inl (by decide)) (.inl (by decide)) (by decide)
    (by decide) (by decide) (by decide) (by decide) (by decide) (by decide) (by decide) (by decide) (by decide) (by decide) (by decide) (by decide) (by decide)
theorem X17_main_arg11 (c : Dev nD) : X17 m c (Proc.devRef .tc main_arg11) = m ((c : Thread nD τ).loc main_arg11) :=
  X17_launch m c main_arg11 (.inr ⟨6, rfl, rfl⟩) (.inl (by decide)) (.inl (by decide)) (by decide)
    (by decide) (by decide) (by decide) (by decide) (by decide) (by decide) (by decide) (by decide) (by decide) (by decide) (by decide) (by decide) (by decide)
theorem X17_main_arg12 (c : Dev nD) : X17 m c (Proc.devRef .tc main_arg12) = m ((c : Thread nD τ).loc main_arg12) :=
  X17_launch m c main_arg12 (.inr ⟨9, rfl, rfl⟩) (.inl (by decide)) (.inl (by decide)) (by decide)
    (by decide) (by decide) (by decide) (by decide) (by decide) (by decide) (by decide) (by decide) (by decide) (by decide) (by decide) (by decide) (by decide)
theorem X17_main_arg13 (c : Dev nD) : X17 m c (Proc.devRef .tc main_arg13) = m ((c : Thread nD τ).loc main_arg13) :=
  X17_launch m c main_arg13 (.inl (by decide)) (.inr ⟨1, rfl, rfl⟩) (.inl (by decide)) (by decide)
    (by decide) (by decide) (by decide) (by decide) (by decide) (by decide) (by decide) (by decide) (by decide) (by decide) (by decide) (by decide) (by decide)
theorem X17_main_arg14 (c : Dev nD) : X17 m c (Proc.devRef .tc main_arg14) = m ((c : Thread nD τ).loc main_arg14) :=
  X17_launch m c main_arg14 (.inl (by decide)) (.inl (by decide)) (.inr ⟨4, rfl, rfl⟩) (by decide)
    (by decide) (by decide) (by decide) (by decide) (by decide) (by decide) (by decide) (by decide) (by decide) (by decide) (by decide) (by decide) (by decide)
theorem X17_main_arg15 (c : Dev nD) : X17 m c (Proc.devRef .tc main_arg15) = m ((c : Thread nD τ).loc main_arg15) :=
  X17_launch m c main_arg15 (.inl (by decide)) (.inr ⟨2, rfl, rfl⟩) (.inl (by decide)) (by decide)
    (by decide) (by decide) (by decide) (by decide) (by decide) (by decide) (by decide) (by decide) (by decide) (by decide) (by decide) (by decide) (by decide)
theorem X17_main_arg16 (c : Dev nD) : X17 m c (Proc.devRef .tc main_arg16) = m ((c : Thread nD τ).loc main_arg16) :=
  X17_launch m c main_arg16 (.inl (by decide)) (.inl (by decide)) (.inr ⟨5, rfl, rfl⟩) (by decide)
    (by decide) (by decide) (by decide) (by decide) (by decide) (by decide) (by decide) (by decide) (by decide) (by decide) (by decide) (by decide) (by decide)
theorem X17_main_arg17 (c : Dev nD) : X17 m c (Proc.devRef .tc main_arg17) = m ((c : Thread nD τ).loc main_arg17) :=
  X17_launch m c main_arg17 (.inl (by decide)) (.inr ⟨3, rfl, rfl⟩) (.inl (by decide)) (by decide)
    (by decide) (by decide) (by decide) (by decide) (by decide) (by decide) (by decide) (by decide) (by decide) (by decide) (by decide) (by decide) (by decide)
theorem X17_main_arg18 (c : Dev nD) : X17 m c (Proc.devRef .tc main_arg18) = m ((c : Thread nD τ).loc main_arg18) :=
  X17_launch m c main_arg18 (.inl (by decide)) (.inl (by decide)) (.inr ⟨6, rfl, rfl⟩) (by decide)
    (by decide) (by decide) (by decide) (by decide) (by decide) (by decide) (by decide) (by decide) (by decide) (by decide) (by decide) (by decide) (by decide)

/-- The frame statement. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c =>
    ⟨(h c _ (mem_uc main_arg0 (by decide))).trans (X17_main_arg0 m c),
      (h c _ (mem_uc main_arg1 (by decide))).trans (X17_main_arg1 m c),
      (h c _ (mem_uc main_arg2 (by decide))).trans (X17_main_arg2 m c),
      (h c _ (mem_uc main_arg3 (by decide))).trans (X17_main_arg3 m c),
      (h c _ (mem_uc main_arg4 (by decide))).trans (X17_main_arg4 m c),
      (h c _ (mem_uc main_arg5 (by decide))).trans (X17_main_arg5 m c),
      (h c _ (mem_uc main_arg6 (by decide))).trans (X17_main_arg6 m c),
      (h c _ (mem_uc main_arg7 (by decide))).trans (X17_main_arg7 m c),
      (h c _ (mem_uc main_arg8 (by decide))).trans (X17_main_arg8 m c),
      (h c _ (mem_uc main_arg9 (by decide))).trans (X17_main_arg9 m c),
      (h c _ (mem_uc main_arg10 (by decide))).trans (X17_main_arg10 m c),
      (h c _ (mem_uc main_arg11 (by decide))).trans (X17_main_arg11 m c),
      (h c _ (mem_uc main_arg12 (by decide))).trans (X17_main_arg12 m c),
      (h c _ (mem_uc main_arg13 (by decide))).trans (X17_main_arg13 m c),
      (h c _ (mem_uc main_arg14 (by decide))).trans (X17_main_arg14 m c),
      (h c _ (mem_uc main_arg15 (by decide))).trans (X17_main_arg15 m c),
      (h c _ (mem_uc main_arg16 (by decide))).trans (X17_main_arg16 m c),
      (h c _ (mem_uc main_arg17 (by decide))).trans (X17_main_arg17 m c),
      (h c _ (mem_uc main_arg18 (by decide))).trans (X17_main_arg18 m c)⟩)
    (run_all m ρ)

end Cert.KernelIdeal.Frm

end
-- ==== Proof.LayerSpec.lean ====
/-
  The three dense stages as whole-array functions on extended reals, element by element.

  * `layer1`: node `n`, hidden unit `j`: max(Σ_r Σ_k (agg_r[n,k] · cd[n,r]) · W_r[k,j] + (b_0[j] + b_1[j] + b_2[j]), 0),
    the sums over the relations associated to the left.
  * `project`: node `n`, output unit `j`: Σ_k h[n,k] · W[k,j].
  * `combine`: node `n`, output unit `j`: Σ_r agg_r[n,j] · cd[n,r] + (b_0[j] + b_1[j] + b_2[j]).
-/
import Idealize.ShloMosaic.PureOps.Ideal
import Idealize.ShloMosaic.Lib.ValueIdx

noncomputable section

open scoped BigOperators

namespace Cert.Spec

open Idealize.ShloMosaic Idealize.ShloMosaic.ValueIdx

abbrev SN128 : Shape := ⟨2, ![100000, 128]⟩
abbrev SN256 : Shape := ⟨2, ![100000, 256]⟩
abbrev SN3 : Shape := ⟨2, ![100000, 3]⟩
abbrev SW1 : Shape := ⟨2, ![128, 256]⟩
abbrev SW2 : Shape := ⟨2, ![256, 128]⟩
abbrev SB1 : Shape := ⟨1, ![256]⟩
abbrev SB2 : Shape := ⟨1, ![128]⟩

/-- The first dense stage. -/
def layer1 (a0 a1 a2 : SN128.Idx → EReal) (cd : SN3.Idx → EReal) (w0 w1 w2 : SW1.Idx → EReal) (b0 b1 b2 : SB1.Idx → EReal) :
    SN256.Idx → EReal := fun i =>
  max ((((∑ k : Fin 128, (a0 (ix2 (i 0) k) * cd (ix2 (i 0) (0 : Fin 3))) * w0 (ix2 k (i 1)))
        + ∑ k : Fin 128, (a1 (ix2 (i 0) k) * cd (ix2 (i 0) (1 : Fin 3))) * w1 (ix2 k (i 1)))
      + ∑ k : Fin 128, (a2 (ix2 (i 0) k) * cd (ix2 (i 0) (2 : Fin 3))) * w2 (ix2 k (i 1)))
    + ((b0 (ix1 (i 1)) + b1 (ix1 (i 1))) + b2 (ix1 (i 1)))) 0

/-- The projection of the hidden features through one weight matrix. -/
def project (h : SN256.Idx → EReal) (w : SW2.Idx → EReal) : SN128.Idx → EReal := fun i =>
  ∑ k : Fin 256, h (ix2 (i 0) k) * w (ix2 k (i 1))

/-- The last stage: the three scaled aggregates and the three biases summed. -/
def combine (a0 a1 a2 : SN128.Idx → EReal) (cd : SN3.Idx → EReal) (b0 b1 b2 : SB2.Idx → EReal) : SN128.Idx → EReal := fun i =>
  ((a0 i * cd (ix2 (i 0) (0 : Fin 3)) + a1 i * cd (ix2 (i 0) (1 : Fin 3))) + a2 i * cd (ix2 (i 0) (2 : Fin 3)))
    + ((b0 (ix1 (i 1)) + b1 (ix1 (i 1))) + b2 (ix1 (i 1)))

theorem hz2 : (![0, 0] : Fin 2 → Nat) = fun _ => 0 := funext fun a => by fin_cases a <;> rfl
theorem hz1 : (![0] : Fin 1 → Nat) = fun _ => 0 := funext fun a => by fin_cases a <;> rfl

end Cert.Spec

end
-- ==== Proof.KernelIdealSpec.lean ====
/-
  The host side of the kernel's program as pure functions of arrays, at the exact reading of floats.

  For one relation with source indices `src` and destination indices `dst` (one signed 32-bit row number per edge):
  * `cnorm s` — per node, (max 1 (number of edges whose index in `s` is that node)) to the power −1/2;
  * `agg y cs src dst` — the table `y` with row `n` scaled by `cs n`, its rows gathered by `src` (a negative
    index wrapped by the number of nodes, then clamped into range), and the gathered rows added up into the rows
    `dst` names;
  * `cdcat` — the three destination normalisers side by side, one column per relation.
  `kernelOut` composes them with the three dense stages in the order the program runs them.
-/
import proofs.«149725_j35570919145822_2_alg».proof.Proof.Gen.KernelIdeal
import proofs.«149725_j35570919145822_2_alg».proof.Proof.LayerSpec

noncomputable section

namespace Cert.KernelIdeal.Val

open Cert.KernelIdeal Cert.KernelIdeal.Gen
open Idealize.ShloMosaic

/-- An index vector as a column of scatter indices. -/
def colIdx (s : IVec S500000 32) : IVec S500000x1 32 := broadcastInDim S500000x1 ![0] bcast_S500000_S500000x1_0 s

/-- An index vector as a column of gather indices: a negative index is first moved up by the number of nodes. -/
def wrapIdx (s : IVec S500000 32) : IVec S500000x1 32 :=
  broadcastInDim S500000x1 ![0] bcast_S500000_S500000x1_0
    (select (cmpi .slt s (broadcastInDim S500000 ![] bcast_S_S500000 (constantI S_ 32 0#32)))
      (addi s (broadcastInDim S500000 ![] bcast_S_S500000 (constantI S_ 32 100000#32))) s)

/-- The degree normaliser of an index vector. -/
def cnorm (s : IVec S500000 32) : FVec Ideal S100000 .f32 :=
  Host.powf (maximumf (broadcastInDim S100000 ![] bcast_S_S100000 (id (constant S_ .f32 0x3F800000#32)))
      (Host.scatterAdd scatter_S100000_S500000x1_S500000_n_0_0_1 (broadcastInDim S100000 ![] bcast_S_S100000 (constant S_ .f32 0x00000000#32))
        (colIdx s) (broadcastInDim S500000 ![] bcast_S_S500000 (constant S_ .f32 0x3F800000#32))))
    (broadcastInDim S100000 ![] bcast_S_S100000 (constant S_ .f32 0xBF000000#32))

/-- A per-node number repeated along the 128 features of its row. -/
def rowScale (cs : FVec Ideal S100000 .f32) : FVec Ideal S100000x128 .f32 :=
  broadcastInDim S100000x128 ![0, 1] bcast_S100000x1_S100000x128_0_1 (broadcastInDim S100000x1 ![0] bcast_S100000_S100000x1_0 cs)

/-- Scale rows, gather by source, add up by destination. -/
def agg (y : FVec Ideal S100000x128 .f32) (cs : FVec Ideal S100000 .f32) (src dst : IVec S500000 32) : FVec Ideal S100000x128 .f32 :=
  Host.scatterAdd scatter_S100000x128_S500000x1_S500000x128_1_0_0_1
    (broadcastInDim S100000x128 ![] bcast_S_S100000x128 (constant S_ .f32 0x00000000#32)) (colIdx dst)
    (Host.gather gather_S100000x128_S500000x1_S500000x128_1_0_n_n_0_1_1128 (mulf y (rowScale cs)) (wrapIdx src))

/-- The three destination normalisers as the three columns of one table. -/
def cdcat (cb cr cj : FVec Ideal S100000 .f32) : FVec Ideal S100000x3 .f32 :=
  concatenate S100000x3 1 [⟨S100000x1, broadcastInDim S100000x1 ![0] bcast_S100000_S100000x1_0 cb⟩,
    ⟨S100000x1, broadcastInDim S100000x1 ![0] bcast_S100000_S100000x1_0 cr⟩,
    ⟨S100000x1, broadcastInDim S100000x1 ![0] bcast_S100000_S100000x1_0 cj⟩] concatenates_S100000x1_S100000x1_S100000x1_S100000x3_d1

/-- The hidden features the kernel's program computes. -/
def kernelHidden (x : FVec Ideal S100000x128 .f32) (sb db sr dr sj dj : IVec S500000 32)
    (w1b : FVec Ideal S128x256 .f32) (b1b : FVec Ideal S256 .f32) (w1r : FVec Ideal S128x256 .f32) (b1r : FVec Ideal S256 .f32)
    (w1j : FVec Ideal S128x256 .f32) (b1j : FVec Ideal S256 .f32) : FVec Ideal S100000x256 .f32 :=
  Spec.layer1 (agg x (cnorm sb) sb db) (agg x (cnorm sr) sr dr) (agg x (cnorm sj) sj dj) (cdcat (cnorm db) (cnorm dr) (cnorm dj))
    w1b w1r w1j b1b b1r b1j

/-- The result the kernel's program computes, as a function of its nineteen arguments. -/
def kernelOut (x : FVec Ideal S100000x128 .f32) (sb db sr dr sj dj : IVec S500000 32)
    (w1b : FVec Ideal S128x256 .f32) (b1b : FVec Ideal S256 .f32) (w1r : FVec Ideal S128x256 .f32) (b1r : FVec Ideal S256 .f32)
    (w1j : FVec Ideal S128x256 .f32) (b1j : FVec Ideal S256 .f32)
    (w2b : FVec Ideal S256x128 .f32) (b2b : FVec Ideal S128 .f32) (w2r : FVec Ideal S256x128 .f32) (b2r : FVec Ideal S128 .f32)
    (w2j : FVec Ideal S256x128 .f32) (b2j : FVec Ideal S128 .f32) : FVec Ideal S100000x128 .f32 :=
  Spec.combine
    (agg (Spec.project (kernelHidden x sb db sr dr sj dj w1b b1b w1r b1r w1j b1j) w2b) (cnorm sb) sb db)
    (agg (Spec.project (kernelHidden x sb db sr dr sj dj w1b b1b w1r b1r w1j b1j) w2r) (cnorm sr) sr dr)
    (agg (Spec.project (kernelHidden x sb db sr dr sj dj w1b b1b w1r b1r w1j b1j) w2j) (cnorm sj) sj dj)
    (cdcat (cnorm db) (cnorm dr) (cnorm dj)) b2b b2r b2j

end Cert.KernelIdeal.Val

end
-- ==== Proof.LibColumn.lean ====
/- A per-row statistic laid out as a column and spread back over the row.

   A kernel that reduces each row of an [a, b] block to one number (a maximum, a sum) keeps the result as a
   vector of length a, re-lays it as an [a, 1] column and broadcasts the column over the b positions of each
   row.  Read at (p, c) the column and its broadcast are the statistic of row p. -/
import Idealize.ShloMosaic.Lib.Pipeline.Value
import Idealize.ShloMosaic.Lib.ValueIdx

namespace Cert.LibColumn

open Idealize.ShloMosaic Idealize.ShloMosaic.ValueIdx

variable {α : Type}

/-- A vector of length a re-laid as an [a, 1] column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An [a, 1] column broadcast to [a, b] reads, at (p, c), the column at row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Both steps at once: the statistic of row p, at every position of the row. -/
theorem broadcastTo_shapeCast_column_apply {a b : ℕ} (x : (⟨1, ![a]⟩ : Shape).Idx → α)
    (h1 : (⟨1, ![a]⟩ : Shape).ShapeCasts ⟨2, ![a, 1]⟩) (h2 : (⟨2, ![a, 1]⟩ : Shape).Broadcasts ⟨2, ![a, b]⟩) (p : Fin a) (c : Fin b) :
    broadcastTo ⟨2, ![a, b]⟩ (shapeCast ⟨2, ![a, 1]⟩ x h1) h2 (ix2 p c) = x (ix1 p) :=
  (broadcastTo_a1_ab_apply _ h2 p c).trans (shapeCast_a_a1_apply x h1 p 0)

end Cert.LibColumn
-- ==== Proof.KernelPayloads.lean ====
/-
  The three kernel bodies' arithmetic at the exact reading of floats, read at one element of the output block.

  Row `p` of a block and column `q`:
  * layer 1: the three aggregates' rows, each scaled by that row's normaliser, times the weight matrices, summed,
    plus the three biases, clamped below at zero;
  * projection: the hidden row times one weight matrix;
  * combination: the three aggregates' elements, each scaled by that row's normaliser, summed, plus the three biases.
  A change of float format is the identity here, and a matrix product into a zero accumulator is the plain sum over
  the contraction index.
-/
import proofs.«149725_j35570919145822_2_alg».proof.Proof.Gen.KernelIdeal.Skeleton
import proofs.«149725_j35570919145822_2_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Cert.KernelIdeal Cert.KernelIdeal.Gen
open Idealize.ShloMosaic Idealize.ShloMosaic.ValueIdx

/-- The combination body at row `p`, column `q`. -/
theorem combine_apply (c0 : Vec Ideal S2000x3 .f32) (a0 a1 a2 : Vec Ideal S2000x128 .f32) (b0 b1 b2 : Vec Ideal S128 .f32)
    (p : Fin 2000) (q : Fin 128) :
    k2_pay1 c0 a0 a1 a2 b0 b1 b2 (ix2 p q)
      = ((a0 (ix2 p q) * c0 (ix2 p (0 : Fin 3)) + a1 (ix2 p q) * c0 (ix2 p (1 : Fin 3))) + a2 (ix2 p q) * c0 (ix2 p (2 : Fin 3)))
        + ((b0 (ix1 q) + b1 (ix1 q)) + b2 (ix1 q)) := by
  unfold k2_pay1
  simp only [shapeCast_self]
  rw [addf_apply, addf_apply, addf_apply, mulf_apply, mulf_apply, mulf_apply,
    Cert.LibColumn.broadcastTo_a1_ab_apply, Cert.LibColumn.broadcastTo_a1_ab_apply, Cert.LibColumn.broadcastTo_a1_ab_apply,
    slice2_axis1_apply 0 c0 _ p (0 : Fin 1) (0 : Fin 3) rfl, slice2_axis1_apply 1 c0 _ p (0 : Fin 1) (1 : Fin 3) rfl,
    slice2_axis1_apply 2 c0 _ p (0 : Fin 1) (2 : Fin 3) rfl,
    broadcastTo_1b_ab_apply, addf_apply, addf_apply, shapeCast_a_1a_apply, shapeCast_a_1a_apply, shapeCast_a_1a_apply]

/-! ## The two matrix products: the contraction index is one coordinate -/

/-- A [2000,128] × [128,256] product into a zero accumulator at row `p`, column `q`: the sum over `k` of the left
    operand at (p, k) times the right operand at (k, q). -/
theorem matmul_128_apply {φ₁ φ₂ : FTy} (lhs : FVec Ideal S2000x128 φ₁) (rhs : FVec Ideal S128x256 φ₂) (p : Fin 2000) (q : Fin 256) :
    matmul dot_S2000x128_S128x256_S2000x256_1_0_0_1_n_n none lhs rhs (constant S2000x256 .f32 0x00000000#32) (ix2 p q)
      = ∑ k : Fin 128, lhs (ix2 p k) * rhs (ix2 k q) := by
  refine (Ideal.matmul_constant_zero_apply dot_S2000x128_S128x256_S2000x256_1_0_0_1_n_n none lhs rhs (ix2 p q)).trans ?_
  rw [← Equiv.sum_comp (contrEquiv1 dot_S2000x128_S128x256_S2000x256_1_0_0_1_n_n 128 rfl rfl).symm]
  refine Finset.sum_congr rfl fun k _ => ?_
  have hl : dot_S2000x128_S128x256_S2000x256_1_0_0_1_n_n.lhsIdx (ix2 p q)
      ((contrEquiv1 dot_S2000x128_S128x256_S2000x256_1_0_0_1_n_n 128 rfl rfl).symm k) = ix2 p k := by
    funext a; refine Fin.ext ?_
    match a with
    | ⟨0, _⟩ => rfl
    | ⟨1, _⟩ =>
      exact (dot_S2000x128_S128x256_S2000x256_1_0_0_1_n_n.lhsIdx_val_of_single (cl := (1 : Fin 2)) rfl _ _).trans
        (contrEquiv1_symm_val dot_S2000x128_S128x256_S2000x256_1_0_0_1_n_n 128 rfl rfl k)
  have hr : dot_S2000x128_S128x256_S2000x256_1_0_0_1_n_n.rhsIdx (ix2 p q)
      ((contrEquiv1 dot_S2000x128_S128x256_S2000x256_1_0_0_1_n_n 128 rfl rfl).symm k) = ix2 k q := by
    funext a; refine Fin.ext ?_
    match a with
    | ⟨0, _⟩ =>
      exact (dot_S2000x128_S128x256_S2000x256_1_0_0_1_n_n.rhsIdx_val_of_single (cr := (0 : Fin 2)) rfl _ _).trans
        (contrEquiv1_symm_val dot_S2000x128_S128x256_S2000x256_1_0_0_1_n_n 128 rfl rfl k)
    | ⟨1, _⟩ => rfl
  rw [hl, hr]

/-- A [2000,256] × [256,128] product into a zero accumulator at row `p`, column `q`. -/
theorem matmul_256_apply {φ₁ φ₂ : FTy} (lhs : FVec Ideal S2000x256 φ₁) (rhs : FVec Ideal S256x128 φ₂) (p : Fin 2000) (q : Fin 128) :
    matmul dot_S2000x256_S256x128_S2000x128_1_0_0_1_n_n none lhs rhs (constant S2000x128 .f32 0x00000000#32) (ix2 p q)
      = ∑ k : Fin 256, lhs (ix2 p k) * rhs (ix2 k q) := by
  refine (Ideal.matmul_constant_zero_apply dot_S2000x256_S256x128_S2000x128_1_0_0_1_n_n none lhs rhs (ix2 p q)).trans ?_
  rw [← Equiv.sum_comp (contrEquiv1 dot_S2000x256_S256x128_S2000x128_1_0_0_1_n_n 256 rfl rfl).symm]
  refine Finset.sum_congr rfl fun k _ => ?_
  have hl : dot_S2000x256_S256x128_S2000x128_1_0_0_1_n_n.lhsIdx (ix2 p q)
      ((contrEquiv1 dot_S2000x256_S256x128_S2000x128_1_0_0_1_n_n 256 rfl rfl).symm k) = ix2 p k := by
    funext a; refine Fin.ext ?_
    match a with
    | ⟨0, _⟩ => rfl
    | ⟨1, _⟩ =>
      exact (dot_S2000x256_S256x128_S2000x128_1_0_0_1_n_n.lhsIdx_val_of_single (cl := (1 : Fin 2)) rfl _ _).trans
        (contrEquiv1_symm_val dot_S2000x256_S256x128_S2000x128_1_0_0_1_n_n 256 rfl rfl k)
  have hr : dot_S2000x256_S256x128_S2000x128_1_0_0_1_n_n.rhsIdx (ix2 p q)
      ((contrEquiv1 dot_S2000x256_S256x128_S2000x128_1_0_0_1_n_n 256 rfl rfl).symm k) = ix2 k q := by
    funext a; refine Fin.ext ?_
    match a with
    | ⟨0, _⟩ =>
      exact (dot_S2000x256_S256x128_S2000x128_1_0_0_1_n_n.rhsIdx_val_of_single (cr := (0 : Fin 2)) rfl _ _).trans
        (contrEquiv1_symm_val dot_S2000x256_S256x128_S2000x128_1_0_0_1_n_n 256 rfl rfl k)
    | ⟨1, _⟩ => rfl
  rw [hl, hr]

/-! ## The projection body -/

/-- The projection body at row `p`, column `q`: the hidden row times the weight column. -/
theorem project_apply (h0 : Vec Ideal S2000x256 .f32) (w : Vec Ideal S256x128 .f32) (p : Fin 2000) (q : Fin 128) :
    k1_pay2 h0 w (ix2 p q) = ∑ k : Fin 256, h0 (ix2 p k) * w (ix2 k q) := by
  unfold k1_pay2 k1_pay1
  simp only [shapeCast_self]
  exact matmul_256_apply _ _ p q

theorem project_apply' (h0 : Vec Ideal S2000x256 .f32) (w : Vec Ideal S256x128 .f32) (p : Fin 2000) (q : Fin 128) :
    k1_pay3 h0 w (ix2 p q) = ∑ k : Fin 256, h0 (ix2 p k) * w (ix2 k q) := by
  unfold k1_pay3 k1_pay1
  simp only [shapeCast_self]
  exact matmul_256_apply _ _ p q

theorem project_apply'' (h0 : Vec Ideal S2000x256 .f32) (w : Vec Ideal S256x128 .f32) (p : Fin 2000) (q : Fin 128) :
    k1_pay4 h0 w (ix2 p q) = ∑ k : Fin 256, h0 (ix2 p k) * w (ix2 k q) := by
  unfold k1_pay4 k1_pay1
  simp only [shapeCast_self]
  exact matmul_256_apply _ _ p q

/-! ## The first layer's body -/

/-- The three products summed, at row `p`, column `q`: each aggregate's row scaled by that row's normaliser. -/
theorem layer1_products_apply (c0 : Vec Ideal S2000x3 .f32) (a0 a1 a2 : Vec Ideal S2000x128 .f32) (w0 w1 w2 : Vec Ideal S128x256 .f32)
    (p : Fin 2000) (q : Fin 256) :
    k0_pay2 c0 a0 a1 a2 w0 w1 w2 (ix2 p q)
      = ((∑ k : Fin 128, (a0 (ix2 p k) * c0 (ix2 p (0 : Fin 3))) * w0 (ix2 k q))
          + ∑ k : Fin 128, (a1 (ix2 p k) * c0 (ix2 p (1 : Fin 3))) * w1 (ix2 k q))
        + ∑ k : Fin 128, (a2 (ix2 p k) * c0 (ix2 p (2 : Fin 3))) * w2 (ix2 k q) := by
  unfold k0_pay2
  simp only [shapeCast_self]
  rw [addf_apply, addf_apply, matmul_128_apply, matmul_128_apply, matmul_128_apply]
  refine congrArg₂ (· + ·) (congrArg₂ (· + ·) ?_ ?_) ?_ <;>
  · refine Finset.sum_congr rfl fun k _ => ?_
    rw [truncf_apply, truncf_apply, mulf_apply, Cert.LibColumn.broadcastTo_a1_ab_apply]
    first
      | rw [slice2_axis1_apply 0 c0 _ p (0 : Fin 1) (0 : Fin 3) rfl]
      | rw [slice2_axis1_apply 1 c0 _ p (0 : Fin 1) (1 : Fin 3) rfl]
      | rw [slice2_axis1_apply 2 c0 _ p (0 : Fin 1) (2 : Fin 3) rfl]

/-- The three biases summed, as a one-row array, at column `q`. -/
theorem layer1_bias_apply (b0 b1 b2 : Vec Ideal S256 .f32) (u : Fin 1) (q : Fin 256) :
    k0_pay3 b0 b1 b2 (ix2 u q) = (b0 (ix1 q) + b1 (ix1 q)) + b2 (ix1 q) := by
  unfold k0_pay3
  rw [addf_apply, addf_apply, shapeCast_a_1a_apply, shapeCast_a_1a_apply, shapeCast_a_1a_apply]

/-- The first layer's body at row `p`, column `q`. -/
theorem layer1_apply (v30 : FVec Ideal S2000x256 .f32) (v38 : FVec Ideal S1x256 .f32) (p : Fin 2000) (q : Fin 256) :
    k0_pay1 v30 v38 (ix2 p q) = max (v30 (ix2 p q) + v38 (ix2 (0 : Fin 1) q)) 0 := by
  unfold k0_pay1
  rw [maximumf_apply, addf_apply, broadcastTo_1b_ab_apply, broadcast_apply]
  show max _ (Ideal.ofBits .f32 0x00000000#32) = _
  rw [Ideal.ofBits_zero_f32]

end Cert.KernelIdeal.Val

end
-- ==== Proof.KernelIdealFinal0.lean ====
/-
  The first pallas_call's result array (the hidden features) after its fifty grid points, as one function of the
  arrays the region finds: point `t` writes rows 2000·t … 2000·t+1999; row `p` of its block is the first dense
  stage of row 2000·t+p of the three aggregates and of the normaliser table, with the weight matrices and bias vectors
  (which every point sees whole). The blocks tile the rows.
-/
import proofs.«149725_j35570919145822_2_alg».proof.Proof.KernelIdealRegion0
import proofs.«149725_j35570919145822_2_alg».proof.Proof.KernelPayloads
import proofs.«149725_j35570919145822_2_alg».proof.Proof.LayerSpec
import Idealize.ShloMosaic.Lib.ValueIdx
import Idealize.ShloMosaic.Lib.Pipeline.Value

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Row `p` of point `t`'s block is row 2000·t + p of the array. -/
def row0 (t : Fin cfg0.N) (p : Fin 2000) : Fin 100000 :=
  ⟨2000 * t.val + p.val, by have := lt_of_lt_of_eq t.isLt N_0; omega⟩

theorem idx0_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ win0_7.index t (0 : Fin 1) = 0 ∧ win0_8.index t (0 : Fin 1) = 0 ∧ win0_9.index t (0 : Fin 1) = 0
    ∧ (win0_10.index t (0 : Fin 2) = t.val ∧ win0_10.index t (1 : Fin 2) = 0) :=
  (by decide +kernel : ∀ t : Fin grid0.N, _)

theorem emb0_0 (t : Fin cfg0.N) (p : Fin 2000) (q : Fin 128) : ((cfg0.win 0).blk t).view.emb (ix2 p q) = ix2 (row0 t p) q := by
  funext a; apply Fin.ext
  obtain ⟨⟨e0, e1⟩, -⟩ := idx0_rows t
  match a with
  | ⟨0, _⟩ => show win0_0.index t (0 : Fin 2) * 2000 + 1 * p.val = 2000 * t.val + p.val; omega
  | ⟨1, _⟩ => show win0_0.index t (1 : Fin 2) * 128 + 1 * q.val = q.val; omega
theorem emb0_1 (t : Fin cfg0.N) (p : Fin 2000) (q : Fin 128) : ((cfg0.win 1).blk t).view.emb (ix2 p q) = ix2 (row0 t p) q := by
  funext a; apply Fin.ext
  obtain ⟨-, ⟨e0, e1⟩, -⟩ := idx0_rows t
  match a with
  | ⟨0, _⟩ => show win0_1.index t (0 : Fin 2) * 2000 + 1 * p.val = 2000 * t.val + p.val; omega
  | ⟨1, _⟩ => show win0_1.index t (1 : Fin 2) * 128 + 1 * q.val = q.val; omega
theorem emb0_2 (t : Fin cfg0.N) (p : Fin 2000) (q : Fin 128) : ((cfg0.win 2).blk t).view.emb (ix2 p q) = ix2 (row0 t p) q := by
  funext a; apply Fin.ext
  obtain ⟨-, -, ⟨e0, e1⟩, -⟩ := idx0_rows t
  match a with
  | ⟨0, _⟩ => show win0_2.index t (0 : Fin 2) * 2000 + 1 * p.val = 2000 * t.val + p.val; omega
  | ⟨1, _⟩ => show win0_2.index t (1 : Fin 2) * 128 + 1 * q.val = q.val; omega
theorem emb0_3 (t : Fin cfg0.N) (p : Fin 2000) (q : Fin 3) : ((cfg0.win 3).blk t).view.emb (ix2 p q) = ix2 (row0 t p) q := by
  funext a; apply Fin.ext
  obtain ⟨-, -, -, ⟨e0, e1⟩, -⟩ := idx0_rows t
  match a with
  | ⟨0, _⟩ => show win0_3.index t (0 : Fin 2) * 2000 + 1 * p.val = 2000 * t.val + p.val; omega
  | ⟨1, _⟩ => show win0_3.index t (1 : Fin 2) * 3 + 1 * q.val = q.val; omega
theorem emb0_4 (t : Fin cfg0.N) (k : Fin 128) (q : Fin 256) : ((cfg0.win 4).blk t).view.emb (ix2 k q) = ix2 k q := by
  funext a; apply Fin.ext
  obtain ⟨-, -, -, -, ⟨e0, e1⟩, -⟩ := idx0_rows t
  match a with
  | ⟨0, _⟩ => show win0_4.index t (0 : Fin 2) * 128 + 1 * k.val = k.val; omega
  | ⟨1, _⟩ => show win0_4.index t (1 : Fin 2) * 256 + 1 * q.val = q.val; omega
theorem emb0_5 (t : Fin cfg0.N) (k : Fin 128) (q : Fin 256) : ((cfg0.win 5).blk t).view.emb (ix2 k q) = ix2 k q := by
  funext a; apply Fin.ext
  obtain ⟨-, -, -, -, -, ⟨e0, e1⟩, -⟩ := idx0_rows t
  match a with
  | ⟨0, _⟩ => show win0_5.index t (0 : Fin 2) * 128 + 1 * k.val = k.val; omega
  | ⟨1, _⟩ => show win0_5.index t (1 : Fin 2) * 256 + 1 * q.val = q.val; omega
theorem emb0_6 (t : Fin cfg0.N) (k : Fin 128) (q : Fin 256) : ((cfg0.win 6).blk t).view.emb (ix2 k q) = ix2 k q := by
  funext a; apply Fin.ext
  obtain ⟨-, -, -, -, -, -, ⟨e0, e1⟩, -⟩ := idx0_rows t
  match a with
  | ⟨0, _⟩ => show win0_6.index t (0 : Fin 2) * 128 + 1 * k.val = k.val; omega
  | ⟨1, _⟩ => show win0_6.index t (1 : Fin 2) * 256 + 1 * q.val = q.val; omega
theorem emb0_7 (t : Fin cfg0.N) (q : Fin 256) : ((cfg0.win 7).blk t).view.emb (ix1 q) = ix1 q := by
  funext a; apply Fin.ext
  obtain ⟨-, -, -, -, -, -, -, e0, -⟩ := idx0_rows t
  match a with
  | ⟨0, _⟩ => show win0_7.index t (0 : Fin 1) * 256 + 1 * q.val = q.val; omega
theorem emb0_8 (t : Fin cfg0.N) (q : Fin 256) : ((cfg0.win 8).blk t).view.emb (ix1 q) = ix1 q := by
  funext a; apply Fin.ext
  obtain ⟨-, -, -, -, -, -, -, -, e0, -⟩ := idx0_rows t
  match a with
  | ⟨0, _⟩ => show win0_8.index t (0 : Fin 1) * 256 + 1 * q.val = q.val; omega
theorem emb0_9 (t : Fin cfg0.N) (q : Fin 256) : ((cfg0.win 9).blk t).view.emb (ix1 q) = ix1 q := by
  funext a; apply Fin.ext
  obtain ⟨-, -, -, -, -, -, -, -, -, e0, -⟩ := idx0_rows t
  match a with
  | ⟨0, _⟩ => show win0_9.index t (0 : Fin 1) * 256 + 1 * q.val = q.val; omega
theorem emb0_10 (t : Fin cfg0.N) (p : Fin 2000) (q : Fin 256) : ((cfg0.win 10).blk t).view.emb (ix2 p q) = ix2 (row0 t p) q := by
  funext a; apply Fin.ext
  obtain ⟨-, -, -, -, -, -, -, -, -, -, ⟨e0, e1⟩⟩ := idx0_rows t
  match a with
  | ⟨0, _⟩ => show win0_10.index t (0 : Fin 2) * 2000 + 1 * p.val = 2000 * t.val + p.val; omega
  | ⟨1, _⟩ => show win0_10.index t (1 : Fin 2) * 256 + 1 * q.val = q.val; omega

set_option maxHeartbeats 2000000 in
/-- Point `t` writes back block `t` of the first dense stage of the region-entry arrays. -/
theorem flushed0_eq (c : Dev nD) (t : Fin cfg0.N) :
    (dat0 V c).flushed 10 t = ((cfg0.win 10).blk t).view.read (Elt Ideal)
      (Spec.layer1 (V c main_v55) (V c main_v68) (V c main_v81) (V c main_v42) (V c main_arg7) (V c main_arg9) (V c main_arg11)
        (V c main_arg8) (V c main_arg10) (V c main_arg12)) := by
  show (cfg0.win 10).cut (grid0.coords t) ((dat0 V c).after 10 t) = _
  rw [after0_10]
  unfold out0_10
  rw [View.canon_unit_zero Spec.hz2]
  simp only [View.ld_unit_zero (S := S2000x128) Spec.hz2, View.ld_unit_zero (S := S2000x3) Spec.hz2,
    View.ld_unit_zero (S := S128x256) Spec.hz2, View.ld_unit_zero (S := S256) Spec.hz1]
  funext j
  obtain ⟨p, q, rfl⟩ : ∃ (p : Fin 2000) (q : Fin 256), j = ix2 p q := ⟨j 0, j 1, eq_ix2 j⟩
  show k0_pay1 (k0_pay2 (iblk0 V c 3 t) (iblk0 V c 0 t) (iblk0 V c 1 t) (iblk0 V c 2 t) (iblk0 V c 4 t) (iblk0 V c 5 t) (iblk0 V c 6 t))
      (k0_pay3 (iblk0 V c 7 t) (iblk0 V c 8 t) (iblk0 V c 9 t)) (ix2 p q)
    = Spec.layer1 (V c main_v55) (V c main_v68) (V c main_v81) (V c main_v42) (V c main_arg7) (V c main_arg9) (V c main_arg11)
        (V c main_arg8) (V c main_arg10) (V c main_arg12) (((cfg0.win 10).blk t).view.emb (ix2 p q))
  refine (layer1_apply _ _ p q).trans ?_
  rw [layer1_products_apply (iblk0 V c 3 t) (iblk0 V c 0 t) (iblk0 V c 1 t) (iblk0 V c 2 t) (iblk0 V c 4 t) (iblk0 V c 5 t) (iblk0 V c 6 t) p q,
    layer1_bias_apply (iblk0 V c 7 t) (iblk0 V c 8 t) (iblk0 V c 9 t) 0 q, emb0_10]
  have c0 : iblk0 V c 3 t (ix2 p (0 : Fin 3)) = V c main_v42 (ix2 (row0 t p) (0 : Fin 3)) := congrArg (V c main_v42) (emb0_3 t p 0)
  have c1 : iblk0 V c 3 t (ix2 p (1 : Fin 3)) = V c main_v42 (ix2 (row0 t p) (1 : Fin 3)) := congrArg (V c main_v42) (emb0_3 t p 1)
  have c2 : iblk0 V c 3 t (ix2 p (2 : Fin 3)) = V c main_v42 (ix2 (row0 t p) (2 : Fin 3)) := congrArg (V c main_v42) (emb0_3 t p 2)
  have b0 : iblk0 V c 7 t (ix1 q) = V c main_arg8 (ix1 q) := congrArg (V c main_arg8) (emb0_7 t q)
  have b1 : iblk0 V c 8 t (ix1 q) = V c main_arg10 (ix1 q) := congrArg (V c main_arg10) (emb0_8 t q)
  have b2 : iblk0 V c 9 t (ix1 q) = V c main_arg12 (ix1 q) := congrArg (V c main_arg12) (emb0_9 t q)
  rw [c0, c1, c2, b0, b1, b2]
  unfold Spec.layer1
  refine congrArg (fun z => max (z + _) 0) (congrArg₂ (· + ·) (congrArg₂ (· + ·) ?_ ?_) ?_)
  · refine Finset.sum_congr rfl fun k _ => ?_
    have h0 : iblk0 V c 0 t (ix2 p k) = V c main_v55 (ix2 (row0 t p) k) := congrArg (V c main_v55) (emb0_0 t p k)
    have h1 : iblk0 V c 4 t (ix2 k q) = V c main_arg7 (ix2 k q) := congrArg (V c main_arg7) (emb0_4 t k q)
    rw [h0, h1]
  · refine Finset.sum_congr rfl fun k _ => ?_
    have h0 : iblk0 V c 1 t (ix2 p k) = V c main_v68 (ix2 (row0 t p) k) := congrArg (V c main_v68) (emb0_1 t p k)
    have h1 : iblk0 V c 5 t (ix2 k q) = V c main_arg9 (ix2 k q) := congrArg (V c main_arg9) (emb0_5 t k q)
    rw [h0, h1]
  · refine Finset.sum_congr rfl fun k _ => ?_
    have h0 : iblk0 V c 2 t (ix2 p k) = V c main_v81 (ix2 (row0 t p) k) := congrArg (V c main_v81) (emb0_2 t p k)
    have h1 : iblk0 V c 6 t (ix2 k q) = V c main_arg11 (ix2 k q) := congrArg (V c main_arg11) (emb0_6 t k q)
    rw [h0, h1]

theorem mem_blk0_10 (t : Fin cfg0.N) (i : S100000x256.Idx) :
    i ∈ ((cfg0.win 10).blk t).view.set ↔ ∀ a : Fin 2, win0_10.index t a * S2000x256.size a ≤ (i a).val ∧ (i a).val < win0_10.index t a * S2000x256.size a + S2000x256.size a := by
  show i ∈ ((View.whole main_v82).slice (win0_10.rect t)).set ↔ _
  rw [View.set_slice_whole, Rect.mem_set_unit]
  exact Iff.rfl

theorem cover0_10' (i : S100000x256.Idx) : ∃ t : Fin cfg0.N, (cfg0.win 10).flush t = true ∧ i ∈ ((cfg0.win 10).blk t).view.set := by
  have hi0 : (i 0).val < 100000 := (i 0).isLt
  have hi1 : (i 1).val < 256 := (i 1).isLt
  refine ⟨⟨(i 0).val / 2000, by rw [show cfg0.N = 50 from N_0]; omega⟩, flush0_10 _, ?_⟩
  rw [mem_blk0_10]
  obtain ⟨-, -, -, -, -, -, -, -, -, -, ⟨e0, e1⟩⟩ := idx0_rows ⟨(i 0).val / 2000, by rw [show cfg0.N = 50 from N_0]; omega⟩
  intro a
  match a with
  | ⟨0, _⟩ =>
    show win0_10.index _ (0 : Fin 2) * 2000 ≤ (i 0).val ∧ (i 0).val < win0_10.index _ (0 : Fin 2) * 2000 + 2000
    rw [e0]; show (i 0).val / 2000 * 2000 ≤ (i 0).val ∧ (i 0).val < (i 0).val / 2000 * 2000 + 2000; omega
  | ⟨1, _⟩ =>
    show win0_10.index _ (1 : Fin 2) * 256 ≤ (i 1).val ∧ (i 1).val < win0_10.index _ (1 : Fin 2) * 256 + 256
    rw [e1]; omega

/-- The first pallas_call's result array: the first dense stage of the arrays the region finds. -/
theorem final0 (c : Dev nD) :
    (dat0 V c).arrAt 10 cfg0.N
      = Spec.layer1 (V c main_v55) (V c main_v68) (V c main_v81) (V c main_v42) (V c main_arg7) (V c main_arg9) (V c main_arg11)
          (V c main_arg8) (V c main_arg10) (V c main_arg12) :=
  (dat0 V c).arrAt_eq_of_cover 10 _ (fun t _ => flushed0_eq V c t) cover0_10'

end Cert.KernelIdeal.Val

end
-- ==== Proof.KernelIdealFinal1.lean ====
/-
  The second pallas_call's three result arrays after its fifty grid points, each as one function of the arrays the
  region finds: point `t` writes rows 2000·t … 2000·t+1999 of each; row `p` of a block is row 2000·t+p of the
  hidden features times that result's weight matrix (which every point sees whole). The blocks tile the rows.
-/
import proofs.«149725_j35570919145822_2_alg».proof.Proof.KernelIdealRegion1
import proofs.«149725_j35570919145822_2_alg».proof.Proof.KernelPayloads
import proofs.«149725_j35570919145822_2_alg».proof.Proof.LayerSpec
import Idealize.ShloMosaic.Lib.ValueIdx
import Idealize.ShloMosaic.Lib.Pipeline.Value

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Row `p` of point `t`'s block is row 2000·t + p of the array. -/
def row1 (t : Fin cfg1.N) (p : Fin 2000) : Fin 100000 :=
  ⟨2000 * t.val + p.val, by have := lt_of_lt_of_eq t.isLt N_1; omega⟩

theorem idx1_rows : ∀ t : Fin cfg1.N,
    (win1_0.index t (0 : Fin 2) = t.val ∧ win1_0.index t (1 : Fin 2) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = t.val ∧ win1_4.index t (1 : Fin 2) = 0)
    ∧ (win1_5.index t (0 : Fin 2) = t.val ∧ win1_5.index t (1 : Fin 2) = 0)
    ∧ (win1_6.index t (0 : Fin 2) = t.val ∧ win1_6.index t (1 : Fin 2) = 0) :=
  (by decide +kernel : ∀ t : Fin grid1.N, _)

theorem emb1_0 (t : Fin cfg1.N) (p : Fin 2000) (q : Fin 256) : ((cfg1.win 0).blk t).view.emb (ix2 p q) = ix2 (row1 t p) q := by
  funext a; apply Fin.ext
  obtain ⟨⟨e0, e1⟩, -⟩ := idx1_rows t
  match a with
  | ⟨0, _⟩ => show win1_0.index t (0 : Fin 2) * 2000 + 1 * p.val = 2000 * t.val + p.val; omega
  | ⟨1, _⟩ => show win1_0.index t (1 : Fin 2) * 256 + 1 * q.val = q.val; omega
theorem emb1_1 (t : Fin cfg1.N) (k : Fin 256) (q : Fin 128) : ((cfg1.win 1).blk t).view.emb (ix2 k q) = ix2 k q := by
  funext a; apply Fin.ext
  obtain ⟨-, ⟨e0, e1⟩, -⟩ := idx1_rows t
  match a with
  | ⟨0, _⟩ => show win1_1.index t (0 : Fin 2) * 256 + 1 * k.val = k.val; omega
  | ⟨1, _⟩ => show win1_1.index t (1 : Fin 2) * 128 + 1 * q.val = q.val; omega
theorem emb1_2 (t : Fin cfg1.N) (k : Fin 256) (q : Fin 128) : ((cfg1.win 2).blk t).view.emb (ix2 k q) = ix2 k q := by
  funext a; apply Fin.ext
  obtain ⟨-, -, ⟨e0, e1⟩, -⟩ := idx1_rows t
  match a with
  | ⟨0, _⟩ => show win1_2.index t (0 : Fin 2) * 256 + 1 * k.val = k.val; omega
  | ⟨1, _⟩ => show win1_2.index t (1 : Fin 2) * 128 + 1 * q.val = q.val; omega
theorem emb1_3 (t : Fin cfg1.N) (k : Fin 256) (q : Fin 128) : ((cfg1.win 3).blk t).view.emb (ix2 k q) = ix2 k q := by
  funext a; apply Fin.ext
  obtain ⟨-, -, -, ⟨e0, e1⟩, -⟩ := idx1_rows t
  match a with
  | ⟨0, _⟩ => show win1_3.index t (0 : Fin 2) * 256 + 1 * k.val = k.val; omega
  | ⟨1, _⟩ => show win1_3.index t (1 : Fin 2) * 128 + 1 * q.val = q.val; omega
theorem emb1_4 (t : Fin cfg1.N) (p : Fin 2000) (q : Fin 128) : ((cfg1.win 4).blk t).view.emb (ix2 p q) = ix2 (row1 t p) q := by
  funext a; apply Fin.ext
  obtain ⟨-, -, -, -, ⟨e0, e1⟩, -⟩ := idx1_rows t
  match a with
  | ⟨0, _⟩ => show win1_4.index t (0 : Fin 2) * 2000 + 1 * p.val = 2000 * t.val + p.val; omega
  | ⟨1, _⟩ => show win1_4.index t (1 : Fin 2) * 128 + 1 * q.val = q.val; omega
theorem emb1_5 (t : Fin cfg1.N) (p : Fin 2000) (q : Fin 128) : ((cfg1.win 5).blk t).view.emb (ix2 p q) = ix2 (row1 t p) q := by
  funext a; apply Fin.ext
  obtain ⟨-, -, -, -, -, ⟨e0, e1⟩, -⟩ := idx1_rows t
  match a with
  | ⟨0, _⟩ => show win1_5.index t (0 : Fin 2) * 2000 + 1 * p.val = 2000 * t.val + p.val; omega
  | ⟨1, _⟩ => show win1_5.index t (1 : Fin 2) * 128 + 1 * q.val = q.val; omega
theorem emb1_6 (t : Fin cfg1.N) (p : Fin 2000) (q : Fin 128) : ((cfg1.win 6).blk t).view.emb (ix2 p q) = ix2 (row1 t p) q := by
  funext a; apply Fin.ext
  obtain ⟨-, -, -, -, -, -, ⟨e0, e1⟩⟩ := idx1_rows t
  match a with
  | ⟨0, _⟩ => show win1_6.index t (0 : Fin 2) * 2000 + 1 * p.val = 2000 * t.val + p.val; omega
  | ⟨1, _⟩ => show win1_6.index t (1 : Fin 2) * 128 + 1 * q.val = q.val; omega

/-- Point `t` writes back, to result 0, block `t` of the hidden features projected through its weight matrix. -/
theorem flushed1_4_eq (c : Dev nD) (t : Fin cfg1.N) :
    (dat1 V c).flushed 4 t = ((cfg1.win 4).blk t).view.read (Elt Ideal) (Spec.project (V c main_v82) (V c main_arg13)) := by
  show (cfg1.win 4).cut (grid1.coords t) ((dat1 V c).after 4 t) = _
  rw [after1_4]
  unfold out1_4
  rw [View.canon_unit_zero Spec.hz2]
  simp only [View.ld_unit_zero (S := S2000x256) Spec.hz2, View.ld_unit_zero (S := S256x128) Spec.hz2]
  funext j
  obtain ⟨p, q, rfl⟩ : ∃ (p : Fin 2000) (q : Fin 128), j = ix2 p q := ⟨j 0, j 1, eq_ix2 j⟩
  show k1_pay2 (iblk1 V c 0 t) (iblk1 V c 1 t) (ix2 p q)
    = Spec.project (V c main_v82) (V c main_arg13) (((cfg1.win 4).blk t).view.emb (ix2 p q))
  refine (project_apply (iblk1 V c 0 t) (iblk1 V c 1 t) p q).trans ?_
  rw [emb1_4]
  unfold Spec.project
  refine Finset.sum_congr rfl fun k _ => ?_
  have h0 : iblk1 V c 0 t (ix2 p k) = V c main_v82 (ix2 (row1 t p) k) := congrArg (V c main_v82) (emb1_0 t p k)
  have h1 : iblk1 V c 1 t (ix2 k q) = V c main_arg13 (ix2 k q) := congrArg (V c main_arg13) (emb1_1 t k q)
  rw [h0, h1]

theorem mem_blk1_4 (t : Fin cfg1.N) (i : S100000x128.Idx) :
    i ∈ ((cfg1.win 4).blk t).view.set ↔ ∀ a : Fin 2, win1_4.index t a * S2000x128.size a ≤ (i a).val ∧ (i a).val < win1_4.index t a * S2000x128.size a + S2000x128.size a := by
  show i ∈ ((View.whole main_v83_0).slice (win1_4.rect t)).set ↔ _
  rw [View.set_slice_whole, Rect.mem_set_unit]
  exact Iff.rfl

theorem cover1_4' (i : S100000x128.Idx) : ∃ t : Fin cfg1.N, (cfg1.win 4).flush t = true ∧ i ∈ ((cfg1.win 4).blk t).view.set := by
  have hi0 : (i 0).val < 100000 := (i 0).isLt
  have hi1 : (i 1).val < 128 := (i 1).isLt
  refine ⟨⟨(i 0).val / 2000, by rw [show cfg1.N = 50 from N_1]; omega⟩, flush1_4 _, ?_⟩
  rw [mem_blk1_4]
  obtain ⟨-, -, -, -, ⟨e0, e1⟩, -⟩ := idx1_rows ⟨(i 0).val / 2000, by rw [show cfg1.N = 50 from N_1]; omega⟩
  intro a
  match a with
  | ⟨0, _⟩ =>
    show win1_4.index _ (0 : Fin 2) * 2000 ≤ (i 0).val ∧ (i 0).val < win1_4.index _ (0 : Fin 2) * 2000 + 2000
    rw [e0]; show (i 0).val / 2000 * 2000 ≤ (i 0).val ∧ (i 0).val < (i 0).val / 2000 * 2000 + 2000; omega
  | ⟨1, _⟩ =>
    show win1_4.index _ (1 : Fin 2) * 128 ≤ (i 1).val ∧ (i 1).val < win1_4.index _ (1 : Fin 2) * 128 + 128
    rw [e1]; omega

/-- Result 0 of the second pallas_call: the hidden features projected through its weight matrix. -/
theorem final1_4 (c : Dev nD) :
    (dat1 V c).arrAt 4 cfg1.N = Spec.project (V c main_v82) (V c main_arg13) :=
  (dat1 V c).arrAt_eq_of_cover 4 _ (fun t _ => flushed1_4_eq V c t) cover1_4'

/-- Point `t` writes back, to result 1, block `t` of the hidden features projected through its weight matrix. -/
theorem flushed1_5_eq (c : Dev nD) (t : Fin cfg1.N) :
    (dat1 V c).flushed 5 t = ((cfg1.win 5).blk t).view.read (Elt Ideal) (Spec.project (V c main_v82) (V c main_arg15)) := by
  show (cfg1.win 5).cut (grid1.coords t) ((dat1 V c).after 5 t) = _
  rw [after1_5]
  unfold out1_5
  rw [View.canon_unit_zero Spec.hz2]
  simp only [View.ld_unit_zero (S := S2000x256) Spec.hz2, View.ld_unit_zero (S := S256x128) Spec.hz2]
  funext j
  obtain ⟨p, q, rfl⟩ : ∃ (p : Fin 2000) (q : Fin 128), j = ix2 p q := ⟨j 0, j 1, eq_ix2 j⟩
  show k1_pay3 (iblk1 V c 0 t) (iblk1 V c 2 t) (ix2 p q)
    = Spec.project (V c main_v82) (V c main_arg15) (((cfg1.win 5).blk t).view.emb (ix2 p q))
  refine (project_apply' (iblk1 V c 0 t) (iblk1 V c 2 t) p q).trans ?_
  rw [emb1_5]
  unfold Spec.project
  refine Finset.sum_congr rfl fun k _ => ?_
  have h0 : iblk1 V c 0 t (ix2 p k) = V c main_v82 (ix2 (row1 t p) k) := congrArg (V c main_v82) (emb1_0 t p k)
  have h1 : iblk1 V c 2 t (ix2 k q) = V c main_arg15 (ix2 k q) := congrArg (V c main_arg15) (emb1_2 t k q)
  rw [h0, h1]

theorem mem_blk1_5 (t : Fin cfg1.N) (i : S100000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v83_1).slice (win1_5.rect t)).set ↔ _
  rw [View.set_slice_whole, Rect.mem_set_unit]
  exact Iff.rfl

theorem cover1_5' (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  refine ⟨⟨(i 0).val / 2000, by rw [show cfg1.N = 50 from N_1]; omega⟩, flush1_5 _, ?_⟩
  rw [mem_blk1_5]
  obtain ⟨-, -, -, -, -, ⟨e0, e1⟩, -⟩ := idx1_rows ⟨(i 0).val / 2000, by rw [show cfg1.N = 50 from N_1]; omega⟩
  intro a
  match a with
  | ⟨0, _⟩ =>
    show win1_5.index _ (0 : Fin 2) * 2000 ≤ (i 0).val ∧ (i 0).val < win1_5.index _ (0 : Fin 2) * 2000 + 2000
    rw [e0]; show (i 0).val / 2000 * 2000 ≤ (i 0).val ∧ (i 0).val < (i 0).val / 2000 * 2000 + 2000; omega
  | ⟨1, _⟩ =>
    show win1_5.index _ (1 : Fin 2) * 128 ≤ (i 1).val ∧ (i 1).val < win1_5.index _ (1 : Fin 2) * 128 + 128
    rw [e1]; omega

/-- Result 1 of the second pallas_call: the hidden features projected through its weight matrix. -/
theorem final1_5 (c : Dev nD) :
    (dat1 V c).arrAt 5 cfg1.N = Spec.project (V c main_v82) (V c main_arg15) :=
  (dat1 V c).arrAt_eq_of_cover 5 _ (fun t _ => flushed1_5_eq V c t) cover1_5'

/-- Point `t` writes back, to result 2, block `t` of the hidden features projected through its weight matrix. -/
theorem flushed1_6_eq (c : Dev nD) (t : Fin cfg1.N) :
    (dat1 V c).flushed 6 t = ((cfg1.win 6).blk t).view.read (Elt Ideal) (Spec.project (V c main_v82) (V c main_arg17)) := by
  show (cfg1.win 6).cut (grid1.coords t) ((dat1 V c).after 6 t) = _
  rw [after1_6]
  unfold out1_6
  rw [View.canon_unit_zero Spec.hz2]
  simp only [View.ld_unit_zero (S := S2000x256) Spec.hz2, View.ld_unit_zero (S := S256x128) Spec.hz2]
  funext j
  obtain ⟨p, q, rfl⟩ : ∃ (p : Fin 2000) (q : Fin 128), j = ix2 p q := ⟨j 0, j 1, eq_ix2 j⟩
  show k1_pay4 (iblk1 V c 0 t) (iblk1 V c 3 t) (ix2 p q)
    = Spec.project (V c main_v82) (V c main_arg17) (((cfg1.win 6).blk t).view.emb (ix2 p q))
  refine (project_apply'' (iblk1 V c 0 t) (iblk1 V c 3 t) p q).trans ?_
  rw [emb1_6]
  unfold Spec.project
  refine Finset.sum_congr rfl fun k _ => ?_
  have h0 : iblk1 V c 0 t (ix2 p k) = V c main_v82 (ix2 (row1 t p) k) := congrArg (V c main_v82) (emb1_0 t p k)
  have h1 : iblk1 V c 3 t (ix2 k q) = V c main_arg17 (ix2 k q) := congrArg (V c main_arg17) (emb1_3 t k q)
  rw [h0, h1]

theorem mem_blk1_6 (t : Fin cfg1.N) (i : S100000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v83_2).slice (win1_6.rect t)).set ↔ _
  rw [View.set_slice_whole, Rect.mem_set_unit]
  exact Iff.rfl

theorem cover1_6' (i : S100000x128.Idx) : ∃ t : Fin cfg1.N, (cfg1.win 6).flush t = true ∧ i ∈ ((cfg1.win 6).blk t).view.set := by
  have hi0 : (i 0).val < 100000 := (i 0).isLt
  have hi1 : (i 1).val < 128 := (i 1).isLt
  refine ⟨⟨(i 0).val / 2000, by rw [show cfg1.N = 50 from N_1]; omega⟩, flush1_6 _, ?_⟩
  rw [mem_blk1_6]
  obtain ⟨-, -, -, -, -, -, ⟨e0, e1⟩⟩ := idx1_rows ⟨(i 0).val / 2000, by rw [show cfg1.N = 50 from N_1]; omega⟩
  intro a
  match a with
  | ⟨0, _⟩ =>
    show win1_6.index _ (0 : Fin 2) * 2000 ≤ (i 0).val ∧ (i 0).val < win1_6.index _ (0 : Fin 2) * 2000 + 2000
    rw [e0]; show (i 0).val / 2000 * 2000 ≤ (i 0).val ∧ (i 0).val < (i 0).val / 2000 * 2000 + 2000; omega
  | ⟨1, _⟩ =>
    show win1_6.index _ (1 : Fin 2) * 128 ≤ (i 1).val ∧ (i 1).val < win1_6.index _ (1 : Fin 2) * 128 + 128
    rw [e1]; omega

/-- Result 2 of the second pallas_call: the hidden features projected through its weight matrix. -/
theorem final1_6 (c : Dev nD) :
    (dat1 V c).arrAt 6 cfg1.N = Spec.project (V c main_v82) (V c main_arg17) :=
  (dat1 V c).arrAt_eq_of_cover 6 _ (fun t _ => flushed1_6_eq V c t) cover1_6'

end Cert.KernelIdeal.Val

end
-- ==== Proof.KernelIdealFinal2.lean ====
/-
  The third pallas_call's result array after its fifty grid points, as one function of the arrays the region finds.

  Point `t` writes rows 2000·t … 2000·t+1999 of the result; row `p` of its block is the combination of row
  2000·t+p of the three aggregates and of the normaliser table, and of the three bias vectors (which every point sees
  whole). The fifty blocks tile the 100000 rows, so the whole array is `Spec.combine` of the region-entry arrays.
-/
import proofs.«149725_j35570919145822_2_alg».proof.Proof.KernelIdealRegion2
import proofs.«149725_j35570919145822_2_alg».proof.Proof.KernelPayloads
import proofs.«149725_j35570919145822_2_alg».proof.Proof.LayerSpec
import Idealize.ShloMosaic.Lib.ValueIdx
import Idealize.ShloMosaic.Lib.Pipeline.Value

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Row `p` of point `t`'s block is row 2000·t + p of the array. -/
def row2 (t : Fin cfg2.N) (p : Fin 2000) : Fin 100000 :=
  ⟨2000 * t.val + p.val, by have := lt_of_lt_of_eq t.isLt N_2; omega⟩

/-! ## The block index maps, decided over the fifty points -/

theorem idx2_rows : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = t.val ∧ win2_3.index t (1 : Fin 2) = 0)
    ∧ (win2_7.index t (0 : Fin 2) = t.val ∧ win2_7.index t (1 : Fin 2) = 0)
    ∧ win2_4.index t (0 : Fin 1) = 0 ∧ win2_5.index t (0 : Fin 1) = 0 ∧ win2_6.index t (0 : Fin 1) = 0 :=
  (by decide +kernel : ∀ t : Fin grid2.N, _)

/-! ## Where a block's element sits in its array -/

theorem emb2_0 (t : Fin cfg2.N) (p : Fin 2000) (q : Fin 128) : ((cfg2.win 0).blk t).view.emb (ix2 p q) = ix2 (row2 t p) q := by
  funext a; apply Fin.ext
  obtain ⟨⟨e0, e1⟩, -⟩ := idx2_rows t
  match a with
  | ⟨0, _⟩ => show win2_0.index t (0 : Fin 2) * 2000 + 1 * p.val = 2000 * t.val + p.val; omega
  | ⟨1, _⟩ => show win2_0.index t (1 : Fin 2) * 128 + 1 * q.val = q.val; omega
theorem emb2_1 (t : Fin cfg2.N) (p : Fin 2000) (q : Fin 128) : ((cfg2.win 1).blk t).view.emb (ix2 p q) = ix2 (row2 t p) q := by
  funext a; apply Fin.ext
  obtain ⟨-, ⟨e0, e1⟩, -⟩ := idx2_rows t
  match a with
  | ⟨0, _⟩ => show win2_1.index t (0 : Fin 2) * 2000 + 1 * p.val = 2000 * t.val + p.val; omega
  | ⟨1, _⟩ => show win2_1.index t (1 : Fin 2) * 128 + 1 * q.val = q.val; omega
theorem emb2_2 (t : Fin cfg2.N) (p : Fin 2000) (q : Fin 128) : ((cfg2.win 2).blk t).view.emb (ix2 p q) = ix2 (row2 t p) q := by
  funext a; apply Fin.ext
  obtain ⟨-, -, ⟨e0, e1⟩, -⟩ := idx2_rows t
  match a with
  | ⟨0, _⟩ => show win2_2.index t (0 : Fin 2) * 2000 + 1 * p.val = 2000 * t.val + p.val; omega
  | ⟨1, _⟩ => show win2_2.index t (1 : Fin 2) * 128 + 1 * q.val = q.val; omega
theorem emb2_3 (t : Fin cfg2.N) (p : Fin 2000) (q : Fin 3) : ((cfg2.win 3).blk t).view.emb (ix2 p q) = ix2 (row2 t p) q := by
  funext a; apply Fin.ext
  obtain ⟨-, -, -, ⟨e0, e1⟩, -⟩ := idx2_rows t
  match a with
  | ⟨0, _⟩ => show win2_3.index t (0 : Fin 2) * 2000 + 1 * p.val = 2000 * t.val + p.val; omega
  | ⟨1, _⟩ => show win2_3.index t (1 : Fin 2) * 3 + 1 * q.val = q.val; omega
theorem emb2_7 (t : Fin cfg2.N) (p : Fin 2000) (q : Fin 128) : ((cfg2.win 7).blk t).view.emb (ix2 p q) = ix2 (row2 t p) q := by
  funext a; apply Fin.ext
  obtain ⟨-, -, -, -, ⟨e0, e1⟩, -⟩ := idx2_rows t
  match a with
  | ⟨0, _⟩ => show win2_7.index t (0 : Fin 2) * 2000 + 1 * p.val = 2000 * t.val + p.val; omega
  | ⟨1, _⟩ => show win2_7.index t (1 : Fin 2) * 128 + 1 * q.val = q.val; omega
theorem emb2_4 (t : Fin cfg2.N) (q : Fin 128) : ((cfg2.win 4).blk t).view.emb (ix1 q) = ix1 q := by
  funext a; apply Fin.ext
  obtain ⟨-, -, -, -, -, e0, -, -⟩ := idx2_rows t
  match a with
  | ⟨0, _⟩ => show win2_4.index t (0 : Fin 1) * 128 + 1 * q.val = q.val; omega
theorem emb2_5 (t : Fin cfg2.N) (q : Fin 128) : ((cfg2.win 5).blk t).view.emb (ix1 q) = ix1 q := by
  funext a; apply Fin.ext
  obtain ⟨-, -, -, -, -, -, e0, -⟩ := idx2_rows t
  match a with
  | ⟨0, _⟩ => show win2_5.index t (0 : Fin 1) * 128 + 1 * q.val = q.val; omega
theorem emb2_6 (t : Fin cfg2.N) (q : Fin 128) : ((cfg2.win 6).blk t).view.emb (ix1 q) = ix1 q := by
  funext a; apply Fin.ext
  obtain ⟨-, -, -, -, -, -, -, e0⟩ := idx2_rows t
  match a with
  | ⟨0, _⟩ => show win2_6.index t (0 : Fin 1) * 128 + 1 * q.val = q.val; omega

/-! ## What a point writes back -/

/-- Point `t` writes back block `t` of the combination of the region-entry arrays. -/
theorem flushed2_eq (c : Dev nD) (t : Fin cfg2.N) :
    (dat2 V c).flushed 7 t = ((cfg2.win 7).blk t).view.read (Elt Ideal)
      (Spec.combine (V c main_v96) (V c main_v109) (V c main_v122) (V c main_v42) (V c main_arg14) (V c main_arg16) (V c main_arg18)) := by
  show (cfg2.win 7).cut (grid2.coords t) ((dat2 V c).after 7 t) = _
  rw [after2_7]
  unfold out2_7
  rw [View.canon_unit_zero Spec.hz2]
  simp only [View.ld_unit_zero (S := S2000x128) Spec.hz2, View.ld_unit_zero (S := S2000x3) Spec.hz2, View.ld_unit_zero (S := S128) Spec.hz1]
  funext j
  obtain ⟨p, q, rfl⟩ : ∃ (p : Fin 2000) (q : Fin 128), j = ix2 p q := ⟨j 0, j 1, eq_ix2 j⟩
  show k2_pay1 (iblk2 V c 3 t) (iblk2 V c 0 t) (iblk2 V c 1 t) (iblk2 V c 2 t) (iblk2 V c 4 t) (iblk2 V c 5 t) (iblk2 V c 6 t) (ix2 p q)
    = Spec.combine (V c main_v96) (V c main_v109) (V c main_v122) (V c main_v42) (V c main_arg14) (V c main_arg16) (V c main_arg18)
        (((cfg2.win 7).blk t).view.emb (ix2 p q))
  refine (combine_apply (iblk2 V c 3 t) (iblk2 V c 0 t) (iblk2 V c 1 t) (iblk2 V c 2 t) (iblk2 V c 4 t) (iblk2 V c 5 t) (iblk2 V c 6 t) p q).trans ?_
  rw [emb2_7]
  have h0 : iblk2 V c 0 t (ix2 p q) = V c main_v96 (ix2 (row2 t p) q) := congrArg (V c main_v96) (emb2_0 t p q)
  have h1 : iblk2 V c 1 t (ix2 p q) = V c main_v109 (ix2 (row2 t p) q) := congrArg (V c main_v109) (emb2_1 t p q)
  have h2 : iblk2 V c 2 t (ix2 p q) = V c main_v122 (ix2 (row2 t p) q) := congrArg (V c main_v122) (emb2_2 t p q)
  have h30 : iblk2 V c 3 t (ix2 p (0 : Fin 3)) = V c main_v42 (ix2 (row2 t p) (0 : Fin 3)) := congrArg (V c main_v42) (emb2_3 t p 0)
  have h31 : iblk2 V c 3 t (ix2 p (1 : Fin 3)) = V c main_v42 (ix2 (row2 t p) (1 : Fin 3)) := congrArg (V c main_v42) (emb2_3 t p 1)
  have h32 : iblk2 V c 3 t (ix2 p (2 : Fin 3)) = V c main_v42 (ix2 (row2 t p) (2 : Fin 3)) := congrArg (V c main_v42) (emb2_3 t p 2)
  have h4 : iblk2 V c 4 t (ix1 q) = V c main_arg14 (ix1 q) := congrArg (V c main_arg14) (emb2_4 t q)
  have h5 : iblk2 V c 5 t (ix1 q) = V c main_arg16 (ix1 q) := congrArg (V c main_arg16) (emb2_5 t q)
  have h6 : iblk2 V c 6 t (ix1 q) = V c main_arg18 (ix1 q) := congrArg (V c main_arg18) (emb2_6 t q)
  rw [h0, h1, h2, h30, h31, h32, h4, h5, h6]
  rfl

/-! ## The blocks tile the array -/

theorem mem_blk2 (t : Fin cfg2.N) (i : S100000x128.Idx) :
    i ∈ ((cfg2.win 7).blk t).view.set ↔ ∀ a : Fin 2, win2_7.index t a * S2000x128.size a ≤ (i a).val ∧ (i a).val < win2_7.index t a * S2000x128.size a + S2000x128.size a := by
  show i ∈ ((View.whole main_v123).slice (win2_7.rect t)).set ↔ _
  rw [View.set_slice_whole, Rect.mem_set_unit]
  exact Iff.rfl

theorem cover2 (i : S100000x128.Idx) : ∃ t : Fin cfg2.N, (cfg2.win 7).flush t = true ∧ i ∈ ((cfg2.win 7).blk t).view.set := by
  have hi0 : (i 0).val < 100000 := (i 0).isLt
  have hi1 : (i 1).val < 128 := (i 1).isLt
  refine ⟨⟨(i 0).val / 2000, by rw [show cfg2.N = 50 from N_2]; omega⟩, flush2_7 _, ?_⟩
  rw [mem_blk2]
  obtain ⟨-, -, -, -, ⟨e0, e1⟩, -⟩ := idx2_rows ⟨(i 0).val / 2000, by rw [show cfg2.N = 50 from N_2]; omega⟩
  intro a
  match a with
  | ⟨0, _⟩ =>
    show win2_7.index _ (0 : Fin 2) * 2000 ≤ (i 0).val ∧ (i 0).val < win2_7.index _ (0 : Fin 2) * 2000 + 2000
    rw [e0]; show (i 0).val / 2000 * 2000 ≤ (i 0).val ∧ (i 0).val < (i 0).val / 2000 * 2000 + 2000; omega
  | ⟨1, _⟩ =>
    show win2_7.index _ (1 : Fin 2) * 128 ≤ (i 1).val ∧ (i 1).val < win2_7.index _ (1 : Fin 2) * 128 + 128
    rw [e1]; omega

/-- The third pallas_call's result array: the combination of the arrays the region finds. -/
theorem final2 (c : Dev nD) :
    (dat2 V c).arrAt 7 cfg2.N
      = Spec.combine (V c main_v96) (V c main_v109) (V c main_v122) (V c main_v42) (V c main_arg14) (V c main_arg16) (V c main_arg18) :=
  (dat2 V c).arrAt_eq_of_cover 7 _ (fun t _ => flushed2_eq V c t) cover2

end Cert.KernelIdeal.Val

end
-- ==== Proof.KernelIdealHostA.lean ====
/-
  What the thirteen leading host stretches leave, before the first pallas_call, in the buffers of the six degree
  normalisers and of the table of destination normalisers: each read back through the operations to the argument
  arrays.
-/
import proofs.«149725_j35570919145822_2_alg».proof.Proof.KernelIdealRun
import proofs.«149725_j35570919145822_2_alg».proof.Proof.KernelIdealSpec
import Idealize.ShloMosaic.Lib.StableHlo.Run

set_option maxRecDepth 16384

noncomputable section

namespace Cert.KernelIdeal.Val

open Cert.KernelIdeal Cert.KernelIdeal.Gen Cert.KernelIdeal.Frm
open Idealize.ShloMosaic Idealize.ShloMosaic.TcCoe Idealize.SL.Sem Idealize.ShloMosaic.StableHlo

variable (m : (ℓ : Loc nD τ sig) → Buf (Elt Ideal) ℓ)

set_option maxHeartbeats 8000000 in
theorem main_v10_eq (c : Dev nD) : X13 m c main_v10 = cnorm (m ((c : Thread nD τ).loc main_arg1)) := by
  dsimp only [X13, V13, V12, V11, V10, V9, V8, V7, V6, V5, V4, V3, V2, V1, V0]
  after_results_simp
  rfl

set_option maxHeartbeats 8000000 in
theorem main_v12_eq (c : Dev nD) : X13 m c main_v12 = cnorm (m ((c : Thread nD τ).loc main_arg2)) := by
  dsimp only [X13, V13, V12, V11, V10, V9, V8, V7, V6, V5, V4, V3, V2, V1, V0]
  after_results_simp
  rfl

set_option maxHeartbeats 8000000 in
theorem main_v23_eq (c : Dev nD) : X13 m c main_v23 = cnorm (m ((c : Thread nD τ).loc main_arg3)) := by
  dsimp only [X13, V13, V12, V11, V10, V9, V8, V7, V6, V5, V4, V3, V2, V1, V0]
  after_results_simp
  rfl

set_option maxHeartbeats 8000000 in
theorem main_v25_eq (c : Dev nD) : X13 m c main_v25 = cnorm (m ((c : Thread nD τ).loc main_arg4)) := by
  dsimp only [X13, V13, V12, V11, V10, V9, V8, V7, V6, V5, V4, V3, V2, V1, V0]
  after_results_simp
  rfl

end Cert.KernelIdeal.Val

end
-- ==== Proof.KernelIdealHostB.lean ====
/-
  What the thirteen leading host stretches leave, before the first pallas_call, in the buffers of the three
  first-layer aggregates: each read back through the operations to the argument arrays.
-/
import proofs.«149725_j35570919145822_2_alg».proof.Proof.KernelIdealRun
import proofs.«149725_j35570919145822_2_alg».proof.Proof.KernelIdealSpec
import Idealize.ShloMosaic.Lib.StableHlo.Run

set_option maxRecDepth 16384

noncomputable section

namespace Cert.KernelIdeal.Val

open Cert.KernelIdeal Cert.KernelIdeal.Gen Cert.KernelIdeal.Frm
open Idealize.ShloMosaic Idealize.ShloMosaic.TcCoe Idealize.SL.Sem Idealize.ShloMosaic.StableHlo

variable (m : (ℓ : Loc nD τ sig) → Buf (Elt Ideal) ℓ)

set_option maxHeartbeats 8000000 in
theorem main_v55_eq (c : Dev nD) : X13 m c main_v55 = agg (m ((c : Thread nD τ).loc main_arg0)) (cnorm (m ((c : Thread nD τ).loc main_arg1))) (m ((c : Thread nD τ).loc main_arg1)) (m ((c : Thread nD τ).loc main_arg2)) := by
  dsimp only [X13, V13, V12, V11, V10, V9, V8, V7, V6, V5, V4, V3, V2, V1, V0]
  after_results_simp
  rfl

set_option maxHeartbeats 8000000 in
theorem main_v68_eq (c : Dev nD) : X13 m c main_v68 = agg (m ((c : Thread nD τ).loc main_arg0)) (cnorm (m ((c : Thread nD τ).loc main_arg3))) (m ((c : Thread nD τ).loc main_arg3)) (m ((c : Thread nD τ).loc main_arg4)) := by
  dsimp only [X13, V13, V12, V11, V10, V9, V8, V7, V6, V5, V4, V3, V2, V1, V0]
  after_results_simp
  rfl

set_option maxHeartbeats 8000000 in
theorem main_v81_eq (c : Dev nD) : X13 m c main_v81 = agg (m ((c : Thread nD τ).loc main_arg0)) (cnorm (m ((c : Thread nD τ).loc main_arg5))) (m ((c : Thread nD τ).loc main_arg5)) (m ((c : Thread nD τ).loc main_arg6)) := by
  dsimp only [X13, V13, V12, V11, V10, V9, V8, V7, V6, V5, V4, V3, V2, V1, V0]
  after_results_simp
  rfl

end Cert.KernelIdeal.Val

end
-- ==== Proof.KernelIdealHostC.lean ====
/-
  What the host stretch between the second and the third pallas_call leaves in the buffers of the three second-layer
  aggregates, read back through its operations to the buffers as the second pallas_call left them.
-/
import proofs.«149725_j35570919145822_2_alg».proof.Proof.KernelIdealRun
import proofs.«149725_j35570919145822_2_alg».proof.Proof.KernelIdealSpec
import Idealize.ShloMosaic.Lib.StableHlo.Run

set_option maxRecDepth 16384

noncomputable section

namespace Cert.KernelIdeal.Val

open Cert.KernelIdeal Cert.KernelIdeal.Gen Cert.KernelIdeal.Frm
open Idealize.ShloMosaic Idealize.ShloMosaic.TcCoe Idealize.SL.Sem Idealize.ShloMosaic.StableHlo

variable (m : (ℓ : Loc nD τ sig) → Buf (Elt Ideal) ℓ)

set_option maxHeartbeats 8000000 in
theorem main_v96_eq (c : Dev nD) :
    X16 m c main_v96 = agg (X15 m c main_v83_0) (X15 m c main_v10) (X15 m c main_arg1) (X15 m c main_arg2) := by
  show StableHlo.after hostOps2 (X15 m c) (Proc.devRef .tc main_v96) = _
  after_results_simp
  rfl

set_option maxHeartbeats 8000000 in
theorem main_v109_eq (c : Dev nD) :
    X16 m c main_v109 = agg (X15 m c main_v83_1) (X15 m c main_v23) (X15 m c main_arg3) (X15 m c main_arg4) := by
  show StableHlo.after hostOps2 (X15 m c) (Proc.devRef .tc main_v109) = _
  after_results_simp
  rfl

set_option maxHeartbeats 8000000 in
theorem main_v122_eq (c : Dev nD) :
    X16 m c main_v122 = agg (X15 m c main_v83_2) (X15 m c main_v36) (X15 m c main_arg5) (X15 m c main_arg6) := by
  show StableHlo.after hostOps2 (X15 m c) (Proc.devRef .tc main_v122) = _
  after_results_simp
  rfl

end Cert.KernelIdeal.Val

end
-- ==== Proof.KernelIdealHostD.lean ====
/-
  What the thirteen leading host stretches leave, before the first pallas_call, in the buffers of two of the degree
  normalisers and of the table of destination normalisers: each read back through the operations to the argument
  arrays.
-/
import proofs.«149725_j35570919145822_2_alg».proof.Proof.KernelIdealRun
import proofs.«149725_j35570919145822_2_alg».proof.Proof.KernelIdealSpec
import Idealize.ShloMosaic.Lib.StableHlo.Run

set_option maxRecDepth 16384

noncomputable section

namespace Cert.KernelIdeal.Val

open Cert.KernelIdeal Cert.KernelIdeal.Gen Cert.KernelIdeal.Frm
open Idealize.ShloMosaic Idealize.ShloMosaic.TcCoe Idealize.SL.Sem Idealize.ShloMosaic.StableHlo

variable (m : (ℓ : Loc nD τ sig) → Buf (Elt Ideal) ℓ)

set_option maxHeartbeats 8000000 in
theorem main_v36_eq (c : Dev nD) : X13 m c main_v36 = cnorm (m ((c : Thread nD τ).loc main_arg5)) := by
  dsimp only [X13, V13, V12, V11, V10, V9, V8, V7, V6, V5, V4, V3, V2, V1, V0]
  after_results_simp
  rfl

set_option maxHeartbeats 8000000 in
theorem main_v38_eq (c : Dev nD) : X13 m c main_v38 = cnorm (m ((c : Thread nD τ).loc main_arg6)) := by
  dsimp only [X13, V13, V12, V11, V10, V9, V8, V7, V6, V5, V4, V3, V2, V1, V0]
  after_results_simp
  rfl

set_option maxHeartbeats 8000000 in
theorem main_v42_eq (c : Dev nD) : X13 m c main_v42 = cdcat (cnorm (m ((c : Thread nD τ).loc main_arg2))) (cnorm (m ((c : Thread nD τ).loc main_arg4))) (cnorm (m ((c : Thread nD τ).loc main_arg6))) := by
  dsimp only [X13, V13, V12, V11, V10, V9, V8, V7, V6, V5, V4, V3, V2, V1, V0]
  after_results_simp
  rfl

end Cert.KernelIdeal.Val

end
-- ==== Proof.KernelIdealValue.lean ====
/-
  The kernel's program at the exact reading of floats: after the run, the result array holds `kernelOut` of the
  nineteen argument arrays.

  The result array is what the third pallas_call's fifty write-backs leave: the combination of the arrays the region finds.
  Those are the second-layer aggregates, computed by the host stretch before it from the second pallas_call's
  three projections and the degree normalisers; the projections are of the first pallas_call's hidden features; and
  the hidden features are the first dense stage of the first-layer aggregates, which the thirteen leading host
  stretches compute from the arguments. Buffers a region or a stretch does not write are carried along unchanged.
-/
import proofs.«149725_j35570919145822_2_alg».proof.Proof.KernelIdealRun
import proofs.«149725_j35570919145822_2_alg».proof.Proof.KernelIdealSpec
import proofs.«149725_j35570919145822_2_alg».proof.Proof.KernelIdealFinal0
import proofs.«149725_j35570919145822_2_alg».proof.Proof.KernelIdealFinal1
import proofs.«149725_j35570919145822_2_alg».proof.Proof.KernelIdealFinal2
import proofs.«149725_j35570919145822_2_alg».proof.Proof.KernelIdealHostA
import proofs.«149725_j35570919145822_2_alg».proof.Proof.KernelIdealHostB
import proofs.«149725_j35570919145822_2_alg».proof.Proof.KernelIdealHostC
import proofs.«149725_j35570919145822_2_alg».proof.Proof.KernelIdealHostD

set_option maxRecDepth 16384

noncomputable section

namespace Cert.KernelIdeal.Val

open Cert.KernelIdeal Cert.KernelIdeal.Gen Cert.KernelIdeal.Frm
open Idealize.ShloMosaic Idealize.ShloMosaic.TcCoe Idealize.SL.Sem

variable (m : (ℓ : Loc nD τ sig) → Buf (Elt Ideal) ℓ)

/-! ## Buffers carried along unchanged -/

theorem X14_launch (c : Dev nD) (r : Ref sig .tc)
    (h0 : (∀ w, Pipeline.arrRef spec0 w ≠ r) ∨ ∃ w, (cfg0.win w).isOut = false ∧ Pipeline.arrRef spec0 w = r)
    (k0 : r ∉ hostOps0_W := by decide) (k1 : r ∉ hostOps0_1_W := by decide) (k2 : r ∉ hostOps0_2_W := by decide) (k3 : r ∉ hostOps0_3_W := by decide) (k4 : r ∉ hostOps0_4_W := by decide) (k5 : r ∉ hostOps0_5_W := by decide) (k6 : r ∉ hostOps0_6_W := by decide) (k7 : r ∉ hostOps0_7_W := by decide) (k8 : r ∉ hostOps0_8_W := by decide) (k9 : r ∉ hostOps0_9_W := by decide) (k10 : r ∉ hostOps0_10_W := by decide) (k11 : r ∉ hostOps0_11_W := by decide) (k12 : r ∉ hostOps0_12_W := by decide) :
    X14 m c (Proc.devRef .tc r) = m ((c : Thread nD τ).loc r) :=
  (X14_keep m c r h0).trans (X13_keep m c r k0 k1 k2 k3 k4 k5 k6 k7 k8 k9 k10 k11 k12)

theorem X15_launch (c : Dev nD) (r : Ref sig .tc)
    (h0 : (∀ w, Pipeline.arrRef spec0 w ≠ r) ∨ ∃ w, (cfg0.win w).isOut = false ∧ Pipeline.arrRef spec0 w = r)
    (h1 : (∀ w, Pipeline.arrRef spec1 w ≠ r) ∨ ∃ w, (cfg1.win w).isOut = false ∧ Pipeline.arrRef spec1 w = r)
    (k0 : r ∉ hostOps0_W := by decide) (k1 : r ∉ hostOps0_1_W := by decide) (k2 : r ∉ hostOps0_2_W := by decide) (k3 : r ∉ hostOps0_3_W := by decide) (k4 : r ∉ hostOps0_4_W := by decide) (k5 : r ∉ hostOps0_5_W := by decide) (k6 : r ∉ hostOps0_6_W := by decide) (k7 : r ∉ hostOps0_7_W := by decide) (k8 : r ∉ hostOps0_8_W := by decide) (k9 : r ∉ hostOps0_9_W := by decide) (k10 : r ∉ hostOps0_10_W := by decide) (k11 : r ∉ hostOps0_11_W := by decide) (k12 : r ∉ hostOps0_12_W := by decide) :
    X15 m c (Proc.devRef .tc r) = m ((c : Thread nD τ).loc r) :=
  (X15_keep m c r h1).trans (X14_launch m c r h0 k0 k1 k2 k3 k4 k5 k6 k7 k8 k9 k10 k11 k12)

theorem X16_launch (c : Dev nD) (r : Ref sig .tc)
    (h0 : (∀ w, Pipeline.arrRef spec0 w ≠ r) ∨ ∃ w, (cfg0.win w).isOut = false ∧ Pipeline.arrRef spec0 w = r)
    (h1 : (∀ w, Pipeline.arrRef spec1 w ≠ r) ∨ ∃ w, (cfg1.win w).isOut = false ∧ Pipeline.arrRef spec1 w = r)
    (hh : r ∉ hostOps2_W := by decide)
    (k0 : r ∉ hostOps0_W := by decide) (k1 : r ∉ hostOps0_1_W := by decide) (k2 : r ∉ hostOps0_2_W := by decide) (k3 : r ∉ hostOps0_3_W := by decide) (k4 : r ∉ hostOps0_4_W := by decide) (k5 : r ∉ hostOps0_5_W := by decide) (k6 : r ∉ hostOps0_6_W := by decide) (k7 : r ∉ hostOps0_7_W := by decide) (k8 : r ∉ hostOps0_8_W := by decide) (k9 : r ∉ hostOps0_9_W := by decide) (k10 : r ∉ hostOps0_10_W := by decide) (k11 : r ∉ hostOps0_11_W := by decide) (k12 : r ∉ hostOps0_12_W := by decide) :
    X16 m c (Proc.devRef .tc r) = m ((c : Thread nD τ).loc r) :=
  (X16_keep m c r hh).trans (X15_launch m c r h0 h1 k0 k1 k2 k3 k4 k5 k6 k7 k8 k9 k10 k11 k12)

/-- A buffer of the leading host stretches that neither of the first two regions stages as an output. -/
theorem X15_of_X13 (c : Dev nD) (r : Ref sig .tc)
    (h0 : (∀ w, Pipeline.arrRef spec0 w ≠ r) ∨ ∃ w, (cfg0.win w).isOut = false ∧ Pipeline.arrRef spec0 w = r)
    (h1 : (∀ w, Pipeline.arrRef spec1 w ≠ r) ∨ ∃ w, (cfg1.win w).isOut = false ∧ Pipeline.arrRef spec1 w = r) :
    X15 m c (Proc.devRef .tc r) = X13 m c (Proc.devRef .tc r) :=
  (X15_keep m c r h1).trans (X14_keep m c r h0)

/-! ## The hidden features and the projections -/

/-- After the first pallas_call the hidden-feature array holds `kernelHidden` of the arguments. -/
theorem hidden_eq (c : Dev nD) :
    X14 m c (Proc.devRef .tc main_v82)
      = kernelHidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (X14_arr m c 10).trans ?_
  rw [final0 (Y13 m) c]
  unfold kernelHidden
  have e55 : Y13 m c main_v55 = _ := main_v55_eq m c
  have e68 : Y13 m c main_v68 = _ := main_v68_eq m c
  have e81 : Y13 m c main_v81 = _ := main_v81_eq m c
  have e42 : Y13 m c main_v42 = _ := main_v42_eq m c
  have a7 : Y13 m c main_arg7 = (m ((c : Thread nD τ).loc main_arg7)) := X13_keep m c main_arg7 (by decide) (by decide) (by decide) (by decide) (by decide) (by decide) (by decide) (by decide) (by decide) (by decide) (by decide) (by decide) (by decide)
  have a9 : Y13 m c main_arg9 = (m ((c : Thread nD τ).loc main_arg9)) := X13_keep m c main_arg9 (by decide) (by decide) (by decide) (by decide) (by decide) (by decide) (by decide) (by decide) (by decide) (by decide) (by decide) (by decide) (by decide)
  have a11 : Y13 m c main_arg11 = (m ((c : Thread nD τ).loc main_arg11)) := X13_keep m c main_arg11 (by decide) (by decide) (by decide) (by decide) (by decide) (by decide) (by decide) (by decide) (by decide) (by decide) (by decide) (by decide) (by decide)
  have a8 : Y13 m c main_arg8 = (m ((c : Thread nD τ).loc main_arg8)) := X13_keep m c main_arg8 (by decide) (by decide) (by decide) (by decide) (by decide) (by decide) (by decide) (by decide) (by decide) (by decide) (by decide) (by decide) (by decide)
  have a10 : Y13 m c main_arg10 = (m ((c : Thread nD τ).loc main_arg10)) := X13_keep m c main_arg10 (by decide) (by decide) (by decide) (by decide) (by decide) (by decide) (by decide) (by decide) (by decide) (by decide) (by decide) (by decide) (by decide)
  have a12 : Y13 m c main_arg12 = (m ((c : Thread nD τ).loc main_arg12)) := X13_keep m c main_arg12 (by decide) (by decide) (by decide) (by decide) (by decide) (by decide) (by decide) (by decide) (by decide) (by decide) (by decide) (by decide) (by decide)
  rw [e55, e68, e81, e42, a7, a9, a11, a8, a10, a12]

/-- After the second pallas_call its result 0 holds the hidden features projected through argument 13. -/
theorem proj0_eq (c : Dev nD) :
    X15 m c (Proc.devRef .tc main_v83_0)
      = Spec.project (kernelHidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)))
          (m ((c : Thread nD τ).loc main_arg13)) := by
  refine (X15_arr m c 4).trans ?_
  rw [final1_4 (Y14 m) c]
  have eh : Y14 m c main_v82 = _ := hidden_eq m c
  have ew : Y14 m c main_arg13 = (m ((c : Thread nD τ).loc main_arg13)) := X14_launch m c main_arg13 (.inl (by decide))
  rw [eh, ew]

/-- After the second pallas_call its result 1 holds the hidden features projected through argument 15. -/
theorem proj1_eq (c : Dev nD) :
    X15 m c (Proc.devRef .tc main_v83_1)
      = Spec.project (kernelHidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)))
          (m ((c : Thread nD τ).loc main_arg15)) := by
  refine (X15_arr m c 5).trans ?_
  rw [final1_5 (Y14 m) c]
  have eh : Y14 m c main_v82 = _ := hidden_eq m c
  have ew : Y14 m c main_arg15 = (m ((c : Thread nD τ).loc main_arg15)) := X14_launch m c main_arg15 (.inl (by decide))
  rw [eh, ew]

/-- After the second pallas_call its result 2 holds the hidden features projected through argument 17. -/
theorem proj2_eq (c : Dev nD) :
    X15 m c (Proc.devRef .tc main_v83_2)
      = Spec.project (kernelHidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)))
          (m ((c : Thread nD τ).loc main_arg17)) := by
  refine (X15_arr m c 6).trans ?_
  rw [final1_6 (Y14 m) c]
  have eh : Y14 m c main_v82 = _ := hidden_eq m c
  have ew : Y14 m c main_arg17 = (m ((c : Thread nD τ).loc main_arg17)) := X14_launch m c main_arg17 (.inl (by decide))
  rw [eh, ew]

/-! ## The result -/

/-- After the run the result array holds `kernelOut` of the nineteen arguments. -/
theorem kernel_value (c : Dev nD) :
    X17 m c (Proc.devRef .tc main_v123) = kernelOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  refine (X17_arr m c 7).trans ?_
  rw [final2 (Y16 m) c]
  unfold kernelOut
  have e96 : Y16 m c main_v96 = _ := main_v96_eq m c
  have e109 : Y16 m c main_v109 = _ := main_v109_eq m c
  have e122 : Y16 m c main_v122 = _ := main_v122_eq m c
  have e42 : Y16 m c main_v42 = _ :=
    (X16_keep m c main_v42 (by decide)).trans ((X15_of_X13 m c main_v42 (.inr ⟨3, rfl, rfl⟩) (.inl (by decide))).trans (main_v42_eq m c))
  have a14 : Y16 m c main_arg14 = (m ((c : Thread nD τ).loc main_arg14)) := X16_launch m c main_arg14 (.inl (by decide)) (.inl (by decide))
  have a16 : Y16 m c main_arg16 = (m ((c : Thread nD τ).loc main_arg16)) := X16_launch m c main_arg16 (.inl (by decide)) (.inl (by decide))
  have a18 : Y16 m c main_arg18 = (m ((c : Thread nD τ).loc main_arg18)) := X16_launch m c main_arg18 (.inl (by decide)) (.inl (by decide))
  rw [e96, e109, e122, e42, a14, a16, a18, proj0_eq m c, proj1_eq m c, proj2_eq m c]
  have c10 : X15 m c (Proc.devRef .tc main_v10) = _ := (X15_of_X13 m c main_v10 (.inl (by decide)) (.inl (by decide))).trans (main_v10_eq m c)
  have c23 : X15 m c (Proc.devRef .tc main_v23) = _ := (X15_of_X13 m c main_v23 (.inl (by decide)) (.inl (by decide))).trans (main_v23_eq m c)
  have c36 : X15 m c (Proc.devRef .tc main_v36) = _ := (X15_of_X13 m c main_v36 (.inl (by decide)) (.inl (by decide))).trans (main_v36_eq m c)
  have s1 : X15 m c (Proc.devRef .tc main_arg1) = (m ((c : Thread nD τ).loc main_arg1)) := X15_launch m c main_arg1 (.inl (by decide)) (.inl (by decide))
  have s2 : X15 m c (Proc.devRef .tc main_arg2) = (m ((c : Thread nD τ).loc main_arg2)) := X15_launch m c main_arg2 (.inl (by decide)) (.inl (by decide))
  have s3 : X15 m c (Proc.devRef .tc main_arg3) = (m ((c : Thread nD τ).loc main_arg3)) := X15_launch m c main_arg3 (.inl (by decide)) (.inl (by decide))
  have s4 : X15 m c (Proc.devRef .tc main_arg4) = (m ((c : Thread nD τ).loc main_arg4)) := X15_launch m c main_arg4 (.inl (by decide)) (.inl (by decide))
  have s5 : X15 m c (Proc.devRef .tc main_arg5) = (m ((c : Thread nD τ).loc main_arg5)) := X15_launch m c main_arg5 (.inl (by decide)) (.inl (by decide))
  have s6 : X15 m c (Proc.devRef .tc main_arg6) = (m ((c : Thread nD τ).loc main_arg6)) := X15_launch m c main_arg6 (.inl (by decide)) (.inl (by decide))
  rw [c10, c23, c36, s1, s2, s3, s4, s5, s6]

end Cert.KernelIdeal.Val

end
-- ==== Proof.ReferenceFrame.lean ====
/-
  The reference program's frame: its run (a straight line of host operations, no kernel launch) terminates and
  leaves every argument array as launched.
-/
import proofs.«149725_j35570919145822_2_alg».proof.Defs
import proofs.«149725_j35570919145822_2_alg».proof.Proof.ReferenceRunPatched

noncomputable section

namespace Cert.Proof.Ref

open Idealize.ShloMosaic Idealize.ShloMosaic.TcCoe Idealize.SL.Sem

theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.ValueP.run (F := Ideal) m ρ)

end Cert.Proof.Ref

end
-- ==== Proof.ReferenceSpec.lean ====
/-
  The reference program as pure functions of arrays, at the exact reading of floats.

  For one relation with source indices `src` and destination indices `dst`:
  * `cnorm s` — per node, (max 1 (number of edges whose index in `s` is that node)) to the power −1/2;
  * `agg128 y src dst` / `agg256` — the rows of `y` gathered by `src` (a negative index wrapped by the number of nodes,
    then clamped), each gathered row scaled by the source normaliser gathered the same way, the scaled rows added up
    into the rows `dst` names, and row `n` of the sum scaled by the destination normaliser of `n`;
  * `conv1` / `conv2` — that aggregate times a weight matrix plus a bias vector.
  The hidden features are the three relations' first-layer convolutions summed from zero and clamped below at zero; the
  result is the three second-layer convolutions of the hidden features summed from zero.
-/
import proofs.«149725_j35570919145822_2_alg».proof.Proof.Gen.ReferenceIdeal
import Idealize.ShloMosaic.PureOps.Ideal

noncomputable section

namespace Cert.ReferenceIdeal.RefSpec

open Cert.ReferenceIdeal Cert.ReferenceIdeal.Gen
open Idealize.ShloMosaic

def colIdx (s : IVec S500000 32) : IVec S500000x1 32 := broadcastInDim S500000x1 ![0] bcast_S500000_S500000x1_0 s

def wrapIdx (s : IVec S500000 32) : IVec S500000x1 32 :=
  broadcastInDim S500000x1 ![0] bcast_S500000_S500000x1_0
    (select (cmpi .slt s (broadcastInDim S500000 ![] bcast_S_S500000 (constantI S_ 32 0#32)))
      (addi s (broadcastInDim S500000 ![] bcast_S_S500000 (constantI S_ 32 100000#32))) s)

def cnorm (s : IVec S500000 32) : FVec Ideal S100000 .f32 :=
  Host.powf (maximumf (broadcastInDim S100000 ![] bcast_S_S100000 (id (constant S_ .f32 0x3F800000#32)))
      (Host.scatterAdd scatter_S100000_S500000x1_S500000_n_0_0_1 (broadcastInDim S100000 ![] bcast_S_S100000 (constant S_ .f32 0x00000000#32))
        (colIdx s) (broadcastInDim S500000 ![] bcast_S_S500000 (constant S_ .f32 0x3F800000#32))))
    (broadcastInDim S100000 ![] bcast_S_S100000 (constant S_ .f32 0xBF000000#32))

/-- The source normaliser gathered per edge. -/
def csEdge (src : IVec S500000 32) : FVec Ideal S500000 .f32 :=
  Host.gather gather_S100000_S500000x1_S500000_n_0_n_n_0_1_1 (cnorm src) (wrapIdx src)

def agg128 (y : FVec Ideal S100000x128 .f32) (src dst : IVec S500000 32) : FVec Ideal S100000x128 .f32 :=
  mulf (Host.scatterAdd scatter_S100000x128_S500000x1_S500000x128_1_0_0_1
      (broadcastInDim S100000x128 ![] bcast_S_S100000x128 (constant S_ .f32 0x00000000#32)) (colIdx dst)
      (mulf (Host.gather gather_S100000x128_S500000x1_S500000x128_1_0_n_n_0_1_1128 y (wrapIdx src))
        (broadcastInDim S500000x128 ![0, 1] bcast_S500000x1_S500000x128_0_1 (broadcastInDim S500000x1 ![0] bcast_S500000_S500000x1_0 (csEdge src)))))
    (broadcastInDim S100000x128 ![0, 1] bcast_S100000x1_S100000x128_0_1 (broadcastInDim S100000x1 ![0] bcast_S100000_S100000x1_0 (cnorm dst)))

def agg256 (y : FVec Ideal S100000x256 .f32) (src dst : IVec S500000 32) : FVec Ideal S100000x256 .f32 :=
  mulf (Host.scatterAdd scatter_S100000x256_S500000x1_S500000x256_1_0_0_1
      (broadcastInDim S100000x256 ![] bcast_S_S100000x256 (constant S_ .f32 0x00000000#32)) (colIdx dst)
      (mulf (Host.gather gather_S100000x256_S500000x1_S500000x256_1_0_n_n_0_1_1256 y (wrapIdx src))
        (broadcastInDim S500000x256 ![0, 1] bcast_S500000x1_S500000x256_0_1 (broadcastInDim S500000x1 ![0] bcast_S500000_S500000x1_0 (csEdge src)))))
    (broadcastInDim S100000x256 ![0, 1] bcast_S100000x1_S100000x256_0_1 (broadcastInDim S100000x1 ![0] bcast_S100000_S100000x1_0 (cnorm dst)))

def conv1 (x : FVec Ideal S100000x128 .f32) (src dst : IVec S500000 32) (w : FVec Ideal S128x256 .f32) (b : FVec Ideal S256 .f32) :
    FVec Ideal S100000x256 .f32 :=
  addf (Host.dotGeneral dot_S100000x128_S128x256_S100000x256_1_0_0_1_n_n none (agg128 x src dst) w)
    (broadcastInDim S100000x256 ![0, 1] bcast_S1x256_S100000x256_0_1 (broadcastInDim S1x256 ![1] bcast_S256_S1x256_1 b))

def conv2 (h : FVec Ideal S100000x256 .f32) (src dst : IVec S500000 32) (w : FVec Ideal S256x128 .f32) (b : FVec Ideal S128 .f32) :
    FVec Ideal S100000x128 .f32 :=
  addf (Host.dotGeneral dot_S100000x256_S256x128_S100000x128_1_0_0_1_n_n none (agg256 h src dst) w)
    (broadcastInDim S100000x128 ![0, 1] bcast_S1x128_S100000x128_0_1 (broadcastInDim S1x128 ![1] bcast_S128_S1x128_1 b))

/-- The hidden features the reference computes. -/
def refHidden (x : FVec Ideal S100000x128 .f32) (sb db sr dr sj dj : IVec S500000 32)
    (w1b : FVec Ideal S128x256 .f32) (b1b : FVec Ideal S256 .f32) (w1r : FVec Ideal S128x256 .f32) (b1r : FVec Ideal S256 .f32)
    (w1j : FVec Ideal S128x256 .f32) (b1j : FVec Ideal S256 .f32) : FVec Ideal S100000x256 .f32 :=
  maximumf (addf (addf (addf (broadcastInDim S100000x256 ![] bcast_S_S100000x256 (constant S_ .f32 0x00000000#32))
      (conv1 x sb db w1b b1b)) (conv1 x sr dr w1r b1r)) (conv1 x sj dj w1j b1j))
    (broadcastInDim S100000x256 ![] bcast_S_S100000x256 (constant S_ .f32 0x00000000#32))

/-- The result the reference computes, as a function of its nineteen arguments. -/
def refOut (x : FVec Ideal S100000x128 .f32) (sb db sr dr sj dj : IVec S500000 32)
    (w1b : FVec Ideal S128x256 .f32) (b1b : FVec Ideal S256 .f32) (w1r : FVec Ideal S128x256 .f32) (b1r : FVec Ideal S256 .f32)
    (w1j : FVec Ideal S128x256 .f32) (b1j : FVec Ideal S256 .f32)
    (w2b : FVec Ideal S256x128 .f32) (b2b : FVec Ideal S128 .f32) (w2r : FVec Ideal S256x128 .f32) (b2r : FVec Ideal S128 .f32)
    (w2j : FVec Ideal S256x128 .f32) (b2j : FVec Ideal S128 .f32) : FVec Ideal S100000x128 .f32 :=
  addf (addf (addf (broadcastInDim S100000x128 ![] bcast_S_S100000x128 (constant S_ .f32 0x00000000#32))
      (conv2 (refHidden x sb db sr dr sj dj w1b b1b w1r b1r w1j b1j) sb db w2b b2b))
      (conv2 (refHidden x sb db sr dr sj dj w1b b1b w1r b1r w1j b1j) sr dr w2r b2r))
    (conv2 (refHidden x sb db sr dr sj dj w1b b1b w1r b1r w1j b1j) sj dj w2j b2j)

end Cert.ReferenceIdeal.RefSpec

end
-- ==== Proof.ReferenceValue.lean ====
/-
  The reference program at the exact reading of floats: after its run the result array holds `refOut` of the nineteen
  argument arrays. The run's composed term of the arguments is that function spelt out, operation by operation.
-/
import proofs.«149725_j35570919145822_2_alg».proof.Proof.ReferenceRunPatched
import proofs.«149725_j35570919145822_2_alg».proof.Proof.ReferenceSpec

set_option maxRecDepth 16384

noncomputable section

namespace Cert.ReferenceIdeal.RefSpec

open Cert.ReferenceIdeal Cert.ReferenceIdeal.Gen
open Idealize.ShloMosaic Idealize.ShloMosaic.TcCoe Idealize.SL.Sem

set_option maxHeartbeats 4000000 in
/-- The run's result term is `refOut` of the arguments. -/
theorem res_eq (m : (ℓ : Loc nD τ sig) → Buf (Elt Ideal) ℓ) (c : Dev nD) :
    Cert.ReferenceIdeal.ValueP.res_main_v248 m c
      = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) := by
  unfold Cert.ReferenceIdeal.ValueP.res_main_v248 refOut refHidden conv2 conv1 agg256 agg128 csEdge cnorm wrapIdx colIdx
  rfl

end Cert.ReferenceIdeal.RefSpec

end
-- ==== Proof.LibSegmentSum.lean ====
/-
  A general lemma file: the host's row gather and accumulating row scatter read at an index, and the law that joins a
  segment sum of `h[row] + u` with `count · h + segment sum of u`.

  Shapes: node table `[N, D]`, index column `[E, 1]` (one signed 32-bit row number per edge), edge table `[E, D]`,
  and for the per-node count a vector `[N]` fed by a vector `[E]`.

  * `rowGather_apply` — gathering rows of the node table by the index column: edge `e`, feature `c` reads the table
    at row `min (toNat (signed index)) (N - 1)` (a negative index reads row `0`), feature `c`.
  * `rowScatterAdd_apply` — the accumulating scatter of edge rows into the node table: node `n`, feature `c` ends at
    its old value plus the sum, over the edges whose SIGNED index is exactly `n`, of the edge's value at `c`; an
    edge whose index is negative or `≥ N` lands nowhere.
  * `vecScatterAdd_apply` — the same for a vector of per-edge numbers into a vector of per-node numbers.
  * `natCast_mul_eq_nsmul` — on the extended reals a natural number times `a` is `a` added that many times
    (also at `±∞`, where the general distributive law fails).
  * `segmentSum_self_add` — THE LAW. If the gather's index column agrees with the scatter's wherever the latter is
    non-negative, then scattering `h[gatherIdx e] + u e` is `(number of edges landing on n) · h n + scatter of u`,
    the count being the scatter of ones.
-/
import Idealize.ShloMosaic.PureOps.Ideal
import Idealize.ShloMosaic.Lib.ValueIdx

noncomputable section

open scoped BigOperators

namespace Cert.Lib.SegmentSum

open Idealize.ShloMosaic Idealize.ShloMosaic.ValueIdx

/-! ## The dimension numbers -/

/-- Row gather `[N, D]` by `[E, 1]` into `[E, D]`: axis 0 indexed and collapsed, axis 1 taken whole. -/
abbrev rowGatherDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Row scatter of `[E, D]` into `[N, D]` by `[E, 1]`: axis 0 indexed, axis 1 the update's window. -/
abbrev rowScatterDims (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- Scatter of a vector `[E]` into a vector `[N]` by `[E, 1]`: no window. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The index column's entry for edge `e`. -/
abbrev col {E : Nat} (e : Fin E) : (⟨2, ![E, 1]⟩ : Shape).Idx := ix2 e (0 : Fin 1)

/-! ## The row scatter: where an update lands -/

/-- An axis is kept exactly when it is not among the dropped ones. -/
theorem mem_kept {s : Shape} (axes : List (Fin s.rank)) (a : Fin s.rank) : a ∈ s.kept axes ↔ a ∉ axes := by
  simp [Shape.kept, List.mem_filter, List.mem_finRange]

theorem one_not_mem_zero : ¬ (1 : Fin 2) ∈ ([0] : List (Fin 2)) :=
  fun h => absurd (List.mem_singleton.1 h) (by decide)

section RowScatter
variable {N E D w : Nat} (wf : ScatterDims.WF ⟨2, ![N, D]⟩ ⟨2, ![E, 1]⟩ ⟨2, ![E, D]⟩ [1] [0] [0] 1)
  (idx : IVec ⟨2, ![E, 1]⟩ w)

theorem rowScatter_start0 (e : Fin E) (c : Fin D) :
    (rowScatterDims N E D wf).start (ix2 e c) idx 0 = (idx (col e)).toInt := by
  unfold ScatterDims.start
  rw [dif_pos (show (0 : Fin 2) ∈ (rowScatterDims N E D wf).scatterDimsToOperandDims from List.mem_singleton.mpr rfl)]
  have hsi : (rowScatterDims N E D wf).siIdx (ix2 e c) ⟨List.idxOf (0 : Fin 2) (rowScatterDims N E D wf).scatterDimsToOperandDims,
      List.idxOf_lt_length_iff.2 (List.mem_singleton.mpr rfl)⟩ = col e := by
    funext b; refine Fin.ext ?_
    match b with
    | ⟨0, _⟩ => rfl
    | ⟨1, _⟩ => rfl
  rw [hsi]

theorem rowScatter_start1 (e : Fin E) (c : Fin D) : (rowScatterDims N E D wf).start (ix2 e c) idx 1 = 0 := by
  unfold ScatterDims.start
  rw [dif_neg (show ¬ (1 : Fin 2) ∈ (rowScatterDims N E D wf).scatterDimsToOperandDims from one_not_mem_zero)]

theorem rowScatter_window0 (e : Fin E) (c : Fin D) : (rowScatterDims N E D wf).window (ix2 e c) 0 = 0 := by
  unfold ScatterDims.window
  rw [dif_neg (show ¬ (0 : Fin 2) ∈ (rowScatterDims N E D wf).sKept from
    fun h => (mem_kept _ _).1 h (List.mem_singleton.mpr rfl))]

theorem rowScatter_window1 (e : Fin E) (c : Fin D) : (rowScatterDims N E D wf).window (ix2 e c) 1 = c.val := by
  unfold ScatterDims.window
  rw [dif_pos (show (1 : Fin 2) ∈ (rowScatterDims N E D wf).sKept from (mem_kept _ _).2 one_not_mem_zero)]
  rfl

/-- Edge `e`'s value at feature `c` lands on node `n`, feature `c'` exactly when `e`'s signed index is `n` and
    `c = c'`. -/
theorem rowScatter_resultIdx?_eq_some (e : Fin E) (c : Fin D) (n : Fin N) (c' : Fin D) :
    (rowScatterDims N E D wf).resultIdx? (ix2 e c) idx = some (ix2 n c') ↔ (idx (col e)).toInt = (n.val : Int) ∧ c = c' := by
  unfold ScatterDims.resultIdx?
  split
  · rename_i h
    rw [Option.some.injEq]
    constructor
    · intro hf
      have h0 : ((rowScatterDims N E D wf).start (ix2 e c) idx 0 + ((rowScatterDims N E D wf).window (ix2 e c) 0 : Int)).toNat = n.val :=
        congrArg (fun f : (⟨2, ![N, D]⟩ : Shape).Idx => (f 0).val) hf
      have h1 : ((rowScatterDims N E D wf).start (ix2 e c) idx 1 + ((rowScatterDims N E D wf).window (ix2 e c) 1 : Int)).toNat = c'.val :=
        congrArg (fun f : (⟨2, ![N, D]⟩ : Shape).Idx => (f 1).val) hf
      have hh := (h 0).1
      rw [rowScatter_start0, rowScatter_window0] at h0 hh
      rw [rowScatter_start1, rowScatter_window1] at h1
      refine ⟨by omega, Fin.ext (by omega)⟩
    · rintro ⟨h0, rfl⟩
      funext a; refine Fin.ext ?_
      match a with
      | ⟨0, _⟩ =>
        show ((rowScatterDims N E D wf).start (ix2 e c) idx 0 + ((rowScatterDims N E D wf).window (ix2 e c) 0 : Int)).toNat = n.val
        rw [rowScatter_start0, rowScatter_window0]; omega
      | ⟨1, _⟩ =>
        show ((rowScatterDims N E D wf).start (ix2 e c) idx 1 + ((rowScatterDims N E D wf).window (ix2 e c) 1 : Int)).toNat = c.val
        rw [rowScatter_start1, rowScatter_window1]; omega
  · rename_i h
    constructor
    · intro hf; exact absurd hf (by simp)
    · rintro ⟨h0, rfl⟩
      exfalso; apply h
      intro a
      match a with
      | ⟨0, _⟩ =>
        show 0 ≤ (rowScatterDims N E D wf).start (ix2 e c) idx 0 + ((rowScatterDims N E D wf).window (ix2 e c) 0 : Int)
          ∧ (rowScatterDims N E D wf).start (ix2 e c) idx 0 + ((rowScatterDims N E D wf).window (ix2 e c) 0 : Int) < (N : Int)
        rw [rowScatter_start0, rowScatter_window0]; have := n.isLt; omega
      | ⟨1, _⟩ =>
        show 0 ≤ (rowScatterDims N E D wf).start (ix2 e c) idx 1 + ((rowScatterDims N E D wf).window (ix2 e c) 1 : Int)
          ∧ (rowScatterDims N E D wf).start (ix2 e c) idx 1 + ((rowScatterDims N E D wf).window (ix2 e c) 1 : Int) < (D : Int)
        rw [rowScatter_start1, rowScatter_window1]; have := c.isLt; omega

end RowScatter

/-! ## The accumulating row scatter read at a node and a feature -/

section RowScatterAdd
variable {N E D w : Nat} (wf : ScatterDims.WF ⟨2, ![N, D]⟩ ⟨2, ![E, 1]⟩ ⟨2, ![E, D]⟩ [1] [0] [0] 1)
  (idx : IVec ⟨2, ![E, 1]⟩ w)

/-- Node `n`, feature `c` after the accumulating scatter: the old value plus the sum over the edges whose signed
    index is `n` of the edge's value at `c`. -/
theorem rowScatterAdd_apply (x : (⟨2, ![N, D]⟩ : Shape).Idx → EReal) (upd : (⟨2, ![E, D]⟩ : Shape).Idx → EReal)
    (n : Fin N) (c : Fin D) :
    Ideal.hostScatterAdd (rowScatterDims N E D wf) x idx upd (ix2 n c)
      = x (ix2 n c) + ∑ e ∈ Finset.univ.filter (fun e : Fin E => (idx (col e)).toInt = (n.val : Int)), upd (ix2 e c) := by
  unfold Ideal.hostScatterAdd
  congr 1
  refine Finset.sum_bij' (fun j _ => (j 0 : Fin E)) (fun e _ => ix2 e c) ?_ ?_ ?_ ?_ ?_
  · intro j hj
    obtain ⟨e, c', rfl⟩ : ∃ (e : Fin E) (c' : Fin D), j = ix2 e c' := ⟨j 0, j 1, eq_ix2 j⟩
    exact Finset.mem_filter.2 ⟨Finset.mem_univ _,
      ((rowScatter_resultIdx?_eq_some wf idx e c' n c).1 (Finset.mem_filter.1 hj).2).1⟩
  · intro e he
    exact Finset.mem_filter.2 ⟨Finset.mem_univ _,
      (rowScatter_resultIdx?_eq_some wf idx e c n c).2 ⟨(Finset.mem_filter.1 he).2, rfl⟩⟩
  · intro j hj
    obtain ⟨e, c', rfl⟩ : ∃ (e : Fin E) (c' : Fin D), j = ix2 e c' := ⟨j 0, j 1, eq_ix2 j⟩
    have hc : c' = c := ((rowScatter_resultIdx?_eq_some wf idx e c' n c).1 (Finset.mem_filter.1 hj).2).2
    show ix2 e c = ix2 e c'
    rw [hc]
  · intro e _; rfl
  · intro j hj
    obtain ⟨e, c', rfl⟩ : ∃ (e : Fin E) (c' : Fin D), j = ix2 e c' := ⟨j 0, j 1, eq_ix2 j⟩
    have hc : c' = c := ((rowScatter_resultIdx?_eq_some wf idx e c' n c).1 (Finset.mem_filter.1 hj).2).2
    show upd (ix2 e c') = upd (ix2 e c)
    rw [hc]

end RowScatterAdd

/-! ## The accumulating vector scatter read at a node -/

section VecScatter
variable {N E w : Nat} (wf : ScatterDims.WF ⟨1, ![N]⟩ ⟨2, ![E, 1]⟩ ⟨1, ![E]⟩ [] [0] [0] 1)
  (idx : IVec ⟨2, ![E, 1]⟩ w)

theorem vecScatter_start (e : Fin E) : (vecScatterDims N E wf).start (ix1 e) idx 0 = (idx (col e)).toInt := by
  unfold ScatterDims.start
  rw [dif_pos (show (0 : Fin 1) ∈ (vecScatterDims N E wf).scatterDimsToOperandDims from List.mem_singleton.mpr rfl)]
  have hsi : (vecScatterDims N E wf).siIdx (ix1 e) ⟨List.idxOf (0 : Fin 1) (vecScatterDims N E wf).scatterDimsToOperandDims,
      List.idxOf_lt_length_iff.2 (List.mem_singleton.mpr rfl)⟩ = col e := by
    funext b; refine Fin.ext ?_
    match b with
    | ⟨0, _⟩ => rfl
    | ⟨1, _⟩ => rfl
  rw [hsi]

theorem vecScatter_window (e : Fin E) : (vecScatterDims N E wf).window (ix1 e) 0 = 0 := by
  unfold ScatterDims.window
  rw [dif_neg (show ¬ (0 : Fin 1) ∈ (vecScatterDims N E wf).sKept from
    fun h => (mem_kept _ _).1 h (List.mem_singleton.mpr rfl))]

/-- Edge `e`'s number lands on node `n` exactly when `e`'s signed index is `n`. -/
theorem vecScatter_resultIdx?_eq_some (e : Fin E) (n : Fin N) :
    (vecScatterDims N E wf).resultIdx? (ix1 e) idx = some (ix1 n) ↔ (idx (col e)).toInt = (n.val : Int) := by
  unfold ScatterDims.resultIdx?
  split
  · rename_i h
    rw [Option.some.injEq]
    constructor
    · intro hf
      have h0 : ((vecScatterDims N E wf).start (ix1 e) idx 0 + ((vecScatterDims N E wf).window (ix1 e) 0 : Int)).toNat = n.val :=
        congrArg (fun f : (⟨1, ![N]⟩ : Shape).Idx => (f 0).val) hf
      have hh := (h 0).1
      rw [vecScatter_start, vecScatter_window] at h0 hh
      omega
    · intro h0
      funext a; refine Fin.ext ?_
      match a with
      | ⟨0, _⟩ =>
        show ((vecScatterDims N E wf).start (ix1 e) idx 0 + ((vecScatterDims N E wf).window (ix1 e) 0 : Int)).toNat = n.val
        rw [vecScatter_start, vecScatter_window]; omega
  · rename_i h
    constructor
    · intro hf; exact absurd hf (by simp)
    · intro h0
      exfalso; apply h
      intro a
      match a with
      | ⟨0, _⟩ =>
        show 0 ≤ (vecScatterDims N E wf).start (ix1 e) idx 0 + ((vecScatterDims N E wf).window (ix1 e) 0 : Int)
          ∧ (vecScatterDims N E wf).start (ix1 e) idx 0 + ((vecScatterDims N E wf).window (ix1 e) 0 : Int) < (N : Int)
        rw [vecScatter_start, vecScatter_window]; have := n.isLt; omega

/-- Node `n` after the accumulating vector scatter: the old value plus the sum over the edges whose signed index
    is `n` of the edge's number. -/
theorem vecScatterAdd_apply (x : (⟨1, ![N]⟩ : Shape).Idx → EReal) (upd : (⟨1, ![E]⟩ : Shape).Idx → EReal) (n : Fin N) :
    Ideal.hostScatterAdd (vecScatterDims N E wf) x idx upd (ix1 n)
      = x (ix1 n) + ∑ e ∈ Finset.univ.filter (fun e : Fin E => (idx (col e)).toInt = (n.val : Int)), upd (ix1 e) := by
  unfold Ideal.hostScatterAdd
  congr 1
  refine Finset.sum_bij' (fun j _ => (j 0 : Fin E)) (fun e _ => ix1 e) ?_ ?_ ?_ ?_ ?_
  · intro j hj
    obtain ⟨e, rfl⟩ : ∃ e : Fin E, j = ix1 e := ⟨j 0, eq_ix1 j⟩
    exact Finset.mem_filter.2 ⟨Finset.mem_univ _,
      (vecScatter_resultIdx?_eq_some wf idx e n).1 (Finset.mem_filter.1 hj).2⟩
  · intro e he
    exact Finset.mem_filter.2 ⟨Finset.mem_univ _,
      (vecScatter_resultIdx?_eq_some wf idx e n).2 (Finset.mem_filter.1 he).2⟩
  · intro j _
    obtain ⟨e, rfl⟩ : ∃ e : Fin E, j = ix1 e := ⟨j 0, eq_ix1 j⟩
    rfl
  · intro e _; rfl
  · intro j _
    obtain ⟨e, rfl⟩ : ∃ e : Fin E, j = ix1 e := ⟨j 0, eq_ix1 j⟩
    rfl

end VecScatter

/-! ## The row gather read at an edge and a feature -/

section RowGather
variable {α : Type} {N E D w : Nat}
  (wf : GatherDims.WF ⟨2, ![N, D]⟩ ⟨2, ![E, 1]⟩ ⟨2, ![E, D]⟩ [1] [0] [] [0] [] 1 ![1, D])

/-- Edge `e`, feature `c` of the gathered table: the node table at the row the index column names for `e`, read
    signed and clamped into `[0, N − 1]`, at feature `c`. -/
theorem rowGather_apply (hN : 0 < N) (x : (⟨2, ![N, D]⟩ : Shape).Idx → α) (idx : IVec ⟨2, ![E, 1]⟩ w) (e : Fin E) (c : Fin D) :
    Host.gather (rowGatherDims N E D wf) x idx (ix2 e c)
      = x (ix2 (⟨min (idx (col e)).toInt.toNat (N - 1), by omega⟩ : Fin N) c) := by
  unfold Host.gather
  congr 1
  funext a
  refine Fin.ext ?_
  match a with
  | ⟨0, _⟩ =>
    show (rowGatherDims N E D wf).start (ix2 e c) idx 0 + (rowGatherDims N E D wf).batchCoord (ix2 e c) 0
      + (rowGatherDims N E D wf).offCoord (ix2 e c) 0 = min (idx (col e)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E D wf).startIndexMap from List.mem_singleton.mpr rfl)]
    have hsi : (rowGatherDims N E D wf).siIdx (ix2 e c) ⟨List.idxOf (0 : Fin 2) (rowGatherDims N E D wf).startIndexMap,
        List.idxOf_lt_length_iff.2 (List.mem_singleton.mpr rfl)⟩ = col e := by
      funext b; refine Fin.ext ?_
      match b with
      | ⟨0, _⟩ => rfl
      | ⟨1, _⟩ => rfl
    rw [hsi]
    rfl
  | ⟨1, _⟩ =>
    show (rowGatherDims N E D wf).start (ix2 e c) idx 1 + (rowGatherDims N E D wf).batchCoord (ix2 e c) 1
      + (rowGatherDims N E D wf).offCoord (ix2 e c) 1 = c.val
    rw [GatherDims.batchCoord_eq_zero _ _ _ List.not_mem_nil]
    have hs : (rowGatherDims N E D wf).start (ix2 e c) idx 1 = 0 := by
      unfold GatherDims.start
      rw [dif_neg (show ¬ (1 : Fin 2) ∈ (rowGatherDims N E D wf).startIndexMap from one_not_mem_zero)]
    have ho : (rowGatherDims N E D wf).offCoord (ix2 e c) 1 = c.val := by
      unfold GatherDims.offCoord
      rw [dif_pos (show (1 : Fin 2) ∈ (rowGatherDims N E D wf).sKept from
        (GatherDims.mem_sKept _ _).2 ⟨one_not_mem_zero, List.not_mem_nil⟩)]
      rfl
    rw [hs, ho]; omega

end RowGather

/-! ## A natural number of copies on the extended reals -/

/-- On the extended reals `k · a` is `a` added `k` times, for every `a`, infinite ones included: `k` and `1` are
    non-negative, and the distributive law holds for non-negative left factors. -/
theorem natCast_mul_eq_nsmul (k : ℕ) (a : EReal) : (k : EReal) * a = k • a := by
  induction k with
  | zero => simp
  | succ k ih =>
    have hk : (0 : EReal) ≤ (k : EReal) := by exact_mod_cast Nat.zero_le k
    rw [Nat.cast_succ, EReal.right_distrib_of_nonneg hk zero_le_one, ih, one_mul, succ_nsmul]

/-! ## The law -/

/-- THE LAW. Scatter, by the index column `sIdx`, the edge values `h[gIdx e] + u e` into a zero table. If `gIdx`
    agrees with `sIdx` wherever `sIdx` is non-negative, the result at node `n`, feature `c` is
    `(scatter of ones at n) · h n c + (scatter of u at n c)`: an edge that lands on `n` has signed index `n ≥ 0`, so its
    gathered row is row `n` itself; the sum of the constant `h n c` over those edges is their number times `h n c`. -/
theorem segmentSum_self_add {N E D w : Nat} (hN : 0 < N)
    (wfG : GatherDims.WF ⟨2, ![N, D]⟩ ⟨2, ![E, 1]⟩ ⟨2, ![E, D]⟩ [1] [0] [] [0] [] 1 ![1, D])
    (wfS : ScatterDims.WF ⟨2, ![N, D]⟩ ⟨2, ![E, 1]⟩ ⟨2, ![E, D]⟩ [1] [0] [0] 1)
    (wfV : ScatterDims.WF ⟨1, ![N]⟩ ⟨2, ![E, 1]⟩ ⟨1, ![E]⟩ [] [0] [0] 1)
    (h : (⟨2, ![N, D]⟩ : Shape).Idx → EReal) (u : (⟨2, ![E, D]⟩ : Shape).Idx → EReal)
    (sIdx gIdx : IVec ⟨2, ![E, 1]⟩ w)
    (hagree : ∀ e : Fin E, 0 ≤ (sIdx (col e)).toInt → gIdx (col e) = sIdx (col e))
    (n : Fin N) (c : Fin D) :
    Ideal.hostScatterAdd (rowScatterDims N E D wfS) (fun _ => 0) sIdx
        (fun j => Host.gather (rowGatherDims N E D wfG) h gIdx j + u j) (ix2 n c)
      = Ideal.hostScatterAdd (vecScatterDims N E wfV) (fun _ => 0) sIdx (fun _ => 1) (ix1 n) * h (ix2 n c)
        + Ideal.hostScatterAdd (rowScatterDims N E D wfS) (fun _ => 0) sIdx u (ix2 n c) := by
  rw [rowScatterAdd_apply, rowScatterAdd_apply, vecScatterAdd_apply]
  simp only [zero_add]
  have hg : ∀ e ∈ Finset.univ.filter (fun e : Fin E => (sIdx (col e)).toInt = (n.val : Int)),
      Host.gather (rowGatherDims N E D wfG) h gIdx (ix2 e c) + u (ix2 e c) = h (ix2 n c) + u (ix2 e c) := by
    intro e he
    have hs : (sIdx (col e)).toInt = (n.val : Int) := (Finset.mem_filter.1 he).2
    have hrow : (⟨min (gIdx (col e)).toInt.toNat (N - 1), by omega⟩ : Fin N) = n := by
      refine Fin.ext ?_
      show min (gIdx (col e)).toInt.toNat (N - 1) = n.val
      rw [hagree e (by omega)]
      have := n.isLt; omega
    rw [rowGather_apply wfG hN, hrow]
  rw [Finset.sum_congr rfl hg, Finset.sum_add_distrib, Finset.sum_const, Finset.sum_const, nsmul_one,
    natCast_mul_eq_nsmul]

/-! ## The wrapped index of a non-negative index is the index itself -/

/-- `x[i]` is lowered with `i < 0 ? i + N : i` in front of the gather; on a non-negative `i` that is `i`. -/
theorem select_slt_zero_of_nonneg (a b : BitVec 32) (h : 0 ≤ a.toInt) :
    Scalar.select (IntOp.cmpi .slt a 0#32) b a = a := by
  have hs : a.slt 0#32 = false := by
    simp only [BitVec.slt, BitVec.toInt_zero, decide_eq_false_iff_not, not_lt]; exact h
  unfold Scalar.select IntOp.cmpi
  simp [hs]

end Cert.Lib.SegmentSum

end
-- ==== Proof.LibRowOps.lean ====
/-
  Rows picked by an integer array: the two StableHLO forms that `x[idx]` and `segment_sum(v, idx)` lower to when
  `idx` is a flat list of M row numbers laid out as an [M, 1] array of start indices.

  * A GATHER of whole rows: of a vector [N] (result [M]) and of a matrix [N, C] (result [M, C]). Result row `e` is
    the operand's row number `idx[e, 0]`, the number read as a signed integer and clamped into [0, N − 1].
  * An accumulating SCATTER of rows into a matrix [N, C] from updates [M, C]: update element (e, f) is added to
    operand element (idx[e, 0], f), the number read signed and NOT clamped; an update whose row number falls outside
    [0, N) is dropped. At the exact reading of floats the result element is the operand element plus the finite sum of
    the update elements that land on it, so multiplying every landing update by a number that depends only on the
    landing row is multiplying the sum by it — provided that number is a nonnegative real, which is what lets a product
    distribute over a sum of extended reals.
-/
import Idealize.ShloMosaic.PureOps.Ideal
import Idealize.ShloMosaic.Lib.ValueIdx

noncomputable section

open scoped BigOperators

namespace Cert.Lib.RowOps

open Idealize.ShloMosaic Idealize.ShloMosaic.ValueIdx

/-! ## The dimension numbers -/

/-- Gather of entries of a vector [N] at start indices [M, 1]: the one operand axis collapsed, the start index's
    one component naming it, the index vector on axis 1. -/
abbrev gatherRows1 (N M : Nat)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- Gather of whole rows of a matrix [N, C] at start indices [M, 1]: the row axis collapsed and named by the start
    index, the column axis an offset axis of full extent. -/
abbrev gatherRows2 (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- Scatter of rows [M, C] into a matrix [N, C] at scatter indices [M, 1]: the row axis inserted and named by the
    index, the column axis a window axis. -/
abbrev scatterRows2 (N M C : Nat)
    (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- The place of row number `e` in the [M, 1] array of indices. -/
abbrev at0 {M : Nat} (e : Fin M) : (⟨2, ![M, 1]⟩ : Shape).Idx := ix2 e (0 : Fin 1)

/-! ## The gathers read at an index -/

/-- Entry `e` of the gathered vector is the operand at the start index read signed and clamped into [0, N − 1]. -/
theorem gatherRows1_apply {α : Type} {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (gatherRows1 N M wf) x idx (ix1 e)
      = x (ix1 ⟨min (idx (at0 e)).toInt.toNat (N - 1), by omega⟩) := by
  -- the operand index has one coordinate: the clamped start, with no batching and no offset part
  unfold Host.gather
  congr 1
  funext a
  obtain rfl : a = 0 := Subsingleton.elim _ _
  refine Fin.ext ?_
  show (gatherRows1 N M wf).start (ix1 e) idx 0 + (gatherRows1 N M wf).batchCoord (ix1 e) 0
    + (gatherRows1 N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherRows1 N M wf).startIndexMap from List.mem_singleton.mpr rfl)]
  have hsi : (gatherRows1 N M wf).siIdx (ix1 e) ⟨List.idxOf (0 : Fin 1) (gatherRows1 N M wf).startIndexMap,
      List.idxOf_lt_length_iff.2 (List.mem_singleton.mpr rfl)⟩ = at0 e := by
    funext b; refine Fin.ext ?_
    match b with
    | ⟨0, _⟩ => rfl
    | ⟨1, _⟩ => rfl
  rw [hsi]
  rfl

/-- Element (e, f) of the gathered matrix is the operand's element in column `f` of the row the start index names,
    read signed and clamped into [0, N − 1]. -/
theorem gatherRows2_apply {α : Type} {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (f : Fin C) :
    Host.gather (gatherRows2 N M C wf) x idx (ix2 e f)
      = x (ix2 ⟨min (idx (at0 e)).toInt.toNat (N - 1), by omega⟩ f) := by
  unfold Host.gather
  congr 1
  funext a
  refine Fin.ext ?_
  match a with
  -- row axis: the clamped start alone; column axis: start 0 plus the offset coordinate f
  | ⟨0, _⟩ =>
    show (gatherRows2 N M C wf).start (ix2 e f) idx 0 + (gatherRows2 N M C wf).batchCoord (ix2 e f) 0
      + (gatherRows2 N M C wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRows2 N M C wf).startIndexMap from List.mem_singleton.mpr rfl)]
    have hsi : (gatherRows2 N M C wf).siIdx (ix2 e f) ⟨List.idxOf (0 : Fin 2) (gatherRows2 N M C wf).startIndexMap,
        List.idxOf_lt_length_iff.2 (List.mem_singleton.mpr rfl)⟩ = at0 e := by
      funext b; refine Fin.ext ?_
      match b with
      | ⟨0, _⟩ => rfl
      | ⟨1, _⟩ => rfl
    rw [hsi]
    rfl
  | ⟨1, _⟩ =>
    show (gatherRows2 N M C wf).start (ix2 e f) idx 1 + (gatherRows2 N M C wf).batchCoord (ix2 e f) 1
      + (gatherRows2 N M C wf).offCoord (ix2 e f) 1 = f.val
    rw [GatherDims.batchCoord_eq_zero _ _ _ List.not_mem_nil]
    unfold GatherDims.start
    rw [dif_neg (show (1 : Fin 2) ∉ (gatherRows2 N M C wf).startIndexMap from
      (by decide : (1 : Fin 2) ∉ ([0] : List (Fin 2))))]
    simp only [Nat.add_zero, Nat.zero_add]
    unfold GatherDims.offCoord
    rw [dif_pos (show (1 : Fin 2) ∈ (gatherRows2 N M C wf).sKept from
      (GatherDims.mem_sKept _ _).mpr ⟨(by decide : (1 : Fin 2) ∉ ([0] : List (Fin 2))), List.not_mem_nil⟩)]
    rfl

/-! ## Where an update lands -/

/-- Update element (e, f) lands on operand element (i, f') exactly when the index of row `e`, read signed, is `i`
    and the columns agree. -/
theorem scatterRows2_lands {N M C w : Nat}
    (wf : ScatterDims.WF ⟨2, ![N, C]⟩ ⟨2, ![M, 1]⟩ ⟨2, ![M, C]⟩ [1] [0] [0] 1)
    (idx : IVec ⟨2, ![M, 1]⟩ w) (e : Fin M) (f : Fin C) (i : Fin N) (f' : Fin C) :
    (scatterRows2 N M C wf).resultIdx? (ix2 e f) idx = some (ix2 i f')
      ↔ (idx (at0 e)).toInt = (i.val : Int) ∧ f = f' := by
  -- on the row axis: start = the signed index, window = 0; on the column axis: start = 0, window = f
  have h00 : (scatterRows2 N M C wf).start (ix2 e f) idx 0 = (idx (at0 e)).toInt := by
    unfold ScatterDims.start
    rw [dif_pos (show (0 : Fin 2) ∈ (scatterRows2 N M C wf).scatterDimsToOperandDims from List.mem_singleton.mpr rfl)]
    have hsi : (scatterRows2 N M C wf).siIdx (ix2 e f) ⟨List.idxOf (0 : Fin 2) (scatterRows2 N M C wf).scatterDimsToOperandDims,
        List.idxOf_lt_length_iff.2 (List.mem_singleton.mpr rfl)⟩ = at0 e := by
      funext b; refine Fin.ext ?_
      match b with
      | ⟨0, _⟩ => rfl
      | ⟨1, _⟩ => rfl
    rw [hsi]
  have hw0 : (scatterRows2 N M C wf).window (ix2 e f) 0 = 0 := by
    unfold ScatterDims.window
    rw [dif_neg (show (0 : Fin 2) ∉ (scatterRows2 N M C wf).sKept from
      (by decide : (0 : Fin 2) ∉ (List.finRange 2).filter (fun a => a ∉ ([0] : List (Fin 2)))))]
  have hs1 : (scatterRows2 N M C wf).start (ix2 e f) idx 1 = 0 := by
    unfold ScatterDims.start
    rw [dif_neg (show (1 : Fin 2) ∉ (scatterRows2 N M C wf).scatterDimsToOperandDims from
      (by decide : (1 : Fin 2) ∉ ([0] : List (Fin 2))))]
  have hw1 : (scatterRows2 N M C wf).window (ix2 e f) 1 = f.val := by
    unfold ScatterDims.window
    rw [dif_pos (show (1 : Fin 2) ∈ (scatterRows2 N M C wf).sKept from
      (by decide : (1 : Fin 2) ∈ (List.finRange 2).filter (fun a => a ∉ ([0] : List (Fin 2)))))]
    rfl
  unfold ScatterDims.resultIdx?
  split
  · rename_i h
    rw [Option.some.injEq]
    constructor
    · intro hg
      have g0 : ((scatterRows2 N M C wf).start (ix2 e f) idx 0 + ((scatterRows2 N M C wf).window (ix2 e f) 0 : ℕ)).toNat = i.val := congrArg Fin.val (congrFun hg 0)
      have g1 : ((scatterRows2 N M C wf).start (ix2 e f) idx 1 + ((scatterRows2 N M C wf).window (ix2 e f) 1 : ℕ)).toNat = f'.val := congrArg Fin.val (congrFun hg 1)
      have k0 := (h 0).1
      rw [h00, hw0] at g0 k0
      rw [hs1, hw1] at g1
      exact ⟨by omega, Fin.ext (by omega)⟩
    · rintro ⟨hi, rfl⟩
      funext a
      refine Fin.ext ?_
      match a with
      | ⟨0, _⟩ =>
        show ((scatterRows2 N M C wf).start (ix2 e f) idx 0 + ((scatterRows2 N M C wf).window (ix2 e f) 0 : ℕ)).toNat = i.val
        rw [h00, hw0]; omega
      | ⟨1, _⟩ =>
        show ((scatterRows2 N M C wf).start (ix2 e f) idx 1 + ((scatterRows2 N M C wf).window (ix2 e f) 1 : ℕ)).toNat = f.val
        rw [hs1, hw1]; omega
  · rename_i h
    constructor
    · intro hg; cases hg
    · rintro ⟨hi, rfl⟩
      exfalso; apply h
      intro a
      match a with
      | ⟨0, _⟩ =>
        show 0 ≤ (scatterRows2 N M C wf).start (ix2 e f) idx 0 + ((scatterRows2 N M C wf).window (ix2 e f) 0 : ℕ) ∧ (scatterRows2 N M C wf).start (ix2 e f) idx 0 + ((scatterRows2 N M C wf).window (ix2 e f) 0 : ℕ) < (N : ℤ)
        rw [h00, hw0]; have := i.isLt; omega
      | ⟨1, _⟩ =>
        show 0 ≤ (scatterRows2 N M C wf).start (ix2 e f) idx 1 + ((scatterRows2 N M C wf).window (ix2 e f) 1 : ℕ) ∧ (scatterRows2 N M C wf).start (ix2 e f) idx 1 + ((scatterRows2 N M C wf).window (ix2 e f) 1 : ℕ) < (C : ℤ)
        rw [hs1, hw1]; have := f.isLt; omega

/-! ## Scaling the rows that land -/

/-- A finite sum of extended reals times a nonnegative real is the sum of the products. -/
theorem sum_mul_of_nonneg_ne_top {ι : Type} (s : Finset ι) (a : ι → EReal) {c : EReal} (h0 : 0 ≤ c) (ht : c ≠ ⊤) :
    (∑ j ∈ s, a j) * c = ∑ j ∈ s, a j * c := by
  classical
  induction s using Finset.induction_on with
  | empty => rw [Finset.sum_empty, Finset.sum_empty, zero_mul]
  | insert j s hj ih =>
    rw [Finset.sum_insert hj, Finset.sum_insert hj, EReal.right_distrib_of_nonneg_of_ne_top h0 ht, ih]

/-- THE LAW. Scatter-add rows into a zero matrix and then scale result row `i` by `c i`; or scale every update
    row by `c` gathered at the (wrapped, clamped) index of the row it lands on, and then scatter-add: the same matrix,
    when every `c i` is a nonnegative real and the gather's indices `idxG` agree with the scatter's `idxS` wherever
    the latter is not negative (a gather clamps and a scatter drops, so only rows that land matter). -/
theorem scatterRows2_scale {N M C : Nat} (hN : 0 < N)
    (wfS : ScatterDims.WF ⟨2, ![N, C]⟩ ⟨2, ![M, 1]⟩ ⟨2, ![M, C]⟩ [1] [0] [0] 1)
    (wfG : GatherDims.WF ⟨1, ![N]⟩ ⟨2, ![M, 1]⟩ ⟨1, ![M]⟩ [] [0] [] [0] [] 1 ![1])
    (c : (⟨1, ![N]⟩ : Shape).Idx → EReal) (hc : ∀ i, 0 ≤ c i ∧ c i ≠ ⊤)
    (idxS idxG : IVec ⟨2, ![M, 1]⟩ 32)
    (hidx : ∀ e : Fin M, 0 ≤ (idxS (at0 e)).toInt → idxG (at0 e) = idxS (at0 e))
    (a : (⟨2, ![M, C]⟩ : Shape).Idx → EReal) (i : (⟨2, ![N, C]⟩ : Shape).Idx) :
    Ideal.hostScatterAdd (scatterRows2 N M C wfS) (fun _ => 0) idxS a i * c (ix1 (i 0))
      = Ideal.hostScatterAdd (scatterRows2 N M C wfS) (fun _ => 0) idxS
          (fun j => a j * Host.gather (gatherRows1 N M wfG) c idxG (ix1 (j 0))) i := by
  obtain ⟨i0, f', rfl⟩ : ∃ (i0 : Fin N) (f' : Fin C), i = ix2 i0 f' := ⟨i 0, i 1, eq_ix2 i⟩
  unfold Ideal.hostScatterAdd
  simp only [zero_add]
  rw [sum_mul_of_nonneg_ne_top _ _ (hc _).1 (hc _).2]
  -- term by term: an update that lands on row i0 has signed index i0, so its gathered factor is c i0
  refine Finset.sum_congr rfl ?_
  intro j hj
  obtain ⟨e, f, rfl⟩ : ∃ (e : Fin M) (f : Fin C), j = ix2 e f := ⟨j 0, j 1, eq_ix2 j⟩
  have hl := (scatterRows2_lands wfS idxS e f i0 f').mp (Finset.mem_filter.mp hj).2
  have hnn : 0 ≤ (idxS (at0 e)).toInt := by rw [hl.1]; exact Int.natCast_nonneg _
  have hG := hidx e hnn
  have hi0 : (⟨min (idxG (at0 e)).toInt.toNat (N - 1), by omega⟩ : Fin N) = i0 :=
    Fin.ext (by
      have h1 := i0.isLt
      have h2 := hl.1
      show min (idxG (at0 e)).toInt.toNat (N - 1) = i0.val
      rw [hG]; omega)
  show a (ix2 e f) * c (ix1 i0) = a (ix2 e f) * Host.gather (gatherRows1 N M wfG) c idxG (ix1 e)
  rw [gatherRows1_apply hN wfG c idxG e, hi0]

end Cert.Lib.RowOps

end
-- ==== Proof.LibRealSums.lean ====
/-
  A general lemma file: extended reals that are real numbers, and two laws of finite sums that need them.

  * `IsReal a` — the extended real `a` is (the image of) a real number. Sums, products, maxima, real powers and
    finite sums of such are such.
  * `sum_segment_mul` — THE LAW. Let `S` be a finite set of edges, `h e k` a real number per edge and feature, `s e`
    a real scale per edge, `d` a real scale and `w k` a real weight per feature. Summing the edges first, scaling, and
    then contracting the features with `w` is contracting each edge's features with `w` first, then summing the
    edges and scaling:
      Σ_k ((0 + Σ_{e∈S} h e k · s e) · d) · w k  =  (0 + Σ_{e∈S} (Σ_k h e k · w k) · s e) · d.
    On the extended reals this needs every factor real: a negative weight does not distribute over a sum that holds
    both infinities.
  * `add3_rearrange` — three sums of a product term and a bias term, accumulated from zero, are the three product terms
    plus the three bias terms (commutativity and associativity only; true of all extended reals).
-/
import Mathlib.Data.EReal.Operations
import Mathlib.Analysis.SpecialFunctions.Pow.Real
import Mathlib.Algebra.BigOperators.Ring.Finset
import Mathlib.Tactic.Ring
import Mathlib.Tactic.Abel

open scoped BigOperators

namespace Cert.Lib.RealSums

/-- An extended real that is a real number. -/
def IsReal (a : EReal) : Prop := ∃ r : ℝ, a = (r : EReal)

theorem isReal_coe (r : ℝ) : IsReal (r : EReal) := ⟨r, rfl⟩
theorem isReal_zero : IsReal 0 := ⟨0, rfl⟩
theorem isReal_one : IsReal 1 := ⟨1, rfl⟩

theorem IsReal.add {a b : EReal} (ha : IsReal a) (hb : IsReal b) : IsReal (a + b) := by
  obtain ⟨x, rfl⟩ := ha; obtain ⟨y, rfl⟩ := hb; exact ⟨x + y, (EReal.coe_add x y).symm⟩

theorem IsReal.mul {a b : EReal} (ha : IsReal a) (hb : IsReal b) : IsReal (a * b) := by
  obtain ⟨x, rfl⟩ := ha; obtain ⟨y, rfl⟩ := hb; exact ⟨x * y, (EReal.coe_mul x y).symm⟩

theorem IsReal.max {a b : EReal} (ha : IsReal a) (hb : IsReal b) : IsReal (max a b) := by
  rcases max_choice a b with h | h <;> rw [h] <;> assumption

theorem IsReal.sum {ι : Type} (s : Finset ι) (f : ι → EReal) (hf : ∀ i ∈ s, IsReal (f i)) : IsReal (∑ i ∈ s, f i) := by
  classical
  induction s using Finset.induction_on with
  | empty => rw [Finset.sum_empty]; exact isReal_zero
  | insert i s hi ih =>
    rw [Finset.sum_insert hi]
    exact (hf i (Finset.mem_insert_self i s)).add (ih fun j hj => hf j (Finset.mem_insert_of_mem hj))

/-- The image of a finite sum of reals is the sum of the images. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- THE LAW (see the header). -/
theorem sum_segment_mul {ι κ : Type} [Fintype κ] (S : Finset ι) (h : ι → κ → EReal) (s : ι → EReal) (d : EReal) (w : κ → EReal)
    (hh : ∀ e k, IsReal (h e k)) (hs : ∀ e, IsReal (s e)) (hd : IsReal d) (hw : ∀ k, IsReal (w k)) :
    ∑ k, ((0 + ∑ e ∈ S, h e k * s e) * d) * w k = (0 + ∑ e ∈ S, (∑ k, h e k * w k) * s e) * d := by
  choose H hH using hh
  choose sR hsR using hs
  obtain ⟨dR, rfl⟩ := hd
  choose wR hwR using hw
  have hreal : ∑ k, ((∑ e ∈ S, H e k * sR e) * dR) * wR k = (∑ e ∈ S, (∑ k, H e k * wR k) * sR e) * dR := by
    simp only [Finset.sum_mul]
    rw [Finset.sum_comm]
    refine Finset.sum_congr rfl fun e _ => Finset.sum_congr rfl fun k _ => by ring
  simp only [zero_add, hH, hsR, hwR, ← EReal.coe_mul, ← coe_sum]
  exact congrArg _ hreal

/-- Three (product + bias) terms accumulated from zero: the products first, then the biases. -/
theorem add3_rearrange (A B C x y z : EReal) : ((0 + (A + x)) + (B + y)) + (C + z) = ((A + B) + C) + ((x + y) + z) := by
  rw [zero_add]; abel

end Cert.Lib.RealSums
-- ==== Proof.HostOpsAt.lean ====
/-
  The host's layout operations of this program read at an index: an index vector laid out as a column, a per-row number
  repeated along a row, a bias vector repeated down the rows, a scalar repeated everywhere, and three columns set
  side by side.
-/
import Idealize.ShloMosaic.PureOps.Ideal
import Idealize.ShloMosaic.Lib.ValueIdx
import Idealize.ShloMosaic.Lib.Pipeline.Value

noncomputable section

namespace Cert.HostAt

open Idealize.ShloMosaic Idealize.ShloMosaic.ValueIdx

variable {α : Type}

/-- A vector [E] laid out as a column [E, 1]: entry (e, 0) is entry e. -/
theorem column_apply {E : ℕ} (h : (⟨1, ![E]⟩ : Shape).BroadcastsInDim ⟨2, ![E, 1]⟩ ![0]) (s : (⟨1, ![E]⟩ : Shape).Idx → α)
    (e : Fin E) (u : Fin 1) : broadcastInDim ⟨2, ![E, 1]⟩ ![0] h s (ix2 e u) = s (ix1 e) := by
  refine broadcastInDim_apply ![0] h s (ix2 e u) (ix1 e) fun a => ?_
  match a with
  | ⟨0, _⟩ =>
    show e.val = if E = 1 then 0 else e.val
    split
    · have := e.isLt; omega
    · rfl

/-- A column [E, 1] repeated along rows of length D: entry (e, k) is entry (e, 0). -/
theorem alongRow_apply {E D : ℕ} (h : (⟨2, ![E, 1]⟩ : Shape).BroadcastsInDim ⟨2, ![E, D]⟩ ![0, 1]) (v : (⟨2, ![E, 1]⟩ : Shape).Idx → α)
    (e : Fin E) (k : Fin D) : broadcastInDim ⟨2, ![E, D]⟩ ![0, 1] h v (ix2 e k) = v (ix2 e (0 : Fin 1)) := by
  refine broadcastInDim_apply ![0, 1] h v (ix2 e k) (ix2 e (0 : Fin 1)) fun a => ?_
  match a with
  | ⟨0, _⟩ =>
    show e.val = if E = 1 then 0 else e.val
    split
    · have := e.isLt; omega
    · rfl
  | ⟨1, _⟩ => rfl

/-- A per-row number [E] repeated along rows of length D through a column: entry (e, k) is entry e. -/
theorem rowNumber_apply {E D : ℕ} (h1 : (⟨1, ![E]⟩ : Shape).BroadcastsInDim ⟨2, ![E, 1]⟩ ![0])
    (h2 : (⟨2, ![E, 1]⟩ : Shape).BroadcastsInDim ⟨2, ![E, D]⟩ ![0, 1]) (s : (⟨1, ![E]⟩ : Shape).Idx → α) (e : Fin E) (k : Fin D) :
    broadcastInDim ⟨2, ![E, D]⟩ ![0, 1] h2 (broadcastInDim ⟨2, ![E, 1]⟩ ![0] h1 s) (ix2 e k) = s (ix1 e) :=
  (alongRow_apply h2 _ e k).trans (column_apply h1 s e 0)

/-- A bias vector [D] repeated down N rows through a one-row array: entry (n, k) is entry k. -/
theorem bias_apply {N D : ℕ} (h1 : (⟨1, ![D]⟩ : Shape).BroadcastsInDim ⟨2, ![1, D]⟩ ![1])
    (h2 : (⟨2, ![1, D]⟩ : Shape).BroadcastsInDim ⟨2, ![N, D]⟩ ![0, 1]) (b : (⟨1, ![D]⟩ : Shape).Idx → α) (n : Fin N) (k : Fin D) :
    broadcastInDim ⟨2, ![N, D]⟩ ![0, 1] h2 (broadcastInDim ⟨2, ![1, D]⟩ ![1] h1 b) (ix2 n k) = b (ix1 k) := by
  refine (broadcastInDim_apply ![0, 1] h2 _ (ix2 n k) (ix2 (0 : Fin 1) k) fun a => ?_).trans
    (broadcastInDim_apply ![1] h1 b (ix2 (0 : Fin 1) k) (ix1 k) fun a => ?_)
  · match a with
    | ⟨0, _⟩ => rfl
    | ⟨1, _⟩ =>
      show k.val = if D = 1 then 0 else k.val
      split
      · have := k.isLt; omega
      · rfl
  · match a with
    | ⟨0, _⟩ =>
      show k.val = if D = 1 then 0 else k.val
      split
      · have := k.isLt; omega
      · rfl

/-- A scalar repeated over any shape: every entry is the scalar. -/
theorem scalar_apply {t : Shape} (h : (⟨0, ![]⟩ : Shape).BroadcastsInDim t ![]) (x : (⟨0, ![]⟩ : Shape).Idx → α) (j : t.Idx) :
    broadcastInDim t ![] h x j = x ix0 :=
  broadcastInDim_apply ![] h x j ix0 fun a => a.elim0

end Cert.HostAt

end
-- ==== Proof.BridgeBase.lean ====
/-
  Shared by the comparison of the two programs: which row an edge reads through a gather index column, which edges a
  scatter index column adds into a row, the zero array read at an index, and the fact that the two programs spell
  their index columns and their degree normaliser as the same functions.
-/
import proofs.«149725_j35570919145822_2_alg».proof.Proof.KernelIdealSpec
import proofs.«149725_j35570919145822_2_alg».proof.Proof.ReferenceSpec
import proofs.«149725_j35570919145822_2_alg».proof.Proof.LibSegmentSum
import proofs.«149725_j35570919145822_2_alg».proof.Proof.LibRowOps
import proofs.«149725_j35570919145822_2_alg».proof.Proof.LibRealSums
import proofs.«149725_j35570919145822_2_alg».proof.Proof.HostOpsAt
import Idealize.ShloMosaic.PureOps.Ideal.Laws
import Idealize.ShloMosaic.Lib.ValueIdx
import Idealize.ShloMosaic.Lib.Pipeline.Value

set_option maxRecDepth 16384

noncomputable section

open scoped BigOperators

namespace Cert.Bridge

open Idealize.ShloMosaic Idealize.ShloMosaic.ValueIdx
open Cert.Lib.RealSums
open Cert.Lib.SegmentSum (rowScatterDims rowGatherDims vecScatterDims rowScatterAdd_apply vecScatterAdd_apply rowGather_apply)
open Cert.Lib.RowOps (gatherRows1 gatherRows1_apply)

/-- The row edge `e` reads through the gather index column `gi`. -/
abbrev grow (gi : IVec (⟨2, ![500000, 1]⟩ : Shape) 32) (e : Fin 500000) : Fin 100000 :=
  ⟨min (gi (Cert.Lib.SegmentSum.col e)).toInt.toNat (100000 - 1), by omega⟩

/-- The edges whose row the scatter index column `si` adds into row `n`. -/
abbrev landing (si : IVec (⟨2, ![500000, 1]⟩ : Shape) 32) (n : Fin 100000) : Finset (Fin 500000) :=
  Finset.univ.filter fun e : Fin 500000 => (si (Cert.Lib.SegmentSum.col e)).toInt = (n.val : Int)

/-- The zero scalar repeated over any shape is zero everywhere. -/
theorem zeros_apply {t : Shape} (h : (⟨0, ![]⟩ : Shape).BroadcastsInDim t ![]) (j : t.Idx) :
    broadcastInDim t ![] h (constant (F := Ideal) (⟨0, ![]⟩ : Shape) .f32 0x00000000#32) j = 0 :=
  (HostAt.scalar_apply h _ j).trans Ideal.ofBits_zero_f32

/-! ## The host's gathers and accumulating scatters of this program, over any operands -/

open Cert.Lib.SegmentSum (rowScatterDims rowGatherDims vecScatterDims rowScatterAdd_apply vecScatterAdd_apply rowGather_apply) in
section

/-- The kernel program's accumulating row scatter (128 features) into an all-zero table, read at node `n`, feature `k`. -/
theorem kscatter128_apply (Z : FVec Ideal Cert.KernelIdeal.S100000x128 .f32) (si : IVec Cert.KernelIdeal.S500000x1 32) (upd : FVec Ideal Cert.KernelIdeal.S500000x128 .f32)
    (n : Fin 100000) (k : Fin 128) (hZ : ∀ i, Z i = 0) :
    Host.scatterAdd Cert.KernelIdeal.scatter_S100000x128_S500000x1_S500000x128_1_0_0_1 Z si upd (ix2 n k) = ∑ e ∈ landing si n, upd (ix2 e k) := by
  unfold Host.scatterAdd
  rw [Ideal.hostScatterAdd_def]
  refine (rowScatterAdd_apply (N := 100000) (E := 500000) (D := 128) Cert.KernelIdeal.scatter_S100000x128_S500000x1_S500000x128_1_0_0_1.wf si Z upd n k).trans ?_
  rw [hZ, zero_add]

/-- The kernel program's row gather (128 features) read at edge `e`, feature `k`. -/
theorem kgather128_apply (Y : FVec Ideal Cert.KernelIdeal.S100000x128 .f32) (gi : IVec Cert.KernelIdeal.S500000x1 32) (e : Fin 500000) (k : Fin 128) :
    Host.gather Cert.KernelIdeal.gather_S100000x128_S500000x1_S500000x128_1_0_n_n_0_1_1128 Y gi (ix2 e k) = Y (ix2 (grow gi e) k) :=
  rowGather_apply (N := 100000) (E := 500000) (D := 128) Cert.KernelIdeal.gather_S100000x128_S500000x1_S500000x128_1_0_n_n_0_1_1128.wf (by norm_num) Y gi e k

/-- The reference's accumulating row scatter (128 features) into an all-zero table, read at node `n`, feature `k`. -/
theorem rscatter128_apply (Z : FVec Ideal Cert.ReferenceIdeal.S100000x128 .f32) (si : IVec Cert.ReferenceIdeal.S500000x1 32) (upd : FVec Ideal Cert.ReferenceIdeal.S500000x128 .f32)
    (n : Fin 100000) (k : Fin 128) (hZ : ∀ i, Z i = 0) :
    Host.scatterAdd Cert.ReferenceIdeal.scatter_S100000x128_S500000x1_S500000x128_1_0_0_1 Z si upd (ix2 n k) = ∑ e ∈ landing si n, upd (ix2 e k) := by
  unfold Host.scatterAdd
  rw [Ideal.hostScatterAdd_def]
  refine (rowScatterAdd_apply (N := 100000) (E := 500000) (D := 128) Cert.ReferenceIdeal.scatter_S100000x128_S500000x1_S500000x128_1_0_0_1.wf si Z upd n k).trans ?_
  rw [hZ, zero_add]

/-- The reference's row gather (128 features) read at edge `e`, feature `k`. -/
theorem rgather128_apply (Y : FVec Ideal Cert.ReferenceIdeal.S100000x128 .f32) (gi : IVec Cert.ReferenceIdeal.S500000x1 32) (e : Fin 500000) (k : Fin 128) :
    Host.gather Cert.ReferenceIdeal.gather_S100000x128_S500000x1_S500000x128_1_0_n_n_0_1_1128 Y gi (ix2 e k) = Y (ix2 (grow gi e) k) :=
  rowGather_apply (N := 100000) (E := 500000) (D := 128) Cert.ReferenceIdeal.gather_S100000x128_S500000x1_S500000x128_1_0_n_n_0_1_1128.wf (by norm_num) Y gi e k

/-- The reference's accumulating row scatter (256 features) into an all-zero table, read at node `n`, feature `k`. -/
theorem rscatter256_apply (Z : FVec Ideal Cert.ReferenceIdeal.S100000x256 .f32) (si : IVec Cert.ReferenceIdeal.S500000x1 32) (upd : FVec Ideal Cert.ReferenceIdeal.S500000x256 .f32)
    (n : Fin 100000) (k : Fin 256) (hZ : ∀ i, Z i = 0) :
    Host.scatterAdd Cert.ReferenceIdeal.scatter_S100000x256_S500000x1_S500000x256_1_0_0_1 Z si upd (ix2 n k) = ∑ e ∈ landing si n, upd (ix2 e k) := by
  unfold Host.scatterAdd
  rw [Ideal.hostScatterAdd_def]
  refine (rowScatterAdd_apply (N := 100000) (E := 500000) (D := 256) Cert.ReferenceIdeal.scatter_S100000x256_S500000x1_S500000x256_1_0_0_1.wf si Z upd n k).trans ?_
  rw [hZ, zero_add]

/-- The reference's row gather (256 features) read at edge `e`, feature `k`. -/
theorem rgather256_apply (Y : FVec Ideal Cert.ReferenceIdeal.S100000x256 .f32) (gi : IVec Cert.ReferenceIdeal.S500000x1 32) (e : Fin 500000) (k : Fin 256) :
    Host.gather Cert.ReferenceIdeal.gather_S100000x256_S500000x1_S500000x256_1_0_n_n_0_1_1256 Y gi (ix2 e k) = Y (ix2 (grow gi e) k) :=
  rowGather_apply (N := 100000) (E := 500000) (D := 256) Cert.ReferenceIdeal.gather_S100000x256_S500000x1_S500000x256_1_0_n_n_0_1_1256.wf (by norm_num) Y gi e k

/-- The accumulating scatter of per-edge numbers into an all-zero per-node vector, read at node `n`. -/
theorem kscatterVec_apply (Z : FVec Ideal Cert.KernelIdeal.S100000 .f32) (si : IVec Cert.KernelIdeal.S500000x1 32) (upd : FVec Ideal Cert.KernelIdeal.S500000 .f32)
    (n : Fin 100000) (hZ : ∀ i, Z i = 0) :
    Host.scatterAdd Cert.KernelIdeal.scatter_S100000_S500000x1_S500000_n_0_0_1 Z si upd (ix1 n) = ∑ e ∈ landing si n, upd (ix1 e) := by
  unfold Host.scatterAdd
  rw [Ideal.hostScatterAdd_def]
  refine (vecScatterAdd_apply (N := 100000) (E := 500000) Cert.KernelIdeal.scatter_S100000_S500000x1_S500000_n_0_0_1.wf si Z upd n).trans ?_
  rw [hZ, zero_add]

/-- The reference's gather of a per-node number per edge. -/
theorem rgatherVec_apply (c : FVec Ideal Cert.ReferenceIdeal.S100000 .f32) (gi : IVec Cert.ReferenceIdeal.S500000x1 32) (e : Fin 500000) :
    Host.gather Cert.ReferenceIdeal.gather_S100000_S500000x1_S500000_n_0_n_n_0_1_1 c gi (ix1 e) = c (ix1 (grow gi e)) :=
  Cert.Lib.RowOps.gatherRows1_apply (N := 100000) (M := 500000) (by norm_num) Cert.ReferenceIdeal.gather_S100000_S500000x1_S500000_n_0_n_n_0_1_1.wf c gi e

/-- The host's power, element by element. -/
theorem powf_apply {s : Shape} (a b : FVec Ideal s .f32) (i : s.Idx) : Host.powf a b i = Ideal.pow (a i) (b i) := rfl

end

/-! ## The two programs spell the index columns and the normaliser alike -/

theorem colIdx_eq (s : IVec Cert.ReferenceIdeal.S500000 32) : Cert.ReferenceIdeal.RefSpec.colIdx s = Cert.KernelIdeal.Val.colIdx s := rfl
theorem wrapIdx_eq (s : IVec Cert.ReferenceIdeal.S500000 32) : Cert.ReferenceIdeal.RefSpec.wrapIdx s = Cert.KernelIdeal.Val.wrapIdx s := rfl
theorem cnorm_eq (s : IVec Cert.ReferenceIdeal.S500000 32) : Cert.ReferenceIdeal.RefSpec.cnorm s = Cert.KernelIdeal.Val.cnorm s := rfl

end Cert.Bridge

end
-- ==== Proof.BridgeAggK.lean ====
/-
  The kernel's aggregate read at node n, feature k: the sum, over the edges that land on n, of the scaled table's row
  the edge reads.
-/
import proofs.«149725_j35570919145822_2_alg».proof.Proof.BridgeBase
import Idealize.ShloMosaic.PureOps.Ideal.Laws
import Idealize.ShloMosaic.Lib.ValueIdx
import Idealize.ShloMosaic.Lib.Pipeline.Value

set_option maxRecDepth 16384

noncomputable section

open scoped BigOperators

namespace Cert.Bridge

open Idealize.ShloMosaic Idealize.ShloMosaic.ValueIdx
open Cert.Lib.RealSums
open Cert.Lib.SegmentSum (rowScatterDims rowGatherDims vecScatterDims rowScatterAdd_apply vecScatterAdd_apply rowGather_apply)
open Cert.Lib.RowOps (gatherRows1 gatherRows1_apply)

/-- The kernel's aggregate at node `n`, feature `k`. -/
theorem kagg_apply (y : FVec Ideal Cert.KernelIdeal.S100000x128 .f32) (cs : FVec Ideal Cert.KernelIdeal.S100000 .f32) (src dst : IVec Cert.KernelIdeal.S500000 32)
    (n : Fin 100000) (k : Fin 128) :
    Cert.KernelIdeal.Val.agg y cs src dst (ix2 n k)
      = ∑ e ∈ landing (Cert.KernelIdeal.Val.colIdx dst) n, y (ix2 (grow (Cert.KernelIdeal.Val.wrapIdx src) e) k) * cs (ix1 (grow (Cert.KernelIdeal.Val.wrapIdx src) e)) := by
  unfold Cert.KernelIdeal.Val.agg
  refine (kscatter128_apply _ _ _ n k (fun i => zeros_apply _ i)).trans (Finset.sum_congr rfl fun e _ => ?_)
  refine (kgather128_apply _ _ e k).trans ?_
  rw [mulf_apply]
  unfold Cert.KernelIdeal.Val.rowScale
  rw [HostAt.rowNumber_apply]

end Cert.Bridge

end
-- ==== Proof.BridgeAggR128.lean ====
/-
  The reference's first-layer aggregate (128 features) read at node n, feature k.
-/
import proofs.«149725_j35570919145822_2_alg».proof.Proof.BridgeBase
import Idealize.ShloMosaic.PureOps.Ideal.Laws
import Idealize.ShloMosaic.Lib.ValueIdx
import Idealize.ShloMosaic.Lib.Pipeline.Value

set_option maxRecDepth 16384

noncomputable section

open scoped BigOperators

namespace Cert.Bridge

open Idealize.ShloMosaic Idealize.ShloMosaic.ValueIdx
open Cert.Lib.RealSums
open Cert.Lib.SegmentSum (rowScatterDims rowGatherDims vecScatterDims rowScatterAdd_apply vecScatterAdd_apply rowGather_apply)
open Cert.Lib.RowOps (gatherRows1 gatherRows1_apply)

/-- The reference's aggregate of a 128-wide table at node `n`, feature `k`: the sum, over the edges that land on `n`, of
    the source row's feature times the source normaliser, times the destination normaliser of `n`. -/
theorem ragg128_apply (y : FVec Ideal Cert.ReferenceIdeal.S100000x128 .f32) (src dst : IVec Cert.ReferenceIdeal.S500000 32) (n : Fin 100000) (k : Fin 128) :
    Cert.ReferenceIdeal.RefSpec.agg128 y src dst (ix2 n k)
      = (∑ e ∈ landing (Cert.ReferenceIdeal.RefSpec.colIdx dst) n, y (ix2 (grow (Cert.ReferenceIdeal.RefSpec.wrapIdx src) e) k) * Cert.ReferenceIdeal.RefSpec.cnorm src (ix1 (grow (Cert.ReferenceIdeal.RefSpec.wrapIdx src) e)))
        * Cert.ReferenceIdeal.RefSpec.cnorm dst (ix1 n) := by
  unfold Cert.ReferenceIdeal.RefSpec.agg128
  rw [mulf_apply, HostAt.rowNumber_apply]
  refine congrArg₂ (· * ·) ?_ rfl
  refine (rscatter128_apply _ _ _ n k (fun i => zeros_apply _ i)).trans (Finset.sum_congr rfl fun e _ => ?_)
  rw [mulf_apply, HostAt.rowNumber_apply]
  refine congrArg₂ (· * ·) (rgather128_apply _ _ e k) ?_
  unfold Cert.ReferenceIdeal.RefSpec.csEdge
  exact rgatherVec_apply _ _ e

end Cert.Bridge

end
-- ==== Proof.BridgeDot.lean ====
/-
  The reference's two matrix products read at an index: the plain sum over the contraction index.
-/
import proofs.«149725_j35570919145822_2_alg».proof.Proof.ReferenceSpec
import Idealize.ShloMosaic.PureOps.Ideal.Laws
import Idealize.ShloMosaic.Lib.ValueIdx
import Idealize.ShloMosaic.Lib.Pipeline.Value

set_option maxRecDepth 16384

noncomputable section

open scoped BigOperators

namespace Cert.Bridge

open Idealize.ShloMosaic Idealize.ShloMosaic.ValueIdx

/-! ## The reference's matrix products -/

/-- The reference's product of a [100000,128] array with a [128,256] matrix at row `n`, column `q`: the sum over the
    contraction index. -/
theorem rdot1_apply (lhs : FVec Ideal Cert.ReferenceIdeal.S100000x128 .f32) (rhs : FVec Ideal Cert.ReferenceIdeal.S128x256 .f32) (n : Fin 100000) (q : Fin 256) :
    Host.dotGeneral Cert.ReferenceIdeal.dot_S100000x128_S128x256_S100000x256_1_0_0_1_n_n none lhs rhs (ix2 n q) = ∑ k : Fin 128, lhs (ix2 n k) * rhs (ix2 k q) := by
  refine (Ideal.dotGeneral_apply Cert.ReferenceIdeal.dot_S100000x128_S128x256_S100000x256_1_0_0_1_n_n none _ lhs rhs (ix2 n q)).trans ?_
  rw [← Equiv.sum_comp (contrEquiv1 Cert.ReferenceIdeal.dot_S100000x128_S128x256_S100000x256_1_0_0_1_n_n 128 rfl rfl).symm]
  refine Finset.sum_congr rfl fun k _ => ?_
  have hl : Cert.ReferenceIdeal.dot_S100000x128_S128x256_S100000x256_1_0_0_1_n_n.lhsIdx (ix2 n q) ((contrEquiv1 Cert.ReferenceIdeal.dot_S100000x128_S128x256_S100000x256_1_0_0_1_n_n 128 rfl rfl).symm k) = ix2 n k := by
    funext a; refine Fin.ext ?_
    match a with
    | ⟨0, _⟩ => rfl
    | ⟨1, _⟩ =>
      exact (Cert.ReferenceIdeal.dot_S100000x128_S128x256_S100000x256_1_0_0_1_n_n.lhsIdx_val_of_single (cl := (1 : Fin 2)) rfl _ _).trans
        (contrEquiv1_symm_val Cert.ReferenceIdeal.dot_S100000x128_S128x256_S100000x256_1_0_0_1_n_n 128 rfl rfl k)
  have hr : Cert.ReferenceIdeal.dot_S100000x128_S128x256_S100000x256_1_0_0_1_n_n.rhsIdx (ix2 n q) ((contrEquiv1 Cert.ReferenceIdeal.dot_S100000x128_S128x256_S100000x256_1_0_0_1_n_n 128 rfl rfl).symm k) = ix2 k q := by
    funext a; refine Fin.ext ?_
    match a with
    | ⟨0, _⟩ =>
      exact (Cert.ReferenceIdeal.dot_S100000x128_S128x256_S100000x256_1_0_0_1_n_n.rhsIdx_val_of_single (cr := (0 : Fin 2)) rfl _ _).trans
        (contrEquiv1_symm_val Cert.ReferenceIdeal.dot_S100000x128_S128x256_S100000x256_1_0_0_1_n_n 128 rfl rfl k)
    | ⟨1, _⟩ => rfl
  rw [hl, hr]

/-- The reference's product of a [100000,256] array with a [256,128] matrix at row `n`, column `q`: the sum over the
    contraction index. -/
theorem rdot2_apply (lhs : FVec Ideal Cert.ReferenceIdeal.S100000x256 .f32) (rhs : FVec Ideal Cert.ReferenceIdeal.S256x128 .f32) (n : Fin 100000) (q : Fin 128) :
    Host.dotGeneral Cert.ReferenceIdeal.dot_S100000x256_S256x128_S100000x128_1_0_0_1_n_n none lhs rhs (ix2 n q) = ∑ k : Fin 256, lhs (ix2 n k) * rhs (ix2 k q) := by
  refine (Ideal.dotGeneral_apply Cert.ReferenceIdeal.dot_S100000x256_S256x128_S100000x128_1_0_0_1_n_n none _ lhs rhs (ix2 n q)).trans ?_
  rw [← Equiv.sum_comp (contrEquiv1 Cert.ReferenceIdeal.dot_S100000x256_S256x128_S100000x128_1_0_0_1_n_n 256 rfl rfl).symm]
  refine Finset.sum_congr rfl fun k _ => ?_
  have hl : Cert.ReferenceIdeal.dot_S100000x256_S256x128_S100000x128_1_0_0_1_n_n.lhsIdx (ix2 n q) ((contrEquiv1 Cert.ReferenceIdeal.dot_S100000x256_S256x128_S100000x128_1_0_0_1_n_n 256 rfl rfl).symm k) = ix2 n k := by
    funext a; refine Fin.ext ?_
    match a with
    | ⟨0, _⟩ => rfl
    | ⟨1, _⟩ =>
      exact (Cert.ReferenceIdeal.dot_S100000x256_S256x128_S100000x128_1_0_0_1_n_n.lhsIdx_val_of_single (cl := (1 : Fin 2)) rfl _ _).trans
        (contrEquiv1_symm_val Cert.ReferenceIdeal.dot_S100000x256_S256x128_S100000x128_1_0_0_1_n_n 256 rfl rfl k)
  have hr : Cert.ReferenceIdeal.dot_S100000x256_S256x128_S100000x128_1_0_0_1_n_n.rhsIdx (ix2 n q) ((contrEquiv1 Cert.ReferenceIdeal.dot_S100000x256_S256x128_S100000x128_1_0_0_1_n_n 256 rfl rfl).symm k) = ix2 k q := by
    funext a; refine Fin.ext ?_
    match a with
    | ⟨0, _⟩ =>
      exact (Cert.ReferenceIdeal.dot_S100000x256_S256x128_S100000x128_1_0_0_1_n_n.rhsIdx_val_of_single (cr := (0 : Fin 2)) rfl _ _).trans
        (contrEquiv1_symm_val Cert.ReferenceIdeal.dot_S100000x256_S256x128_S100000x128_1_0_0_1_n_n 256 rfl rfl k)
    | ⟨1, _⟩ => rfl
  rw [hl, hr]

end Cert.Bridge

end
-- ==== Proof.BridgeNorm.lean ====
/-
  The degree normalisers: every entry is a real number — (max 1 (a finite count)) to the power −1/2 — and the table
  that sets the three destination normalisers side by side reads, at column r, relation r's normaliser.
-/
import proofs.«149725_j35570919145822_2_alg».proof.Proof.BridgeBase
import Idealize.ShloMosaic.PureOps.Ideal.Laws
import Idealize.ShloMosaic.Lib.ValueIdx
import Idealize.ShloMosaic.Lib.Pipeline.Value

set_option maxRecDepth 16384

noncomputable section

open scoped BigOperators

namespace Cert.Bridge

open Idealize.ShloMosaic Idealize.ShloMosaic.ValueIdx
open Cert.Lib.RealSums
open Cert.Lib.SegmentSum (rowScatterDims rowGatherDims vecScatterDims rowScatterAdd_apply vecScatterAdd_apply rowGather_apply)
open Cert.Lib.RowOps (gatherRows1 gatherRows1_apply)

/-! ## The degree normaliser is a real number -/

theorem isReal_one_f32 : IsReal (Ideal.ofBits .f32 0x3F800000#32) := by
  show IsReal (Ideal.ieee 8 23 (0x3F800000#32 : BitVec 32))
  unfold Ideal.ieee
  dsimp only
  rw [if_neg (by decide), if_neg (by decide)]
  exact ⟨_, rfl⟩

theorem isReal_negHalf_f32 : IsReal (Ideal.ofBits .f32 0xBF000000#32) := by
  show IsReal (Ideal.ieee 8 23 (0xBF000000#32 : BitVec 32))
  unfold Ideal.ieee
  dsimp only
  rw [if_neg (by decide), if_neg (by decide)]
  exact ⟨_, rfl⟩

theorem isReal_pow_max {a b c : EReal} (ha : IsReal a) (hb : IsReal b) (hc : IsReal c) : IsReal (Ideal.pow (max a b) c) := by
  obtain ⟨x, hx⟩ := ha.max hb
  obtain ⟨y, hy⟩ := hc
  rw [hx, hy]
  exact ⟨_, rfl⟩

/-- Every entry of a degree normaliser is a real number. -/
theorem isReal_cnorm (s : IVec Cert.KernelIdeal.S500000 32) (n : Fin 100000) : IsReal (Cert.KernelIdeal.Val.cnorm s (ix1 n)) := by
  unfold Cert.KernelIdeal.Val.cnorm
  refine (congrArg IsReal (powf_apply _ _ _)).mpr ?_
  refine (congrArg IsReal (congrArg₂ Ideal.pow (maximumf_apply _ _ _) rfl)).mpr ?_
  refine isReal_pow_max ?_ ?_ ?_
  · exact (congrArg IsReal (HostAt.scalar_apply _ _ _)).mpr isReal_one_f32
  · exact (congrArg IsReal (kscatterVec_apply _ _ _ n (fun i => zeros_apply _ i))).mpr
      (IsReal.sum _ _ fun e _ => (congrArg IsReal (HostAt.scalar_apply _ _ _)).mpr isReal_one_f32)
  · exact (congrArg IsReal (HostAt.scalar_apply _ _ _)).mpr isReal_negHalf_f32

/-! ## The table of destination normalisers -/

/-- Column `r` of the table of destination normalisers is relation `r`'s normaliser. -/
theorem cdcat_apply0 (cb cr cj : FVec Ideal Cert.KernelIdeal.S100000 .f32) (n : Fin 100000) :
    Cert.KernelIdeal.Val.cdcat cb cr cj (ix2 n (0 : Fin 3)) = cb (ix1 n) := by
  unfold Cert.KernelIdeal.Val.cdcat
  refine Eq.trans (concatenate_apply_piece (1 : Fin 2) _ _ (ix2 n (0 : Fin 3)) 0 (by simp) Cert.KernelIdeal.S100000x1 _ rfl rfl 0 rfl
    (ix2 n (0 : Fin 1)) (fun b hb => ?_) rfl) (HostAt.column_apply _ cb n 0)
  match b with
  | ⟨0, _⟩ => rfl
  | ⟨1, _⟩ => exact absurd rfl hb

theorem cdcat_apply1 (cb cr cj : FVec Ideal Cert.KernelIdeal.S100000 .f32) (n : Fin 100000) :
    Cert.KernelIdeal.Val.cdcat cb cr cj (ix2 n (1 : Fin 3)) = cr (ix1 n) := by
  unfold Cert.KernelIdeal.Val.cdcat
  refine Eq.trans (concatenate_apply_piece (1 : Fin 2) _ _ (ix2 n (1 : Fin 3)) 1 (by simp) Cert.KernelIdeal.S100000x1 _ rfl rfl 1 rfl
    (ix2 n (0 : Fin 1)) (fun b hb => ?_) rfl) (HostAt.column_apply _ cr n 0)
  match b with
  | ⟨0, _⟩ => rfl
  | ⟨1, _⟩ => exact absurd rfl hb

theorem cdcat_apply2 (cb cr cj : FVec Ideal Cert.KernelIdeal.S100000 .f32) (n : Fin 100000) :
    Cert.KernelIdeal.Val.cdcat cb cr cj (ix2 n (2 : Fin 3)) = cj (ix1 n) := by
  unfold Cert.KernelIdeal.Val.cdcat
  refine Eq.trans (concatenate_apply_piece (1 : Fin 2) _ _ (ix2 n (2 : Fin 3)) 2 (by simp) Cert.KernelIdeal.S100000x1 _ rfl rfl 2 rfl
    (ix2 n (0 : Fin 1)) (fun b hb => ?_) rfl) (HostAt.column_apply _ cj n 0)
  match b with
  | ⟨0, _⟩ => rfl
  | ⟨1, _⟩ => exact absurd rfl hb

end Cert.Bridge

end
-- ==== Proof.BridgeHidden.lean ====
/-
  The hidden features: the kernel's program and the reference compute the same array, and it is real-valued.

  At node `n`, hidden unit `q` both are
    max (Σ_r Σ_k ((Σ_{e lands on n} x[row e, k] · cs_r[row e]) · cd_r[n]) · W_r[k, q]  +  biases, 0);
  the kernel scales the table's rows before gathering and the reference scales the gathered rows, which is the same
  product term by term; the kernel adds the three products and then the three biases, the reference adds a product and
  its bias at a time starting from zero, which is the same sum by commutativity and associativity alone.
-/
import proofs.«149725_j35570919145822_2_alg».proof.Proof.BridgeAggK
import proofs.«149725_j35570919145822_2_alg».proof.Proof.BridgeAggR128
import proofs.«149725_j35570919145822_2_alg».proof.Proof.BridgeDot
import proofs.«149725_j35570919145822_2_alg».proof.Proof.BridgeNorm

noncomputable section

open scoped BigOperators

namespace Cert.Bridge

open Idealize.ShloMosaic Idealize.ShloMosaic.ValueIdx
open Cert.Lib.RealSums

/-- The common value of the hidden features at node `n`, unit `q`. -/
def hiddenAt (x : FVec Ideal Cert.KernelIdeal.S100000x128 .f32) (sb db sr dr sj dj : IVec Cert.KernelIdeal.S500000 32)
    (w1b : FVec Ideal Cert.KernelIdeal.S128x256 .f32) (b1b : FVec Ideal Cert.KernelIdeal.S256 .f32) (w1r : FVec Ideal Cert.KernelIdeal.S128x256 .f32) (b1r : FVec Ideal Cert.KernelIdeal.S256 .f32)
    (w1j : FVec Ideal Cert.KernelIdeal.S128x256 .f32) (b1j : FVec Ideal Cert.KernelIdeal.S256 .f32) (n : Fin 100000) (q : Fin 256) : EReal :=
  max ((((∑ k : Fin 128, ((∑ e ∈ landing (Cert.KernelIdeal.Val.colIdx db) n, x (ix2 (grow (Cert.KernelIdeal.Val.wrapIdx sb) e) k) * Cert.KernelIdeal.Val.cnorm sb (ix1 (grow (Cert.KernelIdeal.Val.wrapIdx sb) e))) * Cert.KernelIdeal.Val.cnorm db (ix1 n)) * w1b (ix2 k q))
        + ∑ k : Fin 128, ((∑ e ∈ landing (Cert.KernelIdeal.Val.colIdx dr) n, x (ix2 (grow (Cert.KernelIdeal.Val.wrapIdx sr) e) k) * Cert.KernelIdeal.Val.cnorm sr (ix1 (grow (Cert.KernelIdeal.Val.wrapIdx sr) e))) * Cert.KernelIdeal.Val.cnorm dr (ix1 n)) * w1r (ix2 k q))
      + ∑ k : Fin 128, ((∑ e ∈ landing (Cert.KernelIdeal.Val.colIdx dj) n, x (ix2 (grow (Cert.KernelIdeal.Val.wrapIdx sj) e) k) * Cert.KernelIdeal.Val.cnorm sj (ix1 (grow (Cert.KernelIdeal.Val.wrapIdx sj) e))) * Cert.KernelIdeal.Val.cnorm dj (ix1 n)) * w1j (ix2 k q))
    + ((b1b (ix1 q) + b1r (ix1 q)) + b1j (ix1 q))) 0

/-- The kernel's hidden features at an index. -/
theorem kernelHidden_apply (x : FVec Ideal Cert.KernelIdeal.S100000x128 .f32) (sb db sr dr sj dj : IVec Cert.KernelIdeal.S500000 32)
    (w1b : FVec Ideal Cert.KernelIdeal.S128x256 .f32) (b1b : FVec Ideal Cert.KernelIdeal.S256 .f32) (w1r : FVec Ideal Cert.KernelIdeal.S128x256 .f32) (b1r : FVec Ideal Cert.KernelIdeal.S256 .f32)
    (w1j : FVec Ideal Cert.KernelIdeal.S128x256 .f32) (b1j : FVec Ideal Cert.KernelIdeal.S256 .f32) (n : Fin 100000) (q : Fin 256) :
    Cert.KernelIdeal.Val.kernelHidden x sb db sr dr sj dj w1b b1b w1r b1r w1j b1j (ix2 n q) = hiddenAt x sb db sr dr sj dj w1b b1b w1r b1r w1j b1j n q := by
  unfold Cert.KernelIdeal.Val.kernelHidden Cert.Spec.layer1 hiddenAt
  simp only [kagg_apply, cdcat_apply0, cdcat_apply1, cdcat_apply2]

/-- The reference's hidden features at an index. -/
theorem refHidden_apply (x : FVec Ideal Cert.KernelIdeal.S100000x128 .f32) (sb db sr dr sj dj : IVec Cert.KernelIdeal.S500000 32)
    (w1b : FVec Ideal Cert.KernelIdeal.S128x256 .f32) (b1b : FVec Ideal Cert.KernelIdeal.S256 .f32) (w1r : FVec Ideal Cert.KernelIdeal.S128x256 .f32) (b1r : FVec Ideal Cert.KernelIdeal.S256 .f32)
    (w1j : FVec Ideal Cert.KernelIdeal.S128x256 .f32) (b1j : FVec Ideal Cert.KernelIdeal.S256 .f32) (n : Fin 100000) (q : Fin 256) :
    Cert.ReferenceIdeal.RefSpec.refHidden x sb db sr dr sj dj w1b b1b w1r b1r w1j b1j (ix2 n q) = hiddenAt x sb db sr dr sj dj w1b b1b w1r b1r w1j b1j n q := by
  unfold Cert.ReferenceIdeal.RefSpec.refHidden Cert.ReferenceIdeal.RefSpec.conv1 hiddenAt
  rw [maximumf_apply, addf_apply, addf_apply, addf_apply, addf_apply, addf_apply, addf_apply, zeros_apply,
    rdot1_apply, rdot1_apply, rdot1_apply, HostAt.bias_apply, HostAt.bias_apply, HostAt.bias_apply]
  simp only [ragg128_apply, colIdx_eq, wrapIdx_eq, cnorm_eq]
  rw [add3_rearrange]

/-- The two programs compute the same hidden features. -/
theorem hidden_eq (x : FVec Ideal Cert.KernelIdeal.S100000x128 .f32) (sb db sr dr sj dj : IVec Cert.KernelIdeal.S500000 32)
    (w1b : FVec Ideal Cert.KernelIdeal.S128x256 .f32) (b1b : FVec Ideal Cert.KernelIdeal.S256 .f32) (w1r : FVec Ideal Cert.KernelIdeal.S128x256 .f32) (b1r : FVec Ideal Cert.KernelIdeal.S256 .f32)
    (w1j : FVec Ideal Cert.KernelIdeal.S128x256 .f32) (b1j : FVec Ideal Cert.KernelIdeal.S256 .f32) :
    Cert.KernelIdeal.Val.kernelHidden x sb db sr dr sj dj w1b b1b w1r b1r w1j b1j = Cert.ReferenceIdeal.RefSpec.refHidden x sb db sr dr sj dj w1b b1b w1r b1r w1j b1j := by
  funext i
  obtain ⟨n, q, rfl⟩ : ∃ (n : Fin 100000) (q : Fin 256), i = ix2 n q := ⟨i 0, i 1, eq_ix2 i⟩
  rw [kernelHidden_apply, refHidden_apply]

/-- With real-valued inputs the hidden features are real-valued. -/
theorem isReal_hidden (x : FVec Ideal Cert.KernelIdeal.S100000x128 .f32) (sb db sr dr sj dj : IVec Cert.KernelIdeal.S500000 32)
    (w1b : FVec Ideal Cert.KernelIdeal.S128x256 .f32) (b1b : FVec Ideal Cert.KernelIdeal.S256 .f32) (w1r : FVec Ideal Cert.KernelIdeal.S128x256 .f32) (b1r : FVec Ideal Cert.KernelIdeal.S256 .f32)
    (w1j : FVec Ideal Cert.KernelIdeal.S128x256 .f32) (b1j : FVec Ideal Cert.KernelIdeal.S256 .f32)
    (hx : ∀ i, IsReal (x i)) (hw1b : ∀ i, IsReal (w1b i)) (hb1b : ∀ i, IsReal (b1b i)) (hw1r : ∀ i, IsReal (w1r i)) (hb1r : ∀ i, IsReal (b1r i))
    (hw1j : ∀ i, IsReal (w1j i)) (hb1j : ∀ i, IsReal (b1j i)) (i : Cert.KernelIdeal.S100000x256.Idx) :
    IsReal (Cert.KernelIdeal.Val.kernelHidden x sb db sr dr sj dj w1b b1b w1r b1r w1j b1j i) := by
  obtain ⟨n, q, rfl⟩ : ∃ (n : Fin 100000) (q : Fin 256), i = ix2 n q := ⟨i 0, i 1, eq_ix2 i⟩
  rw [kernelHidden_apply]
  unfold hiddenAt
  have hseg : ∀ (s d : IVec Cert.KernelIdeal.S500000 32) (w : FVec Ideal Cert.KernelIdeal.S128x256 .f32), (∀ i, IsReal (w i)) →
      IsReal (∑ k : Fin 128, ((∑ e ∈ landing (Cert.KernelIdeal.Val.colIdx d) n, x (ix2 (grow (Cert.KernelIdeal.Val.wrapIdx s) e) k) * Cert.KernelIdeal.Val.cnorm s (ix1 (grow (Cert.KernelIdeal.Val.wrapIdx s) e))) * Cert.KernelIdeal.Val.cnorm d (ix1 n)) * w (ix2 k q)) := by
    intro s d w hw
    refine IsReal.sum _ _ fun k _ => ((IsReal.sum _ _ fun e _ => (hx _).mul (isReal_cnorm s _)).mul (isReal_cnorm d n)).mul (hw _)
  exact ((((hseg sb db w1b hw1b).add (hseg sr dr w1r hw1r)).add (hseg sj dj w1j hw1j)).add (((hb1b _).add (hb1r _)).add (hb1j _))).max isReal_zero

end Cert.Bridge

end
-- ==== Proof.BridgeAggR256.lean ====
/-
  The reference's second-layer aggregate (256 features) read at node n, feature k.
-/
import proofs.«149725_j35570919145822_2_alg».proof.Proof.BridgeBase
import Idealize.ShloMosaic.PureOps.Ideal.Laws
import Idealize.ShloMosaic.Lib.ValueIdx
import Idealize.ShloMosaic.Lib.Pipeline.Value

set_option maxRecDepth 16384

noncomputable section

open scoped BigOperators

namespace Cert.Bridge

open Idealize.ShloMosaic Idealize.ShloMosaic.ValueIdx
open Cert.Lib.RealSums
open Cert.Lib.SegmentSum (rowScatterDims rowGatherDims vecScatterDims rowScatterAdd_apply vecScatterAdd_apply rowGather_apply)
open Cert.Lib.RowOps (gatherRows1 gatherRows1_apply)

/-- The reference's aggregate of a 256-wide table at node `n`, feature `k`: the sum, over the edges that land on `n`, of
    the source row's feature times the source normaliser, times the destination normaliser of `n`. -/
theorem ragg256_apply (y : FVec Ideal Cert.ReferenceIdeal.S100000x256 .f32) (src dst : IVec Cert.ReferenceIdeal.S500000 32) (n : Fin 100000) (k : Fin 256) :
    Cert.ReferenceIdeal.RefSpec.agg256 y src dst (ix2 n k)
      = (∑ e ∈ landing (Cert.ReferenceIdeal.RefSpec.colIdx dst) n, y (ix2 (grow (Cert.ReferenceIdeal.RefSpec.wrapIdx src) e) k) * Cert.ReferenceIdeal.RefSpec.cnorm src (ix1 (grow (Cert.ReferenceIdeal.RefSpec.wrapIdx src) e)))
        * Cert.ReferenceIdeal.RefSpec.cnorm dst (ix1 n) := by
  unfold Cert.ReferenceIdeal.RefSpec.agg256
  rw [mulf_apply, HostAt.rowNumber_apply]
  refine congrArg₂ (· * ·) ?_ rfl
  refine (rscatter256_apply _ _ _ n k (fun i => zeros_apply _ i)).trans (Finset.sum_congr rfl fun e _ => ?_)
  rw [mulf_apply, HostAt.rowNumber_apply]
  refine congrArg₂ (· * ·) (rgather256_apply _ _ e k) ?_
  unfold Cert.ReferenceIdeal.RefSpec.csEdge
  exact rgatherVec_apply _ _ e

end Cert.Bridge

end
-- ==== Proof.BridgeMain.lean ====
/-
  The two programs compute the same result, when every float argument is real-valued.

  With `H` the (common, real-valued) hidden features, at node `n`, output unit `j`:
  * the reference aggregates `H`'s 256-wide rows, scales, and then contracts with the weight matrix:
      Σ_k ((Σ_{e lands on n} H[row e, k] · cs[row e]) · cd[n]) · W[k, j];
  * the kernel contracts each row with the weight matrix first and aggregates the 128-wide projections:
      (Σ_{e lands on n} (Σ_k H[row e, k] · W[k, j]) · cs[row e]) · cd[n].
  These agree because all the factors are real numbers (the law `sum_segment_mul`); the bias terms are then regrouped by
  commutativity and associativity.
-/
import proofs.«149725_j35570919145822_2_alg».proof.Proof.BridgeHidden
import proofs.«149725_j35570919145822_2_alg».proof.Proof.BridgeAggR256

set_option maxRecDepth 16384

noncomputable section

open scoped BigOperators

namespace Cert.Bridge

open Idealize.ShloMosaic Idealize.ShloMosaic.ValueIdx
open Cert.Lib.RealSums

/-- The second-layer law for one relation, at node `n`, output unit `j`. -/
theorem layer2_law (H : FVec Ideal Cert.KernelIdeal.S100000x256 .f32) (hH : ∀ i, IsReal (H i)) (s d : IVec Cert.KernelIdeal.S500000 32)
    (w : FVec Ideal Cert.KernelIdeal.S256x128 .f32) (hw : ∀ i, IsReal (w i)) (n : Fin 100000) (j : Fin 128) :
    ∑ k : Fin 256, ((∑ e ∈ landing (Cert.KernelIdeal.Val.colIdx d) n, H (ix2 (grow (Cert.KernelIdeal.Val.wrapIdx s) e) k) * Cert.KernelIdeal.Val.cnorm s (ix1 (grow (Cert.KernelIdeal.Val.wrapIdx s) e))) * Cert.KernelIdeal.Val.cnorm d (ix1 n)) * w (ix2 k j)
      = (∑ e ∈ landing (Cert.KernelIdeal.Val.colIdx d) n, (∑ k : Fin 256, H (ix2 (grow (Cert.KernelIdeal.Val.wrapIdx s) e) k) * w (ix2 k j)) * Cert.KernelIdeal.Val.cnorm s (ix1 (grow (Cert.KernelIdeal.Val.wrapIdx s) e))) * Cert.KernelIdeal.Val.cnorm d (ix1 n) := by
  have h := sum_segment_mul (landing (Cert.KernelIdeal.Val.colIdx d) n) (fun e (k : Fin 256) => H (ix2 (grow (Cert.KernelIdeal.Val.wrapIdx s) e) k))
    (fun e => Cert.KernelIdeal.Val.cnorm s (ix1 (grow (Cert.KernelIdeal.Val.wrapIdx s) e))) (Cert.KernelIdeal.Val.cnorm d (ix1 n)) (fun k => w (ix2 k j))
    (fun e k => hH _) (fun e => isReal_cnorm s _) (isReal_cnorm d n) (fun k => hw _)
  simp only [zero_add] at h
  exact h

/-- The kernel's result at an index, over its hidden features `H`. -/
theorem kernelOut_apply (x : FVec Ideal Cert.KernelIdeal.S100000x128 .f32) (sb db sr dr sj dj : IVec Cert.KernelIdeal.S500000 32)
    (w1b : FVec Ideal Cert.KernelIdeal.S128x256 .f32) (b1b : FVec Ideal Cert.KernelIdeal.S256 .f32) (w1r : FVec Ideal Cert.KernelIdeal.S128x256 .f32) (b1r : FVec Ideal Cert.KernelIdeal.S256 .f32)
    (w1j : FVec Ideal Cert.KernelIdeal.S128x256 .f32) (b1j : FVec Ideal Cert.KernelIdeal.S256 .f32)
    (w2b : FVec Ideal Cert.KernelIdeal.S256x128 .f32) (b2b : FVec Ideal Cert.KernelIdeal.S128 .f32) (w2r : FVec Ideal Cert.KernelIdeal.S256x128 .f32) (b2r : FVec Ideal Cert.KernelIdeal.S128 .f32)
    (w2j : FVec Ideal Cert.KernelIdeal.S256x128 .f32) (b2j : FVec Ideal Cert.KernelIdeal.S128 .f32) (n : Fin 100000) (j : Fin 128) :
    Cert.KernelIdeal.Val.kernelOut x sb db sr dr sj dj w1b b1b w1r b1r w1j b1j w2b b2b w2r b2r w2j b2j (ix2 n j)
      = (fun (H : FVec Ideal Cert.KernelIdeal.S100000x256 .f32) =>
          ((((∑ e ∈ landing (Cert.KernelIdeal.Val.colIdx db) n, (∑ k : Fin 256, H (ix2 (grow (Cert.KernelIdeal.Val.wrapIdx sb) e) k) * w2b (ix2 k j)) * Cert.KernelIdeal.Val.cnorm sb (ix1 (grow (Cert.KernelIdeal.Val.wrapIdx sb) e))) * Cert.KernelIdeal.Val.cnorm db (ix1 n))
            + (∑ e ∈ landing (Cert.KernelIdeal.Val.colIdx dr) n, (∑ k : Fin 256, H (ix2 (grow (Cert.KernelIdeal.Val.wrapIdx sr) e) k) * w2r (ix2 k j)) * Cert.KernelIdeal.Val.cnorm sr (ix1 (grow (Cert.KernelIdeal.Val.wrapIdx sr) e))) * Cert.KernelIdeal.Val.cnorm dr (ix1 n))
          + (∑ e ∈ landing (Cert.KernelIdeal.Val.colIdx dj) n, (∑ k : Fin 256, H (ix2 (grow (Cert.KernelIdeal.Val.wrapIdx sj) e) k) * w2j (ix2 k j)) * Cert.KernelIdeal.Val.cnorm sj (ix1 (grow (Cert.KernelIdeal.Val.wrapIdx sj) e))) * Cert.KernelIdeal.Val.cnorm dj (ix1 n))
        + ((b2b (ix1 j) + b2r (ix1 j)) + b2j (ix1 j))) (Cert.KernelIdeal.Val.kernelHidden x sb db sr dr sj dj w1b b1b w1r b1r w1j b1j) := by
  unfold Cert.KernelIdeal.Val.kernelOut Cert.Spec.combine
  simp only [kagg_apply, cdcat_apply0, cdcat_apply1, cdcat_apply2, Cert.Spec.project]

/-- The reference's result at an index, over its hidden features `H`. -/
theorem refOut_apply (x : FVec Ideal Cert.KernelIdeal.S100000x128 .f32) (sb db sr dr sj dj : IVec Cert.KernelIdeal.S500000 32)
    (w1b : FVec Ideal Cert.KernelIdeal.S128x256 .f32) (b1b : FVec Ideal Cert.KernelIdeal.S256 .f32) (w1r : FVec Ideal Cert.KernelIdeal.S128x256 .f32) (b1r : FVec Ideal Cert.KernelIdeal.S256 .f32)
    (w1j : FVec Ideal Cert.KernelIdeal.S128x256 .f32) (b1j : FVec Ideal Cert.KernelIdeal.S256 .f32)
    (w2b : FVec Ideal Cert.KernelIdeal.S256x128 .f32) (b2b : FVec Ideal Cert.KernelIdeal.S128 .f32) (w2r : FVec Ideal Cert.KernelIdeal.S256x128 .f32) (b2r : FVec Ideal Cert.KernelIdeal.S128 .f32)
    (w2j : FVec Ideal Cert.KernelIdeal.S256x128 .f32) (b2j : FVec Ideal Cert.KernelIdeal.S128 .f32) (n : Fin 100000) (j : Fin 128) :
    Cert.ReferenceIdeal.RefSpec.refOut x sb db sr dr sj dj w1b b1b w1r b1r w1j b1j w2b b2b w2r b2r w2j b2j (ix2 n j)
      = (fun (H : FVec Ideal Cert.KernelIdeal.S100000x256 .f32) =>
          ((0 + ((∑ k : Fin 256, ((∑ e ∈ landing (Cert.KernelIdeal.Val.colIdx db) n, H (ix2 (grow (Cert.KernelIdeal.Val.wrapIdx sb) e) k) * Cert.KernelIdeal.Val.cnorm sb (ix1 (grow (Cert.KernelIdeal.Val.wrapIdx sb) e))) * Cert.KernelIdeal.Val.cnorm db (ix1 n)) * w2b (ix2 k j)) + b2b (ix1 j)))
            + ((∑ k : Fin 256, ((∑ e ∈ landing (Cert.KernelIdeal.Val.colIdx dr) n, H (ix2 (grow (Cert.KernelIdeal.Val.wrapIdx sr) e) k) * Cert.KernelIdeal.Val.cnorm sr (ix1 (grow (Cert.KernelIdeal.Val.wrapIdx sr) e))) * Cert.KernelIdeal.Val.cnorm dr (ix1 n)) * w2r (ix2 k j)) + b2r (ix1 j)))
          + ((∑ k : Fin 256, ((∑ e ∈ landing (Cert.KernelIdeal.Val.colIdx dj) n, H (ix2 (grow (Cert.KernelIdeal.Val.wrapIdx sj) e) k) * Cert.KernelIdeal.Val.cnorm sj (ix1 (grow (Cert.KernelIdeal.Val.wrapIdx sj) e))) * Cert.KernelIdeal.Val.cnorm dj (ix1 n)) * w2j (ix2 k j)) + b2j (ix1 j))) (Cert.ReferenceIdeal.RefSpec.refHidden x sb db sr dr sj dj w1b b1b w1r b1r w1j b1j) := by
  unfold Cert.ReferenceIdeal.RefSpec.refOut Cert.ReferenceIdeal.RefSpec.conv2
  rw [addf_apply, addf_apply, addf_apply, addf_apply, addf_apply, addf_apply, zeros_apply,
    rdot2_apply, rdot2_apply, rdot2_apply, HostAt.bias_apply, HostAt.bias_apply, HostAt.bias_apply]
  simp only [ragg256_apply, colIdx_eq, wrapIdx_eq, cnorm_eq]

/-- THE BRIDGE: on real-valued float arguments the kernel's program and the reference compute the same result. -/
theorem kernelOut_eq_refOut (x : FVec Ideal Cert.KernelIdeal.S100000x128 .f32) (sb db sr dr sj dj : IVec Cert.KernelIdeal.S500000 32)
    (w1b : FVec Ideal Cert.KernelIdeal.S128x256 .f32) (b1b : FVec Ideal Cert.KernelIdeal.S256 .f32) (w1r : FVec Ideal Cert.KernelIdeal.S128x256 .f32) (b1r : FVec Ideal Cert.KernelIdeal.S256 .f32)
    (w1j : FVec Ideal Cert.KernelIdeal.S128x256 .f32) (b1j : FVec Ideal Cert.KernelIdeal.S256 .f32)
    (w2b : FVec Ideal Cert.KernelIdeal.S256x128 .f32) (b2b : FVec Ideal Cert.KernelIdeal.S128 .f32) (w2r : FVec Ideal Cert.KernelIdeal.S256x128 .f32) (b2r : FVec Ideal Cert.KernelIdeal.S128 .f32)
    (w2j : FVec Ideal Cert.KernelIdeal.S256x128 .f32) (b2j : FVec Ideal Cert.KernelIdeal.S128 .f32)
    (hx : ∀ i, IsReal (x i)) (hw1b : ∀ i, IsReal (w1b i)) (hb1b : ∀ i, IsReal (b1b i)) (hw1r : ∀ i, IsReal (w1r i)) (hb1r : ∀ i, IsReal (b1r i))
    (hw1j : ∀ i, IsReal (w1j i)) (hb1j : ∀ i, IsReal (b1j i))
    (hw2b : ∀ i, IsReal (w2b i)) (hw2r : ∀ i, IsReal (w2r i)) (hw2j : ∀ i, IsReal (w2j i)) :
    Cert.KernelIdeal.Val.kernelOut x sb db sr dr sj dj w1b b1b w1r b1r w1j b1j w2b b2b w2r b2r w2j b2j = Cert.ReferenceIdeal.RefSpec.refOut x sb db sr dr sj dj w1b b1b w1r b1r w1j b1j w2b b2b w2r b2r w2j b2j := by
  funext i
  obtain ⟨n, j, rfl⟩ : ∃ (n : Fin 100000) (j : Fin 128), i = ix2 n j := ⟨i 0, i 1, eq_ix2 i⟩
  rw [kernelOut_apply, refOut_apply, ← hidden_eq]
  have hH := isReal_hidden x sb db sr dr sj dj w1b b1b w1r b1r w1j b1j hx hw1b hb1b hw1r hb1r hw1j hb1j
  dsimp only
  rw [layer2_law _ hH sb db w2b hw2b n j, layer2_law _ hH sr dr w2r hw2r n j, layer2_law _ hH sj dj w2j hw2j n j]
  exact (add3_rearrange _ _ _ _ _ _).symm

end Cert.Bridge

end
-- ==== Proof.FiniteInputs.lean ====
/-
  The precondition read: every entry of the thirteen float arguments is a real number.

  The precondition compares the absolute value of every entry with +∞ and asks that all comparisons hold. At the
  exact reading |a| < +∞ says `a` is neither +∞ nor −∞, so `a` is a real number.
-/
import proofs.«149725_j35570919145822_2_alg».proof.Proof.LibRealSums
import proofs.«149725_j35570919145822_2_alg».proof.Pre_finite_inputs
import proofs.«149725_j35570919145822_2_alg».proof.Proof.Gen.Pre_finite_inputs
import Idealize.ShloMosaic.PureOps.Ideal
import Idealize.ShloMosaic.Lib.ValueIdx
import Idealize.ShloMosaic.Lib.ReduceAll
import Idealize.ShloMosaic.Lib.Affine

noncomputable section

namespace Cert.Finite

open Cert.Pre_finite_inputs
open Idealize.ShloMosaic Idealize.ShloMosaic.ValueIdx
open Cert.Lib.RealSums

instance : Subsingleton S_.Idx := ⟨fun a b => funext fun d => d.elim0⟩

/-- The pattern the precondition compares with is +∞. -/
theorem ofBits_inf : Ideal.ofBits .f32 0x7F800000#32 = ⊤ := by simp [Ideal.ofBits, Ideal.ieee]

/-- An extended real whose absolute value is below +∞ is a real number. -/
theorem isReal_of_abs_lt_inf (a : EReal)
    (h : FloatOps.cmpf (F := Ideal) (φ := .f32) .olt (FloatOps.hostAbsf (F := Ideal) (φ := .f32) a) (Ideal.ofBits .f32 0x7F800000#32) = 1#1) :
    IsReal a := by
  rw [ofBits_inf] at h
  have h' : max a (-a) < (⊤ : EReal) := by
    by_contra hc
    have : FloatOps.cmpf (F := Ideal) (φ := .f32) .olt (FloatOps.hostAbsf (F := Ideal) (φ := .f32) a) (⊤ : EReal) = 0#1 := by
      show BitVec.ofBool (decide (max a (-a) < (⊤ : EReal))) = 0#1
      rw [decide_eq_false hc]; rfl
    rw [this] at h; exact absurd h (by decide)
  induction a using EReal.rec with
  | bot => exact absurd h' (by simp)
  | top => exact absurd h' (by simp)
  | coe r => exact ⟨r, rfl⟩

/-- One `all(|v| < +∞)` of the precondition gives every entry of `v` real. -/
theorem isReal_of_all {s : Shape} {axes : List (Fin s.rank)} (v : FVec Ideal s .f32) (hb : (⟨0, ![]⟩ : Shape).BroadcastsInDim s ![])
    (h : s.ReducesTo axes S_) (hu : 0 < S_.numel)
    (e : Host.reduce IntOp.andi (cmpf .olt (Host.absf v) (broadcastInDim s ![] hb (constant (F := Ideal) S_ .f32 0x7F800000#32)))
      (constantI S_ 1 1#1) h hu ix0 = 1#1) (i : s.Idx) : IsReal (v i) :=
  isReal_of_abs_lt_inf (v i) (Host.reduce_andi_all _ _ h hu ix0 e i)

/-- Under the precondition every float argument is real-valued. -/
theorem isReal_of_pre [Cert.Pre_finite_inputs.Facts] (x : FVec Ideal S100000x128 .f32) (sb db sr dr sj dj : IVec S500000 32)
    (w1b : FVec Ideal S128x256 .f32) (b1b : FVec Ideal S256 .f32) (w1r : FVec Ideal S128x256 .f32) (b1r : FVec Ideal S256 .f32)
    (w1j : FVec Ideal S128x256 .f32) (b1j : FVec Ideal S256 .f32)
    (w2b : FVec Ideal S256x128 .f32) (b2b : FVec Ideal S128 .f32) (w2r : FVec Ideal S256x128 .f32) (b2r : FVec Ideal S128 .f32)
    (w2j : FVec Ideal S256x128 .f32) (b2j : FVec Ideal S128 .f32)
    (h : fn (F := Ideal) x sb db sr dr sj dj w1b b1b w1r b1r w1j b1j w2b b2b w2r b2r w2j b2j = fun _ => 1#1) :
    (∀ i, IsReal (x i)) ∧ (∀ i, IsReal (w1b i)) ∧ (∀ i, IsReal (b1b i)) ∧ (∀ i, IsReal (w1r i)) ∧ (∀ i, IsReal (b1r i)) ∧ (∀ i, IsReal (w1j i)) ∧ (∀ i, IsReal (b1j i)) ∧ (∀ i, IsReal (w2b i)) ∧ (∀ i, IsReal (b2b i)) ∧ (∀ i, IsReal (w2r i)) ∧ (∀ i, IsReal (b2r i)) ∧ (∀ i, IsReal (w2j i)) ∧ (∀ i, IsReal (b2j i)) := by
  have h0 := congrFun h ix0
  dsimp only [fn, fn_part1, fn_part2, fn_part3] at h0
  have hand : ∀ (a b : IVec S_ 1), andi a b ix0 = 1#1 ↔ a ix0 = 1#1 ∧ b ix0 = 1#1 := fun a b => IntOp.andi_eq_one
  simp only [hand] at h0
  obtain ⟨⟨⟨⟨⟨⟨⟨⟨⟨⟨⟨⟨e0, e1⟩, e2⟩, e3⟩, e4⟩, e5⟩, e6⟩, e7⟩, e8⟩, e9⟩, e10⟩, e11⟩, e12⟩ := h0
  exact ⟨fun i => isReal_of_all _ _ _ _ e0 i, fun i => isReal_of_all _ _ _ _ e1 i, fun i => isReal_of_all _ _ _ _ e2 i,
    fun i => isReal_of_all _ _ _ _ e3 i, fun i => isReal_of_all _ _ _ _ e4 i, fun i => isReal_of_all _ _ _ _ e5 i,
    fun i => isReal_of_all _ _ _ _ e6 i, fun i => isReal_of_all _ _ _ _ e7 i, fun i => isReal_of_all _ _ _ _ e8 i,
    fun i => isReal_of_all _ _ _ _ e9 i, fun i => isReal_of_all _ _ _ _ e10 i, fun i => isReal_of_all _ _ _ _ e11 i,
    fun i => isReal_of_all _ _ _ _ e12 i⟩

end Cert.Finite

end
-- ==== Proof.lean ====
/-
  Two GraphConv layers over three relations: the Pallas program against the plain jnp reference.

  Both compute, per relation r with edges (src_r, dst_r), the symmetric-normalised aggregate
  D_dst^(−1/2) · A_r · D_src^(−1/2) applied to the features, times a weight matrix, plus a bias; sum the three relations;
  apply max(·, 0) after the first layer; and repeat on the hidden features.
  The Pallas program differs in three exact rearrangements: it scales the node table by D_src^(−1/2) before gathering
  instead of scaling the gathered rows; it folds D_dst^(−1/2) into the dense kernels; and in the second layer it
  multiplies by the weight matrix BEFORE aggregating (the aggregate is linear in the features). The last one moves a sum
  over features across a sum over edges and two scalings, which on the extended reals needs every number involved to be
  real: that is where the precondition (all float inputs finite) is used. Everything else is reindexing, and
  commutativity and associativity of addition.

  * frames: every run terminates and leaves the arguments as launched (`Kernel` at the word level and `KernelIdeal` at
    the exact reading through the same three-region run; the reference through its host run);
  * preserves: the idealization rewrote nothing;
  * algebraic: the kernel's result array is `kernelOut` of the arguments, the reference's is `refOut` of them, and the
    two functions agree on real-valued arguments (`Cert.Bridge.kernelOut_eq_refOut`).
-/
import proofs.«149725_j35570919145822_2_alg».proof.Defs
import proofs.«149725_j35570919145822_2_alg».proof.Proof.Gen.Kernel
import proofs.«149725_j35570919145822_2_alg».proof.Proof.Gen.KernelIdeal
import proofs.«149725_j35570919145822_2_alg».proof.Proof.Gen.ReferenceIdeal
import proofs.«149725_j35570919145822_2_alg».proof.Proof.Gen.Pre_finite_inputs
import proofs.«149725_j35570919145822_2_alg».proof.Proof.KernelFrame
import proofs.«149725_j35570919145822_2_alg».proof.Proof.KernelIdealFrame
import proofs.«149725_j35570919145822_2_alg».proof.Proof.KernelIdealValue
import proofs.«149725_j35570919145822_2_alg».proof.Proof.ReferenceFrame
import proofs.«149725_j35570919145822_2_alg».proof.Proof.ReferenceValue
import proofs.«149725_j35570919145822_2_alg».proof.Proof.BridgeMain
import proofs.«149725_j35570919145822_2_alg».proof.Proof.FiniteInputs

set_option maxRecDepth 16384

noncomputable section

namespace Cert.Proof

open Idealize.ShloMosaic Idealize.ShloMosaic.TcCoe Idealize.SL.Sem

theorem frame_p : Cert.frame_Kernel := fun m ρ _ => Cert.Kernel.Frm.frame m ρ

theorem frame_pi : Cert.frame_KernelIdeal := fun m ρ _ => Cert.KernelIdeal.Frm.frame m ρ

theorem preserves : Cert.preserves_Kernel_KernelIdeal := trivial

/-- Both idealized programs run, and from memories that agree on the (finite) arguments they end with equal results. -/
theorem algebraic : Cert.algebraic_KernelIdeal_ReferenceIdeal := by
  intro m ρ m' ρ' hpre hagree
  refine ⟨fun c => Cert.KernelIdeal.Val.kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)), ?_, ?_⟩
  · refine (θ_run Cert.KernelIdeal.defs _ _).mono (fun r h c => ?_) (Cert.KernelIdeal.Frm.run_all m ρ)
    exact ⟨(h c _ (Cert.KernelIdeal.Frm.mem_uc Cert.KernelIdeal.main_v123 (by decide))).trans (Cert.KernelIdeal.Val.kernel_value m c),
      (h c _ (Cert.KernelIdeal.Frm.mem_uc Cert.KernelIdeal.main_arg0 (by decide))).trans (Cert.KernelIdeal.Frm.X17_main_arg0 m c),
      (h c _ (Cert.KernelIdeal.Frm.mem_uc Cert.KernelIdeal.main_arg1 (by decide))).trans (Cert.KernelIdeal.Frm.X17_main_arg1 m c),
      (h c _ (Cert.KernelIdeal.Frm.mem_uc Cert.KernelIdeal.main_arg2 (by decide))).trans (Cert.KernelIdeal.Frm.X17_main_arg2 m c),
      (h c _ (Cert.KernelIdeal.Frm.mem_uc Cert.KernelIdeal.main_arg3 (by decide))).trans (Cert.KernelIdeal.Frm.X17_main_arg3 m c),
      (h c _ (Cert.KernelIdeal.Frm.mem_uc Cert.KernelIdeal.main_arg4 (by decide))).trans (Cert.KernelIdeal.Frm.X17_main_arg4 m c),
      (h c _ (Cert.KernelIdeal.Frm.mem_uc Cert.KernelIdeal.main_arg5 (by decide))).trans (Cert.KernelIdeal.Frm.X17_main_arg5 m c),
      (h c _ (Cert.KernelIdeal.Frm.mem_uc Cert.KernelIdeal.main_arg6 (by decide))).trans (Cert.KernelIdeal.Frm.X17_main_arg6 m c),
      (h c _ (Cert.KernelIdeal.Frm.mem_uc Cert.KernelIdeal.main_arg7 (by decide))).trans (Cert.KernelIdeal.Frm.X17_main_arg7 m c),
      (h c _ (Cert.KernelIdeal.Frm.mem_uc Cert.KernelIdeal.main_arg8 (by decide))).trans (Cert.KernelIdeal.Frm.X17_main_arg8 m c),
      (h c _ (Cert.KernelIdeal.Frm.mem_uc Cert.KernelIdeal.main_arg9 (by decide))).trans (Cert.KernelIdeal.Frm.X17_main_arg9 m c),
      (h c _ (Cert.KernelIdeal.Frm.mem_uc Cert.KernelIdeal.main_arg10 (by decide))).trans (Cert.KernelIdeal.Frm.X17_main_arg10 m c),
      (h c _ (Cert.KernelIdeal.Frm.mem_uc Cert.KernelIdeal.main_arg11 (by decide))).trans (Cert.KernelIdeal.Frm.X17_main_arg11 m c),
      (h c _ (Cert.KernelIdeal.Frm.mem_uc Cert.KernelIdeal.main_arg12 (by decide))).trans (Cert.KernelIdeal.Frm.X17_main_arg12 m c),
      (h c _ (Cert.KernelIdeal.Frm.mem_uc Cert.KernelIdeal.main_arg13 (by decide))).trans (Cert.KernelIdeal.Frm.X17_main_arg13 m c),
      (h c _ (Cert.KernelIdeal.Frm.mem_uc Cert.KernelIdeal.main_arg14 (by decide))).trans (Cert.KernelIdeal.Frm.X17_main_arg14 m c),
      (h c _ (Cert.KernelIdeal.Frm.mem_uc Cert.KernelIdeal.main_arg15 (by decide))).trans (Cert.KernelIdeal.Frm.X17_main_arg15 m c),
      (h c _ (Cert.KernelIdeal.Frm.mem_uc Cert.KernelIdeal.main_arg16 (by decide))).trans (Cert.KernelIdeal.Frm.X17_main_arg16 m c),
      (h c _ (Cert.KernelIdeal.Frm.mem_uc Cert.KernelIdeal.main_arg17 (by decide))).trans (Cert.KernelIdeal.Frm.X17_main_arg17 m c),
      (h c _ (Cert.KernelIdeal.Frm.mem_uc Cert.KernelIdeal.main_arg18 (by decide))).trans (Cert.KernelIdeal.Frm.X17_main_arg18 m c)⟩
  · refine (θ_run Cert.ReferenceIdeal.defs _ _).mono (fun r h c => ⟨(h c).1.trans ?_, (h c).2⟩)
      (Cert.ReferenceIdeal.ValueP.run (F := Ideal) m' ρ')
    rw [Cert.ReferenceIdeal.RefSpec.res_eq m' c]
    obtain ⟨a0, a1, a2, a3, a4, a5, a6, a7, a8, a9, a10, a11, a12, a13, a14, a15, a16, a17, a18⟩ := hagree c
    rw [a0, a1, a2, a3, a4, a5, a6, a7, a8, a9, a10, a11, a12, a13, a14, a15, a16, a17, a18]
    obtain ⟨hx, hw1b, hb1b, hw1r, hb1r, hw1j, hb1j, hw2b, hb2b, hw2r, hb2r, hw2j, hb2j⟩ := Cert.Finite.isReal_of_pre _ _ _ _ _ _ _ _ _ _ _ _ _ _ _ _ _ _ _ (hpre c)
    exact (Cert.Bridge.kernelOut_eq_refOut _ _ _ _ _ _ _ _ _ _ _ _ _ _ _ _ _ _ _ hx hw1b hb1b hw1r hb1r hw1j hb1j hw2b hw2r hw2j).symm

theorem claim : Cert.Claim :=
  ⟨Cert.Kernel.Gen.facts, Cert.KernelIdeal.Gen.facts, Cert.ReferenceIdeal.Gen.facts, Cert.Pre_finite_inputs.Gen.facts,
    frame_p, frame_pi, Cert.Proof.Ref.frame_ri, preserves, algebraic⟩

end Cert.Proof

end
